-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S128x16 : Shape := ⟨2, ![128, 16]⟩
abbrev S16 : Shape := ⟨1, ![16]⟩
abbrev S2x1600000 : Shape := ⟨2, ![2, 1600000]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S128 .f32) (main_arg5 : FVec F S128x16 .f32) (main_arg6 : FVec F S16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x16 .f32 := Host.absf main_arg5
  let main_cst_8 : FVec F S_ .f32 := constant S_ .f32 0x7F800000#32
  let main_v25 : FVec F S128x16 .f32 := broadcastInDim S128x16 ![] bcast_S_S128x16 main_cst_8
  let main_v26 : IVec S128x16 1 := cmpf .olt main_v24 main_v25
  let main_c_9 : IVec S_ 1 := constantI S_ 1 1#1
  let main_v27 : IVec S_ 1 := (fun x v => Host.reduce IntOp.andi x v reducesTo_S128x16_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S100000x128 .f32) (main_arg1 : FVec F S128x128 .f32) (main_arg2 : FVec F S128 .f32) (main_arg3 : FVec F S128x128 .f32) (main_arg4 : FVec F S128 .f32) (main_arg5 : FVec F S128x16 .f32) (main_arg6 : FVec F S16 .f32) (main_arg7 : IVec S2x1600000 32) (main_arg8 : IVec S100000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S100000x128 : Shape := ⟨2, ![100000, 128]⟩
abbrev S128x128 : Shape := ⟨2, ![128, 128]⟩
abbrev S128 : Shape := ⟨1, ![128]⟩
abbrev S128x16 : Shape := ⟨2, ![128, 16]⟩
abbrev S16 : Shape := ⟨1, ![16]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S5000x128 : Shape := ⟨2, ![5000, 128]⟩
abbrev S5000x1 : Shape := ⟨2, ![5000, 1]⟩
abbrev S1600000x128 : Shape := ⟨2, ![1600000, 128]⟩
abbrev S1x128 : Shape := ⟨2, ![1, 128]⟩
abbrev S64x128 : Shape := ⟨2, ![64, 128]⟩
abbrev S64 : Shape := ⟨1, ![64]⟩
abbrev S64x1 : Shape := ⟨2, ![64, 1]⟩
abbrev S1x16 : Shape := ⟨2, ![1, 16]⟩
abbrev S64x16 : Shape := ⟨2, ![64, 16]⟩

abbrev nBuf : Space → Nat
  | .hbm => 70
  | .vmem => 31
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x16, .f32⟩
  | .hbm, ⟨6, _⟩ => ⟨S16, .f32⟩
  | .hbm, ⟨7, _⟩ => ⟨S2x1600000, .i32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S100000x128, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S100000x1, .f32⟩
  | .hbm, ⟨39, _⟩ => ⟨S1x128, .f32⟩
  | .hbm, ⟨40, _⟩ => ⟨S100000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S100000x1, .f32⟩
  | .hbm, ⟨55, _⟩ => ⟨S1x128, .f32⟩
  | .hbm, ⟨56, _⟩ => ⟨S100000x128, .f32⟩
  | .hbm, ⟨57, _⟩ => ⟨S_, .f32⟩
  | .hbm, ⟨58, _⟩ => ⟨S64x128, .f32⟩
  | .hbm, ⟨59, _⟩ => ⟨S100000x1, .i32⟩
  | .hbm, ⟨60, _⟩ => ⟨S64x128, .f32⟩
  | .hbm, ⟨61, _⟩ => ⟨S_, .f32⟩
  | .hbm, ⟨62, _⟩ => ⟨S100000, .f32⟩
  | .hbm, ⟨63, _⟩ => ⟨S_, .f32⟩
  | .hbm, ⟨64, _⟩ => ⟨S64, .f32⟩
  | .hbm, ⟨65, _⟩ => ⟨S100000x1, .i32⟩
  | .hbm, ⟨66, _⟩ => ⟨S64, .f32⟩
  | .hbm, ⟨67, _⟩ => ⟨S64x1, .f32⟩
  | .hbm, ⟨68, _⟩ => ⟨S1x16, .f32⟩
  | .hbm, ⟨69, _⟩ => ⟨S64x16, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x1, .f32⟩
  | .local _ .vmem, ⟨12, _⟩ => ⟨S5000x1, .f32⟩
  | .local _ .vmem, ⟨13, _⟩ => ⟨S1x128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x1, .f32⟩
  | .local _ .vmem, ⟨22, _⟩ => ⟨S5000x1, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S64x128, .f32⟩
  | .local _ .vmem, ⟨27, _⟩ => ⟨S64x1, .f32⟩
  | .local _ .vmem, ⟨28, _⟩ => ⟨S128x16, .f32⟩
  | .local _ .vmem, ⟨29, _⟩ => ⟨S1x16, .f32⟩
  | .local _ .vmem, ⟨30, _⟩ => ⟨S64x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_4 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc3_stg0_0 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem4_1 : DmaSem sig := 25
abbrev cc3_sem0_0 : DmaSem sig := 26
abbrev cc3_sem1_0 : DmaSem sig := 27
abbrev cc3_sem2_0 : DmaSem sig := 28
abbrev cc3_sem3_0 : DmaSem sig := 29
abbrev cc3_sem4_0 : DmaSem sig := 30

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S64x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S64x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x16 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S64x128 : S_.BroadcastsInDim S64x128 (![] : Fin 0 → Fin S64x128.rank)
  bcast_S100000_S100000x1_0 : S100000.BroadcastsInDim S100000x1 (![0] : Fin 1 → Fin S100000x1.rank)
  bcast_S_S64 : S_.BroadcastsInDim S64 (![] : Fin 0 → Fin S64.rank)
  shapeCasts_S64_S64x1 : S64.ShapeCasts S64x1
  shapeCasts_S16_S1x16 : S16.ShapeCasts S1x16
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x128 : S64x1.Broadcasts S64x128
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S64x16 : S1x16.Broadcasts S64x16
  inb_S64x16_S64x16_0_0 : ∀ a, (![0, 0] : Fin 2 → Nat) a + S64x16.size a ≤ S64x16.size a
  h_S64x16 : 0 < S64x16.numel
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x16_S64x16_1_0_0_1_n_n_wf : DotDims.WF S64x128 S128x16 S64x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S64x128.size a ≤ S64x128.size a
  hwx3_0 : ∀ i : grid3.Coords, EltTy.bits .f32 = 32 ∨ (Rect.block (s := S64x128) S64x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x1.size a ≤ S64x1.size a
  hwx3_1 : ∀ i : grid3.Coords, EltTy.bits .f32 = 32 ∨ (Rect.block (s := S64x1) S64x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x16.size a ≤ S128x16.size a
  hwx3_2 : ∀ i : grid3.Coords, EltTy.bits .f32 = 32 ∨ (Rect.block (s := S128x16) S128x16.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x16.size a ≤ S1x16.size a
  hwx3_3 : ∀ i : grid3.Coords, EltTy.bits .f32 = 32 ∨ (Rect.block (s := S1x16) S1x16.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x16.size a ≤ S64x16.size a
  hwx3_4 : ∀ i : grid3.Coords, EltTy.bits .f32 = 32 ∨ (Rect.block (s := S64x16) S64x16.size (cc3_transform_4 i) (hinb3_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x16_S64x16_1_0_0_1_n_n : DotDims S64x128 S128x16 S64x16 where
  lhsContracting := [1]
  rhsContracting := [0]
  lhsNonContracting := [0]
  rhsNonContracting := [1]
  lhsBatch := []
  rhsBatch := []
  wf := dot_S64x128_S128x16_S64x16_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v35) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v36) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v37) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v41) S64x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v46) S64x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg5) S128x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v47) S1x16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v48) S64x16.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S128x16 : Shape := ⟨2, ![128, 16]⟩
abbrev S16 : Shape := ⟨1, ![16]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S64x128 : Shape := ⟨2, ![64, 128]⟩
abbrev S64 : Shape := ⟨1, ![64]⟩
abbrev S64x1 : Shape := ⟨2, ![64, 1]⟩
abbrev S64x16 : Shape := ⟨2, ![64, 16]⟩
abbrev S1x16 : Shape := ⟨2, ![1, 16]⟩

abbrev nBuf : Space → Nat
  | .hbm => 138
  | .vmem => 0
  | .smem => 0
  | _ => 0

abbrev hbmTy0_0 (i : Nat) : BufTy := match i % 128 with
  | 0 => ⟨S100000x128, .f32⟩
  | 1 => ⟨S128x128, .f32⟩
  | 2 => ⟨S128, .f32⟩
  | 3 => ⟨S128x128, .f32⟩
  | 4 => ⟨S128, .f32⟩
  | 5 => ⟨S128x16, .f32⟩
  | 6 => ⟨S16, .f32⟩
  | 7 => ⟨S2x1600000, .i32⟩
  | 8 => ⟨S100000, .i32⟩
  | 9 => ⟨S1x1600000, .i32⟩
  | 10 => ⟨S1600000, .i32⟩
  | 11 => ⟨S1x1600000, .i32⟩
  | 12 => ⟨S1600000, .i32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .f32⟩
  | 22 => ⟨S100000, .f32⟩
  | 23 => ⟨S_, .f32⟩
  | 24 => ⟨S100000, .f32⟩
  | 25 => ⟨S100000, .f32⟩
  | 26 => ⟨S100000x128, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000, .f32⟩
  | 45 => ⟨S1600000, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000x128, .f32⟩
  | 55 => ⟨S1600000x1, .f32⟩
  | 56 => ⟨S1600000x128, .f32⟩
  | 57 => ⟨S1600000x128, .f32⟩
  | 58 => ⟨S_, .f32⟩
  | 59 => ⟨S100000x128, .f32⟩
  | 60 => ⟨S1600000x1, .i32⟩
  | 61 => ⟨S100000x128, .f32⟩
  | 62 => ⟨S100000x1, .f32⟩
  | 63 => ⟨S100000x128, .f32⟩
  | 64 => ⟨S100000x128, .f32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S100000x128, .f32⟩
  | 71 => ⟨S100000x128, .f32⟩
  | 72 => ⟨S100000x128, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S1600000, .f32⟩
  | 82 => ⟨S_, .i32⟩
  | 83 => ⟨S1600000, .i32⟩
  | 84 => ⟨S1600000, .i1⟩
  | 85 => ⟨S_, .i32⟩
  | 86 => ⟨S1600000, .i32⟩
  | 87 => ⟨S1600000, .i32⟩
  | 88 => ⟨S1600000, .i32⟩
  | 89 => ⟨S1600000x1, .i32⟩
  | 90 => ⟨S1600000, .f32⟩
  | 91 => ⟨S1600000, .f32⟩
  | 92 => ⟨S_, .i32⟩
  | 93 => ⟨S1600000, .i32⟩
  | 94 => ⟨S1600000, .i1⟩
  | 95 => ⟨S_, .i32⟩
  | 96 => ⟨S1600000, .i32⟩
  | 97 => ⟨S1600000, .i32⟩
  | 98 => ⟨S1600000, .i32⟩
  | 99 => ⟨S1600000x1, .i32⟩
  | 100 => ⟨S1600000x128, .f32⟩
  | 101 => ⟨S1600000x1, .f32⟩
  | 102 => ⟨S1600000x128, .f32⟩
  | 103 => ⟨S1600000x128, .f32⟩
  | 104 => ⟨S_, .f32⟩
  | 105 => ⟨S100000x128, .f32⟩
  | 106 => ⟨S1600000x1, .i32⟩
  | 107 => ⟨S100000x128, .f32⟩
  | 108 => ⟨S100000x1, .f32⟩
  | 109 => ⟨S100000x128, .f32⟩
  | 110 => ⟨S100000x128, .f32⟩
  | 111 => ⟨S100000x128, .f32⟩
  | 112 => ⟨S1x128, .f32⟩
  | 113 => ⟨S100000x128, .f32⟩
  | 114 => ⟨S100000x128, .f32⟩
  | 115 => ⟨S_, .f32⟩
  | 116 => ⟨S100000x128, .f32⟩
  | 117 => ⟨S100000x128, .f32⟩
  | 118 => ⟨S_, .f32⟩
  | 119 => ⟨S64x128, .f32⟩
  | 120 => ⟨S100000x1, .i32⟩
  | 121 => ⟨S64x128, .f32⟩
  | 122 => ⟨S_, .f32⟩
  | 123 => ⟨S100000, .f32⟩
  | 124 => ⟨S_, .f32⟩
  | 125 => ⟨S64, .f32⟩
  | 126 => ⟨S100000x1, .i32⟩
  | 127 => ⟨S64, .f32⟩
  | _ => ⟨S100000x128, .f32⟩

abbrev hbmTy0_1 (i : Nat) : BufTy := match i % 128 with
  | 0 => ⟨S_, .f32⟩
  | 1 => ⟨S64, .f32⟩
  | 2 => ⟨S64, .f32⟩
  | 3 => ⟨S64x1, .f32⟩
  | 4 => ⟨S64x128, .f32⟩
  | 5 => ⟨S64x128, .f32⟩
  | 6 => ⟨S64x16, .f32⟩
  | 7 => ⟨S1x16, .f32⟩
  | 8 => ⟨S64x16, .f32⟩
  | 9 => ⟨S64x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_c_7 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_8 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call0_cst : Ref sig .tc := ⟨.hbm, 69, rfl⟩
abbrev main_call0_v0 : Ref sig .tc := ⟨.hbm, 70, rfl⟩
abbrev main_v49 : Ref sig .tc := ⟨.hbm, 71, rfl⟩
abbrev main_v50 : Ref sig .tc := ⟨.hbm, 72, rfl⟩
abbrev main_c_9 : Ref sig .tc := ⟨.hbm, 73, rfl⟩
abbrev main_v51 : Ref sig .tc := ⟨.hbm, 74, rfl⟩
abbrev main_v52 : Ref sig .tc := ⟨.hbm, 75, rfl⟩
abbrev main_c_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_11 : Ref sig .tc := ⟨.hbm, 82, rfl⟩
abbrev main_v58 : Ref sig .tc := ⟨.hbm, 83, rfl⟩
abbrev main_v59 : Ref sig .tc := ⟨.hbm, 84, rfl⟩
abbrev main_c_12 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_13 : Ref sig .tc := ⟨.hbm, 92, rfl⟩
abbrev main_v66 : Ref sig .tc := ⟨.hbm, 93, rfl⟩
abbrev main_v67 : Ref sig .tc := ⟨.hbm, 94, rfl⟩
abbrev main_c_14 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_15 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_call1_cst : Ref sig .tc := ⟨.hbm, 115, rfl⟩
abbrev main_call1_v0 : Ref sig .tc := ⟨.hbm, 116, rfl⟩
abbrev main_v86 : Ref sig .tc := ⟨.hbm, 117, rfl⟩
abbrev main_cst_16 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_cst_17 : Ref sig .tc := ⟨.hbm, 122, rfl⟩
abbrev main_v90 : Ref sig .tc := ⟨.hbm, 123, rfl⟩
abbrev main_cst_18 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_cst_19 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S16_S1x16_1 : S16.BroadcastsInDim S1x16 (![1] : Fin 1 → Fin S1x16.rank)
  bcast_S1x16_S64x16_0_1 : S1x16.BroadcastsInDim S64x16 (![0, 1] : Fin 2 → Fin S64x16.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x16_S64x16_1_0_0_1_n_n_wf : DotDims.WF S64x128 S128x16 S64x16 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x16_S64x16_1_0_0_1_n_n : DotDims S64x128 S128x16 S64x16 where
  lhsContracting := [1]
  rhsContracting := [0]
  lhsNonContracting := [0]
  rhsNonContracting := [1]
  lhsBatch := []
  rhsBatch := []
  wf := dot_S64x128_S128x16_S64x16_1_0_0_1_n_n_wf

class Facts : Prop extends Facts₀ where

variable [Facts]
-- ==== Proof.KernelRun.lean ====
/-
  The idealized kernel's run with its result named.

  The program is four pipelined regions among stretches of host operations. Every weakly fair execution ends with each
  unscoped buffer at the contents the last boundary of the run gives it; for the result buffer that is what the fourth
  region's write-backs leave, and for the nine arguments the launch contents. The run is the library's launch over the
  generated segments, with the final memory read at the result buffer as well as at the arguments.
-/
import proofs.«121145_j20194936226696_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last boundary's contents
    (`W8`), the arguments as launched. -/
theorem run : θ_run defs (onTc (τ := τ) (main (F := F))) ⟨m, fun _ => 0, ρ⟩ (fun r => ∀ c : Dev nD,
      r.2.mem ((c.tc : Thread nD τ).loc main_v48) = W8 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v48 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c)⟩)

end Cert.KernelIdeal.Whole

end
-- ==== Proof.LibPlainMatmul.lean ====
/- Two contractions read at coordinates, on the extended reals, for any extents: a `tpu.matmul` with the plain dimension
   numbers (rows × contraction by contraction × columns) into the zero accumulator, at (p, c), is the sum over the
   contraction coordinate k of left(p, k) · right(k, c); and a lane sum of a matrix (a `vector.multi_reduction <add>`
   along axis 1 from the neutral accumulator), at row p, is the sum over k of the matrix at (p, k). Nothing here depends
   on a particular program: a printed record with the plain lists is `DotDims.plain` by `rfl`. -/
import Idealize.ShloMosaic.PureOps.Ideal
import Idealize.ShloMosaic.PureOps.Ideal.Laws
import Idealize.ShloMosaic.Lib.ValueIdx

noncomputable section

open scoped BigOperators

open Idealize.ShloMosaic Idealize.ShloMosaic.ValueIdx

namespace Cert.Lib.PlainMatmul

/-- A matrix product with the plain dimension numbers into the zero accumulator, read at (p, c): the sum over the one
    contraction coordinate of the left operand's row p against the right operand's column c. -/
theorem plain_matmul_zero_apply {M K N : ℕ} {φ₁ φ₂ : FTy} (l : FVec Ideal ⟨2, ![M, K]⟩ φ₁) (r : FVec Ideal ⟨2, ![K, N]⟩ φ₂)
    (p : Fin M) (c : Fin N) :
    FloatOps.matmul (DotDims.plain M K N) none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- A lane sum of a matrix from the neutral accumulator, read at row p: the sum over the lane coordinate of the matrix
    at (p, k). The hypotheses are typed as the library's reading of the reduction takes them; a printed body's proof
    arguments are accepted for them. -/
theorem rowSum_apply {A K : ℕ} (src : FVec Ideal ⟨2, ![A, K]⟩ .f32) (acc : BitVec 32)
    (h : (⟨2, ![A, K]⟩ : Shape).Reduces [1] ⟨1, ![A]⟩) (hφ : FKind.Formats .f32) (hacc : acc = FKind.add.neutral .f32 hφ)
    (p : Fin A) :
    multiReduction .add [1] ⟨1, ![A]⟩ src acc h hφ hacc (ix1 p) = ∑ k : Fin K, src (ix2 p k) :=
  (Ideal.multiReduction_add_single src acc h hφ hacc (ix1 p)).trans
    (Finset.sum_congr rfl fun k _ => congrArg src (funext fun a => Fin.ext (by
      match a with
      | ⟨0, _⟩ => rfl
      | ⟨1, _⟩ => rfl)))

end Cert.Lib.PlainMatmul

end
-- ==== Proof.LibBroadcastReads.lean ====
/- Small layout reads at coordinates, for any extents and any element type: a column `[a, 1]` broadcast along the lanes
   to `[a, b]` (a vector `broadcast` and a host `broadcast_in_dim` with dims [0, 1]), a row `[1, b]` broadcast down the
   rows by a host `broadcast_in_dim` with dims [0, 1], a vector `[a]` made a column `[a, 1]` (dims [0]) and a vector `[b]`
   made a row `[1, b]` (dims [1]). Each reads the operand at the coordinate that survives; the unit axis reads at 0.
   Nothing here depends on a particular program. -/
import Idealize.ShloMosaic.Lib.Pipeline.Value
import Idealize.ShloMosaic.Lib.ValueIdx

noncomputable section

open Idealize.ShloMosaic Idealize.ShloMosaic.ValueIdx

namespace Cert.Lib.BroadcastReads

variable {α : Type}

/-- A vector broadcast of a column `[a, 1]` to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A host broadcast (dims [0, 1]) of a column `[a, 1]` to `[a, b]` reads, at `(p, c)`, the column at row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A host broadcast (dims [0, 1]) of a row `[1, b]` to `[a, b]` reads, at `(p, c)`, the row at column `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[a]` made a column `[a, 1]` by a host broadcast (dims [0]) reads, at `(p, z)`, the vector at `p`. -/
theorem broadcastInDim_a_a1_apply {a : ℕ} (v : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h v (ix2 p z) = v (ix1 p) := by
  refine broadcastInDim_apply _ h v (ix2 p z) (ix1 p) fun ax => ?_
  match ax with
  | ⟨0, _⟩ =>
    show p.val = if a = 1 then 0 else p.val
    split
    · have := p.isLt; omega
    · rfl

/-- A vector `[b]` made a row `[1, b]` by a host broadcast (dims [1]) reads, at `(z, c)`, the vector at `c`. -/
theorem broadcastInDim_b_1b_apply {b : ℕ} (v : (⟨1, ![b]⟩ : Shape).Idx → α)
    (h : (⟨1, ![b]⟩ : Shape).BroadcastsInDim ⟨2, ![1, b]⟩ ![1]) (z : Fin 1) (c : Fin b) :
    broadcastInDim ⟨2, ![1, b]⟩ ![1] h v (ix2 z c) = v (ix1 c) := by
  refine broadcastInDim_apply _ h v (ix2 z c) (ix1 c) fun ax => ?_
  match ax with
  | ⟨0, _⟩ =>
    show c.val = if b = 1 then 0 else c.val
    split
    · have := c.isLt; omega
    · rfl

end Cert.Lib.BroadcastReads

end
-- ==== Proof.Region0.lean ====
/-
  The first region: `hp = (x · W) ⊙ δ`, row block by row block.

  The node axis (100000 rows) is cut into 20 blocks of 5000 rows. At block `t` the body multiplies the block's rows of
  `x` by the whole of `W` and scales row `p` of the product by the block's entry `δ[p]` (a column `[5000, 1]`).
  Entry `(p, q)` of what it stores is `(Σ_k x[p,k] · W[k,q]) · δ[p,0]`, and since block `t` of every operand that moves
  sits at rows `5000·t …`, the whole output array is that same expression of the whole operand arrays.
-/
import proofs.«121145_j20194936226696_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«121145_j20194936226696_2_alg».proof.Proof.LibPlainMatmul
import proofs.«121145_j20194936226696_2_alg».proof.Proof.LibBroadcastReads

set_option maxRecDepth 16384

noncomputable section

open scoped BigOperators

namespace Cert.KernelIdeal.Whole

open Cert.KernelIdeal Cert.KernelIdeal.Gen
open Idealize.ShloMosaic Idealize.ShloMosaic.TcCoe Idealize.ShloMosaic.ValueIdx Idealize.SL.Sem
open Idealize.ShloMosaic.Pipeline (Dat)
open Cert.Lib.PlainMatmul Cert.Lib.BroadcastReads

theorem hz2 : (![0, 0] : Fin 2 → Nat) = fun _ => 0 := funext fun a => by fin_cases a <;> rfl

/-- A product of a matrix with `K = 128` columns by a `128 × C` matrix, scaled row by row: entry `(n, c)`. -/
def scaledProd {A C : ℕ} (a : (⟨2, ![A, 128]⟩ : Shape).Idx → EReal) (w : (⟨2, ![128, C]⟩ : Shape).Idx → EReal)
    (d : (⟨2, ![A, 1]⟩ : Shape).Idx → EReal) : (⟨2, ![A, C]⟩ : Shape).Idx → EReal :=
  fun i => (∑ k : Fin 128, a (ix2 (i 0) k) * w (ix2 k (i 1))) * d (ix2 (i 0) 0)

/-- The first body's stored value at an entry. -/
theorem pay0_apply (x0 : Vec Ideal S5000x128 .f32) (x1 : Vec Ideal S128x128 .f32) (x2 : Vec Ideal S5000x1 .f32)
    (p : Fin 5000) (q : Fin 128) :
    k0_pay1 (F := Ideal) x0 x1 x2 (ix2 p q) = (∑ k : Fin 128, x0 (ix2 p k) * x1 (ix2 k q)) * x2 (ix2 p 0) := by
  unfold k0_pay1
  rw [mulf_apply]
  congr 1
  · exact plain_matmul_zero_apply (M := 5000) (K := 128) (N := 128) _ _ p q
  · rw [broadcastTo_a1_ab_apply (a := 5000) (b := 128), shapeCast_self]

/-- The stored block at an entry, when the body's three loaded blocks are read off whole arrays: row `(i 0)` of `a0`,
    all of `a1`, entry `(i 0)` of the column `a2`. -/
theorem point0 (x0 : Vec Ideal S5000x128 .f32) (x1 : Vec Ideal S128x128 .f32) (x2 : Vec Ideal S5000x1 .f32)
    (a0 : S100000x128.Idx → EReal) (a1 : S128x128.Idx → EReal) (a2 : S100000x1.Idx → EReal)
    (p : Fin 5000) (q : Fin 128) (i : S100000x128.Idx)
    (h0 : ∀ k : Fin 128, x0 (ix2 p k) = a0 (ix2 (i 0) k))
    (h1 : ∀ (k : Fin 128) (q' : Fin 128), x1 (ix2 k q') = a1 (ix2 k q'))
    (h2 : x2 (ix2 p 0) = a2 (ix2 (i 0) 0)) (hi1 : i 1 = q) :
    k0_pay1 (F := Ideal) x0 x1 x2 (ix2 p q) = scaledProd a0 a1 a2 i := by
  rw [pay0_apply]
  unfold scaledProd
  rw [h2, hi1]
  congr 1
  exact Finset.sum_congr rfl fun k _ => by rw [h0, h1]

section
variable (V : (c : Dev nD) → (b : Ref sig .tc) → Buf (Elt Ideal) ((c : Thread nD τ).loc b))

/-- Window 0's block at point `t`, read at an entry: rows `5000·t …` of its array. -/
theorem iblk0_0_apply (c : Dev nD) (t : Fin cfg0.N) (x : S5000x128.Idx) (i : S100000x128.Idx)
    (h0 : (i 0).val = t.val * 5000 + (x 0).val) (h1 : (i 1).val = (x 1).val) :
    (iblk0 (F := Ideal) V c 0 t : Vec Ideal S5000x128 .f32) x = (V c main_arg0 : S100000x128.Idx → EReal) i := by
  have e : ∀ t : Fin cfg0.N, win0_0.index t (0 : Fin 2) = t.val ∧ win0_0.index t (1 : Fin 2) = 0 :=
    (by decide +kernel : ∀ t : Fin grid0.N, _)
  obtain ⟨e0, e1⟩ := e t
  unfold iblk0
  rw [View.read_apply]
  show V c main_arg0 _ = V c main_arg0 _
  congr 1
  funext a
  apply Fin.ext
  match a with
  | ⟨0, _⟩ => show win0_0.index t (0 : Fin 2) * 5000 + 1 * (x 0).val = (i 0).val; rw [e0, h0]; omega
  | ⟨1, _⟩ => show win0_0.index t (1 : Fin 2) * 128 + 1 * (x 1).val = (i 1).val; rw [e1, h1]; omega

/-- Window 1's block at point `t`, read at an entry: the whole of its array (the block does not move). -/
theorem iblk0_1_apply (c : Dev nD) (t : Fin cfg0.N) (x : S128x128.Idx) (i : S128x128.Idx)
    (h0 : (i 0).val = (x 0).val) (h1 : (i 1).val = (x 1).val) :
    (iblk0 (F := Ideal) V c 1 t : Vec Ideal S128x128 .f32) x = (V c main_arg1 : S128x128.Idx → EReal) i := by
  have e : ∀ t : Fin cfg0.N, win0_1.index t (0 : Fin 2) = 0 ∧ win0_1.index t (1 : Fin 2) = 0 :=
    (by decide +kernel : ∀ t : Fin grid0.N, _)
  obtain ⟨e0, e1⟩ := e t
  unfold iblk0
  rw [View.read_apply]
  show V c main_arg1 _ = V c main_arg1 _
  congr 1
  funext a
  apply Fin.ext
  match a with
  | ⟨0, _⟩ => show win0_1.index t (0 : Fin 2) * 128 + 1 * (x 0).val = (i 0).val; rw [e0, h0]; omega
  | ⟨1, _⟩ => show win0_1.index t (1 : Fin 2) * 128 + 1 * (x 1).val = (i 1).val; rw [e1, h1]; omega

/-- Window 2's block at point `t`, read at an entry: rows `5000·t …` of its array. -/
theorem iblk0_2_apply (c : Dev nD) (t : Fin cfg0.N) (x : S5000x1.Idx) (i : S100000x1.Idx)
    (h0 : (i 0).val = t.val * 5000 + (x 0).val) (h1 : (i 1).val = (x 1).val) :
    (iblk0 (F := Ideal) V c 2 t : Vec Ideal S5000x1 .f32) x = (V c main_v11 : S100000x1.Idx → EReal) i := by
  have e : ∀ t : Fin cfg0.N, win0_2.index t (0 : Fin 2) = t.val ∧ win0_2.index t (1 : Fin 2) = 0 :=
    (by decide +kernel : ∀ t : Fin grid0.N, _)
  obtain ⟨e0, e1⟩ := e t
  unfold iblk0
  rw [View.read_apply]
  show V c main_v11 _ = V c main_v11 _
  congr 1
  funext a
  apply Fin.ext
  match a with
  | ⟨0, _⟩ => show win0_2.index t (0 : Fin 2) * 5000 + 1 * (x 0).val = (i 0).val; rw [e0, h0]; omega
  | ⟨1, _⟩ => show win0_2.index t (1 : Fin 2) * 1 + 1 * (x 1).val = (i 1).val; rw [e1, h1]; omega

/-- WHAT POINT `t` WRITES BACK is block `t` of the scaled product of the whole arrays the region finds. -/
theorem flushed0_eq (c : Dev nD) (t : Fin cfg0.N) :
    (dat0 (F := Ideal) V c).flushed 3 t
      = ((cfg0.win 3).blk t).view.read (Elt Ideal) (scaledProd (V c main_arg0) (V c main_arg1) (V c main_v11)) := by
  show (cfg0.win 3).cut (grid0.coords t) ((dat0 V c).after 3 t) = _
  rw [after0_3]
  unfold out0_3
  rw [View.canon_unit_zero hz2]
  simp only [View.ld_unit_zero (S := S5000x128) hz2, View.ld_unit_zero (S := S128x128) hz2, View.ld_unit_zero (S := S5000x1) hz2]
  have e : ∀ t : Fin cfg0.N, win0_3.index t (0 : Fin 2) = t.val ∧ win0_3.index t (1 : Fin 2) = 0 :=
    (by decide +kernel : ∀ t : Fin grid0.N, _)
  obtain ⟨e0, e1⟩ := e t
  funext y
  have hy0 : ((((cfg0.win 3).blk t).view.emb y) 0).val = t.val * 5000 + (y 0).val := by
    show win0_3.index t (0 : Fin 2) * 5000 + 1 * (y 0).val = _; rw [e0]; omega
  have hy1 : ((((cfg0.win 3).blk t).view.emb y) 1).val = (y 1).val := by
    show win0_3.index t (1 : Fin 2) * 128 + 1 * (y 1).val = _; rw [e1]; omega
  refine (congrArg (k0_pay1 (F := Ideal) (iblk0 V c 0 t) (iblk0 V c 1 t) (iblk0 V c 2 t)) (eq_ix2 (n0 := 5000) (n1 := 128) y)).trans ?_
  exact point0 (iblk0 V c 0 t) (iblk0 V c 1 t) (iblk0 V c 2 t) (V c main_arg0) (V c main_arg1) (V c main_v11) (y 0) (y 1)
    (((cfg0.win 3).blk t).view.emb y)
    (fun k => iblk0_0_apply V c t _ _ hy0 rfl)
    (fun k q => iblk0_1_apply V c t _ _ rfl rfl)
    (iblk0_2_apply V c t _ _ hy0 rfl)
    (Fin.ext hy1)

/-- An index of the output array is in point `t`'s block iff each coordinate is in the block's range on its axis. -/
theorem mem_blk0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v12).slice (win0_3.rect t)).set ↔ _
  rw [View.set_slice_whole, Rect.mem_set_unit]
  exact Iff.rfl

/-- Every row of the output lies in the block of the point numbered by the row's quotient by 5000. -/
theorem cover0 (i : S100000x128.Idx) : ∃ t : Fin cfg0.N, (cfg0.win 3).flush t = true ∧ i ∈ ((cfg0.win 3).blk t).view.set := by
  have hN : grid0.N = 20 := N_0
  have e : ∀ t : Fin cfg0.N, win0_3.index t (0 : Fin 2) = t.val ∧ win0_3.index t (1 : Fin 2) = 0 :=
    (by decide +kernel : ∀ t : Fin grid0.N, _)
  have hi0 : (i 0).val < 100000 := (i 0).isLt
  have hi1 : (i 1).val < 128 := (i 1).isLt
  have ht : (i 0).val / 5000 < cfg0.N := by show (i 0).val / 5000 < grid0.N; rw [hN]; omega
  refine ⟨⟨(i 0).val / 5000, ht⟩, flush0_3 _, ?_⟩
  rw [mem_blk0]
  obtain ⟨e0, e1⟩ := e ⟨(i 0).val / 5000, ht⟩
  intro a
  match a with
  | ⟨0, _⟩ => show win0_3.index _ (0 : Fin 2) * 5000 ≤ (i 0).val ∧ (i 0).val < win0_3.index _ (0 : Fin 2) * 5000 + 5000; rw [e0]; show (i 0).val / 5000 * 5000 ≤ (i 0).val ∧ (i 0).val < (i 0).val / 5000 * 5000 + 5000; omega
  | ⟨1, _⟩ => show win0_3.index _ (1 : Fin 2) * 128 ≤ (i 1).val ∧ (i 1).val < win0_3.index _ (1 : Fin 2) * 128 + 128; rw [e1]; omega

/-- The first region's output array after its run. -/
theorem final0 (c : Dev nD) :
    (dat0 (F := Ideal) V c).arrAt 3 cfg0.N = scaledProd (V c main_arg0) (V c main_arg1) (V c main_v11) :=
  (dat0 V c).arrAt_eq_of_cover 3 _ (fun t _ => flushed0_eq V c t) (cover0)

end

end Cert.KernelIdeal.Whole

end
-- ==== Proof.Region1.lean ====
/-
  The second region: the first layer's combine fused with the second layer's projection.

  At a row block the body forms `h = max(δ ⊙ (S + hp) + b, 0)` from the block's rows of the edge sums `S` and of the
  scaled projection `hp`, the column `δ` and the bias row `b`, then stores `(h · W) ⊙ δ`: the scaled product of the first
  region again, with the rectified combine in place of `x`. Entry `(p, k)` of `h` depends on row `p` only, so the whole
  output array is the scaled product of the whole-array combine.
-/
import proofs.«121145_j20194936226696_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«121145_j20194936226696_2_alg».proof.Proof.LibPlainMatmul
import proofs.«121145_j20194936226696_2_alg».proof.Proof.LibBroadcastReads
import proofs.«121145_j20194936226696_2_alg».proof.Proof.Region0

set_option maxRecDepth 16384

noncomputable section

open scoped BigOperators

namespace Cert.KernelIdeal.Whole

open Cert.KernelIdeal Cert.KernelIdeal.Gen
open Idealize.ShloMosaic Idealize.ShloMosaic.TcCoe Idealize.ShloMosaic.ValueIdx Idealize.SL.Sem
open Idealize.ShloMosaic.Pipeline (Dat)
open Cert.Lib.PlainMatmul Cert.Lib.BroadcastReads

/-- The rectified combine `max(δ[n] · (S[n,c] + hp[n,c]) + b[c], 0)` of two `[A, 128]` arrays, a column and a row. -/
def combine {A : ℕ} (s hp : (⟨2, ![A, 128]⟩ : Shape).Idx → EReal) (d : (⟨2, ![A, 1]⟩ : Shape).Idx → EReal)
    (b : (⟨2, ![1, 128]⟩ : Shape).Idx → EReal) : (⟨2, ![A, 128]⟩ : Shape).Idx → EReal :=
  fun i => max (d (ix2 (i 0) 0) * (s i + hp i) + b (ix2 0 (i 1))) (Ideal.ofBits .f32 0x00000000#32)

/-- The rectified combine as the two combining bodies compute it, at an entry. -/
theorem combine_body (v0 v2 : Vec Ideal S5000x128 .f32) (v4 : Vec Ideal S5000x1 .f32) (v6 : Vec Ideal S1x128 .f32)
    (p : Fin 5000) (k : Fin 128) :
    maximumf (addf (mulf (broadcastTo S5000x128 (shapeCast S5000x1 v4 shapeCasts_S5000x1_S5000x1) broadcasts_S5000x1_S5000x128)
        (addf (shapeCast S5000x128 v0 shapeCasts_S5000x128_S5000x128) (shapeCast S5000x128 v2 shapeCasts_S5000x128_S5000x128)))
      (broadcastTo S5000x128 (shapeCast S1x128 v6 shapeCasts_S1x128_S1x128) broadcasts_S1x128_S5000x128))
      (broadcast S5000x128 (Scalar.ofBits (F := Ideal) .f32 0x00000000#32)) (ix2 p k)
    = max (v4 (ix2 p 0) * (v0 (ix2 p k) + v2 (ix2 p k)) + v6 (ix2 0 k)) (Ideal.ofBits .f32 0x00000000#32) := by
  rw [maximumf_apply, addf_apply, mulf_apply, addf_apply, broadcastTo_a1_ab_apply (a := 5000) (b := 128),
    ValueIdx.broadcastTo_1b_ab_apply (a := 5000) (b := 128), shapeCast_self, shapeCast_self, shapeCast_self, shapeCast_self]
  rfl

/-- The second body's stored value at an entry. -/
theorem pay1_apply (v0 v2 : Vec Ideal S5000x128 .f32) (v4 : Vec Ideal S5000x1 .f32) (v6 : Vec Ideal S1x128 .f32)
    (v16 : Vec Ideal S128x128 .f32) (p : Fin 5000) (q : Fin 128) :
    k1_pay1 (F := Ideal) v0 v2 v4 v6 v16 (ix2 p q)
      = (∑ k : Fin 128, max (v4 (ix2 p 0) * (v0 (ix2 p k) + v2 (ix2 p k)) + v6 (ix2 0 k)) (Ideal.ofBits .f32 0x00000000#32)
          * v16 (ix2 k q)) * v4 (ix2 p 0) := by
  unfold k1_pay1
  rw [mulf_apply]
  congr 1
  · refine (plain_matmul_zero_apply (M := 5000) (K := 128) (N := 128) _ _ p q).trans ?_
    refine Finset.sum_congr rfl fun k _ => ?_
    rw [truncf_apply, truncf_apply, combine_body]
  · rw [broadcastTo_a1_ab_apply (a := 5000) (b := 128), shapeCast_self]

/-- The stored block at an entry, when the body's five loaded blocks are read off whole arrays. -/
theorem point1 (x0 x1 : Vec Ideal S5000x128 .f32) (x2 : Vec Ideal S5000x1 .f32) (x3 : Vec Ideal S1x128 .f32)
    (x4 : Vec Ideal S128x128 .f32)
    (a0 a1 : S100000x128.Idx → EReal) (a2 : S100000x1.Idx → EReal) (a3 : S1x128.Idx → EReal) (a4 : S128x128.Idx → EReal)
    (p : Fin 5000) (q : Fin 128) (i : S100000x128.Idx)
    (h0 : ∀ k : Fin 128, x0 (ix2 p k) = a0 (ix2 (i 0) k))
    (h1 : ∀ k : Fin 128, x1 (ix2 p k) = a1 (ix2 (i 0) k))
    (h2 : x2 (ix2 p 0) = a2 (ix2 (i 0) 0))
    (h3 : ∀ k : Fin 128, x3 (ix2 0 k) = a3 (ix2 0 k))
    (h4 : ∀ (k : Fin 128) (q' : Fin 128), x4 (ix2 k q') = a4 (ix2 k q')) (hi1 : i 1 = q) :
    k1_pay1 (F := Ideal) x0 x1 x2 x3 x4 (ix2 p q) = scaledProd (combine a0 a1 a2 a3) a4 a2 i := by
  rw [pay1_apply]
  unfold scaledProd combine
  rw [h2, hi1]
  congr 1
  refine Finset.sum_congr rfl fun k _ => ?_
  rw [h0, h1, h3, h4]

section
variable (V : (c : Dev nD) → (b : Ref sig .tc) → Buf (Elt Ideal) ((c : Thread nD τ).loc b))

/-- Window 0's block at point `t`, read at an entry: rows `5000·t …` of its array. -/
theorem iblk1_0_apply (c : Dev nD) (t : Fin cfg1.N) (x : S5000x128.Idx) (i : S100000x128.Idx)
    (h0 : (i 0).val = t.val * 5000 + (x 0).val) (h1 : (i 1).val = (x 1).val) :
    (iblk1 (F := Ideal) V c 0 t : Vec Ideal S5000x128 .f32) x = (V c main_v22 : S100000x128.Idx → EReal) i := by
  have e : ∀ t : Fin cfg1.N, win1_0.index t (0 : Fin 2) = t.val ∧ win1_0.index t (1 : Fin 2) = 0 :=
    (by decide +kernel : ∀ t : Fin grid1.N, _)
  obtain ⟨e0, e1⟩ := e t
  unfold iblk1
  rw [View.read_apply]
  show V c main_v22 _ = V c main_v22 _
  congr 1
  funext a
  apply Fin.ext
  match a with
  | ⟨0, _⟩ => show win1_0.index t (0 : Fin 2) * 5000 + 1 * (x 0).val = (i 0).val; rw [e0, h0]; omega
  | ⟨1, _⟩ => show win1_0.index t (1 : Fin 2) * 128 + 1 * (x 1).val = (i 1).val; rw [e1, h1]; omega

/-- Window 1's block at point `t`, read at an entry: rows `5000·t …` of its array. -/
theorem iblk1_1_apply (c : Dev nD) (t : Fin cfg1.N) (x : S5000x128.Idx) (i : S100000x128.Idx)
    (h0 : (i 0).val = t.val * 5000 + (x 0).val) (h1 : (i 1).val = (x 1).val) :
    (iblk1 (F := Ideal) V c 1 t : Vec Ideal S5000x128 .f32) x = (V c main_v12 : S100000x128.Idx → EReal) i := by
  have e : ∀ t : Fin cfg1.N, win1_1.index t (0 : Fin 2) = t.val ∧ win1_1.index t (1 : Fin 2) = 0 :=
    (by decide +kernel : ∀ t : Fin grid1.N, _)
  obtain ⟨e0, e1⟩ := e t
  unfold iblk1
  rw [View.read_apply]
  show V c main_v12 _ = V c main_v12 _
  congr 1
  funext a
  apply Fin.ext
  match a with
  | ⟨0, _⟩ => show win1_1.index t (0 : Fin 2) * 5000 + 1 * (x 0).val = (i 0).val; rw [e0, h0]; omega
  | ⟨1, _⟩ => show win1_1.index t (1 : Fin 2) * 128 + 1 * (x 1).val = (i 1).val; rw [e1, h1]; omega

/-- Window 2's block at point `t`, read at an entry: rows `5000·t …` of its array. -/
theorem iblk1_2_apply (c : Dev nD) (t : Fin cfg1.N) (x : S5000x1.Idx) (i : S100000x1.Idx)
    (h0 : (i 0).val = t.val * 5000 + (x 0).val) (h1 : (i 1).val = (x 1).val) :
    (iblk1 (F := Ideal) V c 2 t : Vec Ideal S5000x1 .f32) x = (V c main_v23 : S100000x1.Idx → EReal) i := by
  have e : ∀ t : Fin cfg1.N, win1_2.index t (0 : Fin 2) = t.val ∧ win1_2.index t (1 : Fin 2) = 0 :=
    (by decide +kernel : ∀ t : Fin grid1.N, _)
  obtain ⟨e0, e1⟩ := e t
  unfold iblk1
  rw [View.read_apply]
  show V c main_v23 _ = V c main_v23 _
  congr 1
  funext a
  apply Fin.ext
  match a with
  | ⟨0, _⟩ => show win1_2.index t (0 : Fin 2) * 5000 + 1 * (x 0).val = (i 0).val; rw [e0, h0]; omega
  | ⟨1, _⟩ => show win1_2.index t (1 : Fin 2) * 1 + 1 * (x 1).val = (i 1).val; rw [e1, h1]; omega

/-- Window 3's block at point `t`, read at an entry: the whole of its array (the block does not move). -/
theorem iblk1_3_apply (c : Dev nD) (t : Fin cfg1.N) (x : S1x128.Idx) (i : S1x128.Idx)
    (h0 : (i 0).val = (x 0).val) (h1 : (i 1).val = (x 1).val) :
    (iblk1 (F := Ideal) V c 3 t : Vec Ideal S1x128 .f32) x = (V c main_v24 : S1x128.Idx → EReal) i := by
  have e : ∀ t : Fin cfg1.N, win1_3.index t (0 : Fin 2) = 0 ∧ win1_3.index t (1 : Fin 2) = 0 :=
    (by decide +kernel : ∀ t : Fin grid1.N, _)
  obtain ⟨e0, e1⟩ := e t
  unfold iblk1
  rw [View.read_apply]
  show V c main_v24 _ = V c main_v24 _
  congr 1
  funext a
  apply Fin.ext
  match a with
  | ⟨0, _⟩ => show win1_3.index t (0 : Fin 2) * 1 + 1 * (x 0).val = (i 0).val; rw [e0, h0]; omega
  | ⟨1, _⟩ => show win1_3.index t (1 : Fin 2) * 128 + 1 * (x 1).val = (i 1).val; rw [e1, h1]; omega

/-- Window 4's block at point `t`, read at an entry: the whole of its array (the block does not move). -/
theorem iblk1_4_apply (c : Dev nD) (t : Fin cfg1.N) (x : S128x128.Idx) (i : S128x128.Idx)
    (h0 : (i 0).val = (x 0).val) (h1 : (i 1).val = (x 1).val) :
    (iblk1 (F := Ideal) V c 4 t : Vec Ideal S128x128 .f32) x = (V c main_arg3 : S128x128.Idx → EReal) i := by
  have e : ∀ t : Fin cfg1.N, win1_4.index t (0 : Fin 2) = 0 ∧ win1_4.index t (1 : Fin 2) = 0 :=
    (by decide +kernel : ∀ t : Fin grid1.N, _)
  obtain ⟨e0, e1⟩ := e t
  unfold iblk1
  rw [View.read_apply]
  show V c main_arg3 _ = V c main_arg3 _
  congr 1
  funext a
  apply Fin.ext
  match a with
  | ⟨0, _⟩ => show win1_4.index t (0 : Fin 2) * 128 + 1 * (x 0).val = (i 0).val; rw [e0, h0]; omega
  | ⟨1, _⟩ => show win1_4.index t (1 : Fin 2) * 128 + 1 * (x 1).val = (i 1).val; rw [e1, h1]; omega

/-- WHAT POINT `t` WRITES BACK is block `t` of the scaled product of the whole-array combine. -/
theorem flushed1_eq (c : Dev nD) (t : Fin cfg1.N) :
    (dat1 (F := Ideal) V c).flushed 5 t
      = ((cfg1.win 5).blk t).view.read (Elt Ideal)
          (scaledProd (combine (V c main_v22) (V c main_v12) (V c main_v23) (V c main_v24)) (V c main_arg3) (V c main_v23)) := by
  show (cfg1.win 5).cut (grid1.coords t) ((dat1 V c).after 5 t) = _
  rw [after1_5]
  unfold out1_5
  rw [View.canon_unit_zero hz2]
  simp only [View.ld_unit_zero (S := S5000x128) hz2, View.ld_unit_zero (S := S128x128) hz2, View.ld_unit_zero (S := S5000x1) hz2,
    View.ld_unit_zero (S := S1x128) hz2]
  have e : ∀ t : Fin cfg1.N, win1_5.index t (0 : Fin 2) = t.val ∧ win1_5.index t (1 : Fin 2) = 0 :=
    (by decide +kernel : ∀ t : Fin grid1.N, _)
  obtain ⟨e0, e1⟩ := e t
  funext y
  have hy0 : ((((cfg1.win 5).blk t).view.emb y) 0).val = t.val * 5000 + (y 0).val := by
    show win1_5.index t (0 : Fin 2) * 5000 + 1 * (y 0).val = _; rw [e0]; omega
  have hy1 : ((((cfg1.win 5).blk t).view.emb y) 1).val = (y 1).val := by
    show win1_5.index t (1 : Fin 2) * 128 + 1 * (y 1).val = _; rw [e1]; omega
  refine (congrArg (k1_pay1 (F := Ideal) (iblk1 V c 0 t) (iblk1 V c 1 t) (iblk1 V c 2 t) (iblk1 V c 3 t) (iblk1 V c 4 t)) (eq_ix2 (n0 := 5000) (n1 := 128) y)).trans ?_
  exact point1 (iblk1 V c 0 t) (iblk1 V c 1 t) (iblk1 V c 2 t) (iblk1 V c 3 t) (iblk1 V c 4 t)
    (V c main_v22) (V c main_v12) (V c main_v23) (V c main_v24) (V c main_arg3) (y 0) (y 1)
    (((cfg1.win 5).blk t).view.emb y)
    (fun k => iblk1_0_apply V c t _ _ hy0 rfl)
    (fun k => iblk1_1_apply V c t _ _ hy0 rfl)
    (iblk1_2_apply V c t _ _ hy0 rfl)
    (fun k => iblk1_3_apply V c t _ _ rfl rfl)
    (fun k q => iblk1_4_apply V c t _ _ rfl rfl)
    (Fin.ext hy1)

/-- An index of the output array is in point `t`'s block iff each coordinate is in the block's range on its axis. -/
theorem mem_blk1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v25).slice (win1_5.rect t)).set ↔ _
  rw [View.set_slice_whole, Rect.mem_set_unit]
  exact Iff.rfl

/-- Every row of the output lies in the block of the point numbered by the row's quotient by 5000. -/
theorem cover1 (i : S100000x128.Idx) : ∃ t : Fin cfg1.N, (cfg1.win 5).flush t = true ∧ i ∈ ((cfg1.win 5).blk t).view.set := by
  have hN : grid1.N = 20 := N_1
  have e : ∀ t : Fin cfg1.N, win1_5.index t (0 : Fin 2) = t.val ∧ win1_5.index t (1 : Fin 2) = 0 :=
    (by decide +kernel : ∀ t : Fin grid1.N, _)
  have hi0 : (i 0).val < 100000 := (i 0).isLt
  have hi1 : (i 1).val < 128 := (i 1).isLt
  have ht : (i 0).val / 5000 < cfg1.N := by show (i 0).val / 5000 < grid1.N; rw [hN]; omega
  refine ⟨⟨(i 0).val / 5000, ht⟩, flush1_5 _, ?_⟩
  rw [mem_blk1]
  obtain ⟨e0, e1⟩ := e ⟨(i 0).val / 5000, ht⟩
  intro a
  match a with
  | ⟨0, _⟩ => show win1_5.index _ (0 : Fin 2) * 5000 ≤ (i 0).val ∧ (i 0).val < win1_5.index _ (0 : Fin 2) * 5000 + 5000; rw [e0]; show (i 0).val / 5000 * 5000 ≤ (i 0).val ∧ (i 0).val < (i 0).val / 5000 * 5000 + 5000; omega
  | ⟨1, _⟩ => show win1_5.index _ (1 : Fin 2) * 128 ≤ (i 1).val ∧ (i 1).val < win1_5.index _ (1 : Fin 2) * 128 + 128; rw [e1]; omega

/-- The second region's output array after its run. -/
theorem final1 (c : Dev nD) :
    (dat1 (F := Ideal) V c).arrAt 5 cfg1.N
      = scaledProd (combine (V c main_v22) (V c main_v12) (V c main_v23) (V c main_v24)) (V c main_arg3) (V c main_v23) :=
  (dat1 V c).arrAt_eq_of_cover 5 _ (fun t _ => flushed1_eq V c t) (cover1)

end

end Cert.KernelIdeal.Whole

end
-- ==== Proof.Region2.lean ====
/-
  The third region: the second layer's combine, `h₂ = max(δ ⊙ (S₂ + hp₂) + b₂, 0)`, row block by row block.

  The body is pointwise but for the column `δ` and the bias row: entry `(p, q)` of what it stores reads its four
  operands at `(p, q)`, `(p, q)`, `(p, 0)` and `(0, q)`, so the whole output array is the whole-array combine.
-/
import proofs.«121145_j20194936226696_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«121145_j20194936226696_2_alg».proof.Proof.LibBroadcastReads
import proofs.«121145_j20194936226696_2_alg».proof.Proof.Region0
import proofs.«121145_j20194936226696_2_alg».proof.Proof.Region1

set_option maxRecDepth 16384

noncomputable section

open scoped BigOperators

namespace Cert.KernelIdeal.Whole

open Cert.KernelIdeal Cert.KernelIdeal.Gen
open Idealize.ShloMosaic Idealize.ShloMosaic.TcCoe Idealize.ShloMosaic.ValueIdx Idealize.SL.Sem
open Idealize.ShloMosaic.Pipeline (Dat)
open Cert.Lib.PlainMatmul Cert.Lib.BroadcastReads

/-- The third body's stored value at an entry. -/
theorem pay2_apply (v0 v2 : Vec Ideal S5000x128 .f32) (v4 : Vec Ideal S5000x1 .f32) (v6 : Vec Ideal S1x128 .f32)
    (p : Fin 5000) (q : Fin 128) :
    k2_pay1 (F := Ideal) v0 v2 v4 v6 (ix2 p q)
      = max (v4 (ix2 p 0) * (v0 (ix2 p q) + v2 (ix2 p q)) + v6 (ix2 0 q)) (Ideal.ofBits .f32 0x00000000#32) := by
  unfold k2_pay1
  exact combine_body v0 v2 v4 v6 p q

/-- The stored block at an entry, when the body's four loaded blocks are read off whole arrays. -/
theorem point2 (x0 x1 : Vec Ideal S5000x128 .f32) (x2 : Vec Ideal S5000x1 .f32) (x3 : Vec Ideal S1x128 .f32)
    (a0 a1 : S100000x128.Idx → EReal) (a2 : S100000x1.Idx → EReal) (a3 : S1x128.Idx → EReal)
    (p : Fin 5000) (q : Fin 128) (i : S100000x128.Idx)
    (h0 : x0 (ix2 p q) = a0 i) (h1 : x1 (ix2 p q) = a1 i)
    (h2 : x2 (ix2 p 0) = a2 (ix2 (i 0) 0)) (h3 : x3 (ix2 0 q) = a3 (ix2 0 (i 1))) :
    k2_pay1 (F := Ideal) x0 x1 x2 x3 (ix2 p q) = combine a0 a1 a2 a3 i := by
  rw [pay2_apply]
  unfold combine
  rw [h0, h1, h2, h3]

section
variable (V : (c : Dev nD) → (b : Ref sig .tc) → Buf (Elt Ideal) ((c : Thread nD τ).loc b))

/-- Window 0's block at point `t`, read at an entry: rows `5000·t …` of its array. -/
theorem iblk2_0_apply (c : Dev nD) (t : Fin cfg2.N) (x : S5000x128.Idx) (i : S100000x128.Idx)
    (h0 : (i 0).val = t.val * 5000 + (x 0).val) (h1 : (i 1).val = (x 1).val) :
    (iblk2 (F := Ideal) V c 0 t : Vec Ideal S5000x128 .f32) x = (V c main_v35 : S100000x128.Idx → EReal) i := by
  have e : ∀ t : Fin cfg2.N, win2_0.index t (0 : Fin 2) = t.val ∧ win2_0.index t (1 : Fin 2) = 0 :=
    (by decide +kernel : ∀ t : Fin grid2.N, _)
  obtain ⟨e0, e1⟩ := e t
  unfold iblk2
  rw [View.read_apply]
  show V c main_v35 _ = V c main_v35 _
  congr 1
  funext a
  apply Fin.ext
  match a with
  | ⟨0, _⟩ => show win2_0.index t (0 : Fin 2) * 5000 + 1 * (x 0).val = (i 0).val; rw [e0, h0]; omega
  | ⟨1, _⟩ => show win2_0.index t (1 : Fin 2) * 128 + 1 * (x 1).val = (i 1).val; rw [e1, h1]; omega

/-- Window 1's block at point `t`, read at an entry: rows `5000·t …` of its array. -/
theorem iblk2_1_apply (c : Dev nD) (t : Fin cfg2.N) (x : S5000x128.Idx) (i : S100000x128.Idx)
    (h0 : (i 0).val = t.val * 5000 + (x 0).val) (h1 : (i 1).val = (x 1).val) :
    (iblk2 (F := Ideal) V c 1 t : Vec Ideal S5000x128 .f32) x = (V c main_v25 : S100000x128.Idx → EReal) i := by
  have e : ∀ t : Fin cfg2.N, win2_1.index t (0 : Fin 2) = t.val ∧ win2_1.index t (1 : Fin 2) = 0 :=
    (by decide +kernel : ∀ t : Fin grid2.N, _)
  obtain ⟨e0, e1⟩ := e t
  unfold iblk2
  rw [View.read_apply]
  show V c main_v25 _ = V c main_v25 _
  congr 1
  funext a
  apply Fin.ext
  match a with
  | ⟨0, _⟩ => show win2_1.index t (0 : Fin 2) * 5000 + 1 * (x 0).val = (i 0).val; rw [e0, h0]; omega
  | ⟨1, _⟩ => show win2_1.index t (1 : Fin 2) * 128 + 1 * (x 1).val = (i 1).val; rw [e1, h1]; omega

/-- Window 2's block at point `t`, read at an entry: rows `5000·t …` of its array. -/
theorem iblk2_2_apply (c : Dev nD) (t : Fin cfg2.N) (x : S5000x1.Idx) (i : S100000x1.Idx)
    (h0 : (i 0).val = t.val * 5000 + (x 0).val) (h1 : (i 1).val = (x 1).val) :
    (iblk2 (F := Ideal) V c 2 t : Vec Ideal S5000x1 .f32) x = (V c main_v36 : S100000x1.Idx → EReal) i := by
  have e : ∀ t : Fin cfg2.N, win2_2.index t (0 : Fin 2) = t.val ∧ win2_2.index t (1 : Fin 2) = 0 :=
    (by decide +kernel : ∀ t : Fin grid2.N, _)
  obtain ⟨e0, e1⟩ := e t
  unfold iblk2
  rw [View.read_apply]
  show V c main_v36 _ = V c main_v36 _
  congr 1
  funext a
  apply Fin.ext
  match a with
  | ⟨0, _⟩ => show win2_2.index t (0 : Fin 2) * 5000 + 1 * (x 0).val = (i 0).val; rw [e0, h0]; omega
  | ⟨1, _⟩ => show win2_2.index t (1 : Fin 2) * 1 + 1 * (x 1).val = (i 1).val; rw [e1, h1]; omega

/-- Window 3's block at point `t`, read at an entry: the whole of its array (the block does not move). -/
theorem iblk2_3_apply (c : Dev nD) (t : Fin cfg2.N) (x : S1x128.Idx) (i : S1x128.Idx)
    (h0 : (i 0).val = (x 0).val) (h1 : (i 1).val = (x 1).val) :
    (iblk2 (F := Ideal) V c 3 t : Vec Ideal S1x128 .f32) x = (V c main_v37 : S1x128.Idx → EReal) i := by
  have e : ∀ t : Fin cfg2.N, win2_3.index t (0 : Fin 2) = 0 ∧ win2_3.index t (1 : Fin 2) = 0 :=
    (by decide +kernel : ∀ t : Fin grid2.N, _)
  obtain ⟨e0, e1⟩ := e t
  unfold iblk2
  rw [View.read_apply]
  show V c main_v37 _ = V c main_v37 _
  congr 1
  funext a
  apply Fin.ext
  match a with
  | ⟨0, _⟩ => show win2_3.index t (0 : Fin 2) * 1 + 1 * (x 0).val = (i 0).val; rw [e0, h0]; omega
  | ⟨1, _⟩ => show win2_3.index t (1 : Fin 2) * 128 + 1 * (x 1).val = (i 1).val; rw [e1, h1]; omega

/-- WHAT POINT `t` WRITES BACK is block `t` of the whole-array combine. -/
theorem flushed2_eq (c : Dev nD) (t : Fin cfg2.N) :
    (dat2 (F := Ideal) V c).flushed 4 t
      = ((cfg2.win 4).blk t).view.read (Elt Ideal) (combine (V c main_v35) (V c main_v25) (V c main_v36) (V c main_v37)) := by
  show (cfg2.win 4).cut (grid2.coords t) ((dat2 V c).after 4 t) = _
  rw [after2_4]
  unfold out2_4
  rw [View.canon_unit_zero hz2]
  simp only [View.ld_unit_zero (S := S5000x128) hz2, View.ld_unit_zero (S := S5000x1) hz2, View.ld_unit_zero (S := S1x128) hz2]
  have e : ∀ t : Fin cfg2.N, win2_4.index t (0 : Fin 2) = t.val ∧ win2_4.index t (1 : Fin 2) = 0 :=
    (by decide +kernel : ∀ t : Fin grid2.N, _)
  obtain ⟨e0, e1⟩ := e t
  funext y
  have hy0 : ((((cfg2.win 4).blk t).view.emb y) 0).val = t.val * 5000 + (y 0).val := by
    show win2_4.index t (0 : Fin 2) * 5000 + 1 * (y 0).val = _; rw [e0]; omega
  have hy1 : ((((cfg2.win 4).blk t).view.emb y) 1).val = (y 1).val := by
    show win2_4.index t (1 : Fin 2) * 128 + 1 * (y 1).val = _; rw [e1]; omega
  refine (congrArg (k2_pay1 (F := Ideal) (iblk2 V c 0 t) (iblk2 V c 1 t) (iblk2 V c 2 t) (iblk2 V c 3 t)) (eq_ix2 (n0 := 5000) (n1 := 128) y)).trans ?_
  exact point2 (iblk2 V c 0 t) (iblk2 V c 1 t) (iblk2 V c 2 t) (iblk2 V c 3 t)
    (V c main_v35) (V c main_v25) (V c main_v36) (V c main_v37) (y 0) (y 1)
    (((cfg2.win 4).blk t).view.emb y)
    (iblk2_0_apply V c t _ _ hy0 hy1)
    (iblk2_1_apply V c t _ _ hy0 hy1)
    (iblk2_2_apply V c t _ _ hy0 rfl)
    (iblk2_3_apply V c t _ _ rfl hy1)

/-- An index of the output array is in point `t`'s block iff each coordinate is in the block's range on its axis. -/
theorem mem_blk2 (t : Fin cfg2.N) (i : S100000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v38).slice (win2_4.rect t)).set ↔ _
  rw [View.set_slice_whole, Rect.mem_set_unit]
  exact Iff.rfl

/-- Every row of the output lies in the block of the point numbered by the row's quotient by 5000. -/
theorem cover2 (i : S100000x128.Idx) : ∃ t : Fin cfg2.N, (cfg2.win 4).flush t = true ∧ i ∈ ((cfg2.win 4).blk t).view.set := by
  have hN : grid2.N = 20 := N_2
  have e : ∀ t : Fin cfg2.N, win2_4.index t (0 : Fin 2) = t.val ∧ win2_4.index t (1 : Fin 2) = 0 :=
    (by decide +kernel : ∀ t : Fin grid2.N, _)
  have hi0 : (i 0).val < 100000 := (i 0).isLt
  have hi1 : (i 1).val < 128 := (i 1).isLt
  have ht : (i 0).val / 5000 < cfg2.N := by show (i 0).val / 5000 < grid2.N; rw [hN]; omega
  refine ⟨⟨(i 0).val / 5000, ht⟩, flush2_4 _, ?_⟩
  rw [mem_blk2]
  obtain ⟨e0, e1⟩ := e ⟨(i 0).val / 5000, ht⟩
  intro a
  match a with
  | ⟨0, _⟩ => show win2_4.index _ (0 : Fin 2) * 5000 ≤ (i 0).val ∧ (i 0).val < win2_4.index _ (0 : Fin 2) * 5000 + 5000; rw [e0]; show (i 0).val / 5000 * 5000 ≤ (i 0).val ∧ (i 0).val < (i 0).val / 5000 * 5000 + 5000; omega
  | ⟨1, _⟩ => show win2_4.index _ (1 : Fin 2) * 128 ≤ (i 1).val ∧ (i 1).val < win2_4.index _ (1 : Fin 2) * 128 + 128; rw [e1]; omega

/-- The third region's output array after its run. -/
theorem final2 (c : Dev nD) :
    (dat2 (F := Ideal) V c).arrAt 4 cfg2.N = combine (V c main_v35) (V c main_v25) (V c main_v36) (V c main_v37) :=
  (dat2 V c).arrAt_eq_of_cover 4 _ (fun t _ => flushed2_eq V c t) (cover2)

end

end Cert.KernelIdeal.Whole

end
-- ==== Proof.LibPrecMatmul.lean ====
/-
  A plain matrix product into the zero accumulator, at any contraction precision, read at an entry.
-/
import Idealize.ShloMosaic.Lib.ValueIdx
import Idealize.ShloMosaic.PureOps.Ideal.Laws

noncomputable section

open scoped BigOperators

namespace Cert.Lib.PrecMatmul

open Idealize.ShloMosaic Idealize.ShloMosaic.ValueIdx

/-- On the extended reals the contraction precision plays no part: a matrix product with the plain dimension numbers
    into the zero accumulator, read at (p, c), is the sum over the one contraction coordinate of the left operand's row
    `p` against the right operand's column `c`. -/
theorem plain_matmul_zero_apply {M K N : ℕ} {φ₁ φ₂ : FTy} (prec : Option ContractPrecision)
    (l : FVec Ideal ⟨2, ![M, K]⟩ φ₁) (r : FVec Ideal ⟨2, ![K, N]⟩ φ₂) (p : Fin M) (c : Fin N) :
    FloatOps.matmul (DotDims.plain M K N) prec l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

end Cert.Lib.PrecMatmul

end
-- ==== Proof.Region3.lean ====
/-
  The fourth region: mean pooling and the final linear map, in one block.

  From the per-graph sums `[64, 128]`, the per-graph counts as a column `[64, 1]`, the weights `[128, 16]` and the bias
  row `[1, 16]` the body stores `(sums / max(counts, 1)) · W + b`: entry `(g, o)` is
  `Σ_k (sums[g,k] / max(counts[g,0], 1)) · W[k,o] + b[0,o]`. The grid has one point and no window moves, so the output
  array is that expression of the whole operand arrays.
-/
import proofs.«121145_j20194936226696_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«121145_j20194936226696_2_alg».proof.Proof.LibPrecMatmul
import proofs.«121145_j20194936226696_2_alg».proof.Proof.LibBroadcastReads
import proofs.«121145_j20194936226696_2_alg».proof.Proof.Region0

set_option maxRecDepth 16384

noncomputable section

open scoped BigOperators

namespace Cert.KernelIdeal.Whole

open Cert.KernelIdeal Cert.KernelIdeal.Gen
open Idealize.ShloMosaic Idealize.ShloMosaic.TcCoe Idealize.ShloMosaic.ValueIdx Idealize.SL.Sem
open Idealize.ShloMosaic.Pipeline (Dat)
open Cert.Lib.PlainMatmul Cert.Lib.BroadcastReads
open Cert.Lib.PrecMatmul (plain_matmul_zero_apply)

/-- Mean pooling followed by a linear map, at an entry. -/
def poolLinear (s : (⟨2, ![64, 128]⟩ : Shape).Idx → EReal) (n : (⟨2, ![64, 1]⟩ : Shape).Idx → EReal)
    (w : (⟨2, ![128, 16]⟩ : Shape).Idx → EReal) (b : (⟨2, ![1, 16]⟩ : Shape).Idx → EReal) :
    (⟨2, ![64, 16]⟩ : Shape).Idx → EReal :=
  fun i => (∑ k : Fin 128, Ideal.div (s (ix2 (i 0) k)) (max (n (ix2 (i 0) 0)) (Ideal.ofBits .f32 0x3F800000#32)) * w (ix2 k (i 1)))
    + b (ix2 0 (i 1))

/-- The fourth body's stored value at an entry. -/
theorem pay3_apply (v0 : Vec Ideal S64x128 .f32) (v2 : Vec Ideal S64x1 .f32) (v8 : Vec Ideal S128x16 .f32)
    (v10 : Vec Ideal S1x16 .f32) (g : Fin 64) (o : Fin 16) :
    k3_pay1 (F := Ideal) v0 v2 v8 v10 (ix2 g o)
      = (∑ k : Fin 128, Ideal.div (v0 (ix2 g k)) (max (v2 (ix2 g 0)) (Ideal.ofBits .f32 0x3F800000#32)) * v8 (ix2 k o))
        + v10 (ix2 0 o) := by
  unfold k3_pay1
  rw [addf_apply]
  congr 1
  · refine (Cert.Lib.PrecMatmul.plain_matmul_zero_apply (M := 64) (K := 128) (N := 16) _ _ _ g o).trans ?_
    refine Finset.sum_congr rfl fun k _ => ?_
    rw [divf_apply, broadcastTo_a1_ab_apply (a := 64) (b := 128), maximumf_apply, shapeCast_self, shapeCast_self]
    rfl
  · rw [ValueIdx.broadcastTo_1b_ab_apply (a := 64) (b := 16), shapeCast_self]

/-- The stored block at an entry, when the body's four loaded blocks are the whole arrays. -/
theorem point3 (x0 : Vec Ideal S64x128 .f32) (x1 : Vec Ideal S64x1 .f32) (x2 : Vec Ideal S128x16 .f32) (x3 : Vec Ideal S1x16 .f32)
    (a0 : S64x128.Idx → EReal) (a1 : S64x1.Idx → EReal) (a2 : S128x16.Idx → EReal) (a3 : S1x16.Idx → EReal)
    (g : Fin 64) (o : Fin 16) (i : S64x16.Idx)
    (h0 : ∀ k : Fin 128, x0 (ix2 g k) = a0 (ix2 (i 0) k)) (h1 : x1 (ix2 g 0) = a1 (ix2 (i 0) 0))
    (h2 : ∀ k : Fin 128, x2 (ix2 k o) = a2 (ix2 k (i 1))) (h3 : x3 (ix2 0 o) = a3 (ix2 0 (i 1))) :
    k3_pay1 (F := Ideal) x0 x1 x2 x3 (ix2 g o) = poolLinear a0 a1 a2 a3 i := by
  rw [pay3_apply]
  unfold poolLinear
  rw [h1, h3]
  congr 1
  exact Finset.sum_congr rfl fun k _ => by rw [h0, h2]

section
variable (V : (c : Dev nD) → (b : Ref sig .tc) → Buf (Elt Ideal) ((c : Thread nD τ).loc b))

/-- Window 0's block at point `t`, read at an entry: the whole of its array (the block does not move). -/
theorem iblk3_0_apply (c : Dev nD) (t : Fin cfg3.N) (x : S64x128.Idx) (i : S64x128.Idx)
    (h0 : (i 0).val = (x 0).val) (h1 : (i 1).val = (x 1).val) :
    (iblk3 (F := Ideal) V c 0 t : Vec Ideal S64x128 .f32) x = (V c main_v41 : S64x128.Idx → EReal) i := by
  have e : ∀ t : Fin cfg3.N, win3_0.index t (0 : Fin 2) = 0 ∧ win3_0.index t (1 : Fin 2) = 0 :=
    (by decide +kernel : ∀ t : Fin grid3.N, _)
  obtain ⟨e0, e1⟩ := e t
  unfold iblk3
  rw [View.read_apply]
  show V c main_v41 _ = V c main_v41 _
  congr 1
  funext a
  apply Fin.ext
  match a with
  | ⟨0, _⟩ => show win3_0.index t (0 : Fin 2) * 64 + 1 * (x 0).val = (i 0).val; rw [e0, h0]; omega
  | ⟨1, _⟩ => show win3_0.index t (1 : Fin 2) * 128 + 1 * (x 1).val = (i 1).val; rw [e1, h1]; omega

/-- Window 1's block at point `t`, read at an entry: the whole of its array (the block does not move). -/
theorem iblk3_1_apply (c : Dev nD) (t : Fin cfg3.N) (x : S64x1.Idx) (i : S64x1.Idx)
    (h0 : (i 0).val = (x 0).val) (h1 : (i 1).val = (x 1).val) :
    (iblk3 (F := Ideal) V c 1 t : Vec Ideal S64x1 .f32) x = (V c main_v46 : S64x1.Idx → EReal) i := by
  have e : ∀ t : Fin cfg3.N, win3_1.index t (0 : Fin 2) = 0 ∧ win3_1.index t (1 : Fin 2) = 0 :=
    (by decide +kernel : ∀ t : Fin grid3.N, _)
  obtain ⟨e0, e1⟩ := e t
  unfold iblk3
  rw [View.read_apply]
  show V c main_v46 _ = V c main_v46 _
  congr 1
  funext a
  apply Fin.ext
  match a with
  | ⟨0, _⟩ => show win3_1.index t (0 : Fin 2) * 64 + 1 * (x 0).val = (i 0).val; rw [e0, h0]; omega
  | ⟨1, _⟩ => show win3_1.index t (1 : Fin 2) * 1 + 1 * (x 1).val = (i 1).val; rw [e1, h1]; omega

/-- Window 2's block at point `t`, read at an entry: the whole of its array (the block does not move). -/
theorem iblk3_2_apply (c : Dev nD) (t : Fin cfg3.N) (x : S128x16.Idx) (i : S128x16.Idx)
    (h0 : (i 0).val = (x 0).val) (h1 : (i 1).val = (x 1).val) :
    (iblk3 (F := Ideal) V c 2 t : Vec Ideal S128x16 .f32) x = (V c main_arg5 : S128x16.Idx → EReal) i := by
  have e : ∀ t : Fin cfg3.N, win3_2.index t (0 : Fin 2) = 0 ∧ win3_2.index t (1 : Fin 2) = 0 :=
    (by decide +kernel : ∀ t : Fin grid3.N, _)
  obtain ⟨e0, e1⟩ := e t
  unfold iblk3
  rw [View.read_apply]
  show V c main_arg5 _ = V c main_arg5 _
  congr 1
  funext a
  apply Fin.ext
  match a with
  | ⟨0, _⟩ => show win3_2.index t (0 : Fin 2) * 128 + 1 * (x 0).val = (i 0).val; rw [e0, h0]; omega
  | ⟨1, _⟩ => show win3_2.index t (1 : Fin 2) * 16 + 1 * (x 1).val = (i 1).val; rw [e1, h1]; omega

/-- Window 3's block at point `t`, read at an entry: the whole of its array (the block does not move). -/
theorem iblk3_3_apply (c : Dev nD) (t : Fin cfg3.N) (x : S1x16.Idx) (i : S1x16.Idx)
    (h0 : (i 0).val = (x 0).val) (h1 : (i 1).val = (x 1).val) :
    (iblk3 (F := Ideal) V c 3 t : Vec Ideal S1x16 .f32) x = (V c main_v47 : S1x16.Idx → EReal) i := by
  have e : ∀ t : Fin cfg3.N, win3_3.index t (0 : Fin 2) = 0 ∧ win3_3.index t (1 : Fin 2) = 0 :=
    (by decide +kernel : ∀ t : Fin grid3.N, _)
  obtain ⟨e0, e1⟩ := e t
  unfold iblk3
  rw [View.read_apply]
  show V c main_v47 _ = V c main_v47 _
  congr 1
  funext a
  apply Fin.ext
  match a with
  | ⟨0, _⟩ => show win3_3.index t (0 : Fin 2) * 1 + 1 * (x 0).val = (i 0).val; rw [e0, h0]; omega
  | ⟨1, _⟩ => show win3_3.index t (1 : Fin 2) * 16 + 1 * (x 1).val = (i 1).val; rw [e1, h1]; omega

/-- WHAT THE ONE POINT WRITES BACK is the pooled linear map of the whole arrays. -/
theorem flushed3_eq (c : Dev nD) (t : Fin cfg3.N) :
    (dat3 (F := Ideal) V c).flushed 4 t
      = ((cfg3.win 4).blk t).view.read (Elt Ideal) (poolLinear (V c main_v41) (V c main_v46) (V c main_arg5) (V c main_v47)) := by
  show (cfg3.win 4).cut (grid3.coords t) ((dat3 V c).after 4 t) = _
  rw [after3_4]
  unfold out3_4
  rw [View.canon_unit_zero hz2]
  simp only [View.ld_unit_zero (S := S64x128) hz2, View.ld_unit_zero (S := S64x1) hz2, View.ld_unit_zero (S := S128x16) hz2,
    View.ld_unit_zero (S := S1x16) hz2]
  have e : ∀ t : Fin cfg3.N, win3_4.index t (0 : Fin 2) = 0 ∧ win3_4.index t (1 : Fin 2) = 0 :=
    (by decide +kernel : ∀ t : Fin grid3.N, _)
  obtain ⟨e0, e1⟩ := e t
  funext y
  have hy0 : ((((cfg3.win 4).blk t).view.emb y) 0).val = (y 0).val := by
    show win3_4.index t (0 : Fin 2) * 64 + 1 * (y 0).val = _; rw [e0]; omega
  have hy1 : ((((cfg3.win 4).blk t).view.emb y) 1).val = (y 1).val := by
    show win3_4.index t (1 : Fin 2) * 16 + 1 * (y 1).val = _; rw [e1]; omega
  refine (congrArg (k3_pay1 (F := Ideal) (iblk3 V c 0 t) (iblk3 V c 1 t) (iblk3 V c 2 t) (iblk3 V c 3 t)) (eq_ix2 (n0 := 64) (n1 := 16) y)).trans ?_
  exact point3 (iblk3 V c 0 t) (iblk3 V c 1 t) (iblk3 V c 2 t) (iblk3 V c 3 t)
    (V c main_v41) (V c main_v46) (V c main_arg5) (V c main_v47) (y 0) (y 1)
    (((cfg3.win 4).blk t).view.emb y)
    (fun k => iblk3_0_apply V c t _ _ hy0 rfl)
    (iblk3_1_apply V c t _ _ hy0 rfl)
    (fun k => iblk3_2_apply V c t _ _ rfl hy1)
    (iblk3_3_apply V c t _ _ rfl hy1)

/-- An index of the output array is in the one point's block iff each coordinate is in the block's range on its axis. -/
theorem mem_blk3 (t : Fin cfg3.N) (i : S64x16.Idx) :
    i ∈ ((cfg3.win 4).blk t).view.set ↔ ∀ a : Fin 2, win3_4.index t a * S64x16.size a ≤ (i a).val ∧ (i a).val < win3_4.index t a * S64x16.size a + S64x16.size a := by
  show i ∈ ((View.whole main_v48).slice (win3_4.rect t)).set ↔ _
  rw [View.set_slice_whole, Rect.mem_set_unit]
  exact Iff.rfl

/-- The one block is the whole output. -/
theorem cover3 (i : S64x16.Idx) : ∃ t : Fin cfg3.N, (cfg3.win 4).flush t = true ∧ i ∈ ((cfg3.win 4).blk t).view.set := by
  have e : ∀ t : Fin cfg3.N, win3_4.index t (0 : Fin 2) = 0 ∧ win3_4.index t (1 : Fin 2) = 0 :=
    (by decide +kernel : ∀ t : Fin grid3.N, _)
  have hi0 : (i 0).val < 64 := (i 0).isLt
  have hi1 : (i 1).val < 16 := (i 1).isLt
  refine ⟨t3_0, flush3_4 _, ?_⟩
  rw [mem_blk3]
  obtain ⟨e0, e1⟩ := e t3_0
  intro a
  match a with
  | ⟨0, _⟩ => show win3_4.index _ (0 : Fin 2) * 64 ≤ (i 0).val ∧ (i 0).val < win3_4.index _ (0 : Fin 2) * 64 + 64; rw [e0]; omega
  | ⟨1, _⟩ => show win3_4.index _ (1 : Fin 2) * 16 ≤ (i 1).val ∧ (i 1).val < win3_4.index _ (1 : Fin 2) * 16 + 16; rw [e1]; omega

/-- The fourth region's output array after its run. -/
theorem final3 (c : Dev nD) :
    (dat3 (F := Ideal) V c).arrAt 4 cfg3.N = poolLinear (V c main_v41) (V c main_v46) (V c main_arg5) (V c main_v47) :=
  (dat3 V c).arrAt_eq_of_cover 4 _ (fun t _ => flushed3_eq V c t) (cover3)

end

end Cert.KernelIdeal.Whole

end
-- ==== Proof.Carry.lean ====
/-
  Buffers that a stretch of host operations or a region does not write keep their contents across it: each buffer the
  later stretches and regions read is walked back to the boundary where it was written (or to the launch memory).
-/
import proofs.«121145_j20194936226696_2_alg».proof.Proof.Gen.KernelIdeal.Frame
import Idealize.ShloMosaic.Lib.StableHlo.Run
import Idealize.ShloMosaic.PureOps.Ideal

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo

/-- A stretch of host operations leaves a buffer none of them writes as it was. -/
macro "host_skip" : tactic =>
  `(tactic| exact StableHlo.after_of_forall_not_mem _ _ (List.forall_iff_forall_mem.mp (by
      simp only [hostOps0, hostOps1, hostOps2, hostOps3, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

variable (m : (ℓ : Loc nD τ sig) → Buf (Elt Ideal) ℓ) (ρ : Dev nD → PrngReg) (c : Dev nD)

theorem W2_v1 : W2 (F := Ideal) m ρ c (Proc.devRef .tc main_v1) = W1 m ρ c (Proc.devRef .tc main_v1) :=
  calc W2 (F := Ideal) m ρ c (Proc.devRef .tc main_v1)
    _ = W1 m ρ c (Proc.devRef .tc main_v1) := (W2_of_ne m ρ c main_v1 (by decide))

theorem W4_v1 : W4 (F := Ideal) m ρ c (Proc.devRef .tc main_v1) = W1 m ρ c (Proc.devRef .tc main_v1) :=
  calc W4 (F := Ideal) m ρ c (Proc.devRef .tc main_v1)
    _ = W3 m ρ c (Proc.devRef .tc main_v1) := (W4_of_ne m ρ c main_v1 (by decide))
    _ = W2 m ρ c (Proc.devRef .tc main_v1) := (by host_skip)
    _ = W1 m ρ c (Proc.devRef .tc main_v1) := (W2_of_ne m ρ c main_v1 (by decide))

theorem W2_v3 : W2 (F := Ideal) m ρ c (Proc.devRef .tc main_v3) = W1 m ρ c (Proc.devRef .tc main_v3) :=
  calc W2 (F := Ideal) m ρ c (Proc.devRef .tc main_v3)
    _ = W1 m ρ c (Proc.devRef .tc main_v3) := (W2_of_ne m ρ c main_v3 (by decide))

theorem W4_v3 : W4 (F := Ideal) m ρ c (Proc.devRef .tc main_v3) = W1 m ρ c (Proc.devRef .tc main_v3) :=
  calc W4 (F := Ideal) m ρ c (Proc.devRef .tc main_v3)
    _ = W3 m ρ c (Proc.devRef .tc main_v3) := (W4_of_ne m ρ c main_v3 (by decide))
    _ = W2 m ρ c (Proc.devRef .tc main_v3) := (by host_skip)
    _ = W1 m ρ c (Proc.devRef .tc main_v3) := (W2_of_ne m ρ c main_v3 (by decide))

theorem W2_v10 : W2 (F := Ideal) m ρ c (Proc.devRef .tc main_v10) = W1 m ρ c (Proc.devRef .tc main_v10) :=
  calc W2 (F := Ideal) m ρ c (Proc.devRef .tc main_v10)
    _ = W1 m ρ c (Proc.devRef .tc main_v10) := (W2_of_ne m ρ c main_v10 (by decide))

theorem W4_v10 : W4 (F := Ideal) m ρ c (Proc.devRef .tc main_v10) = W1 m ρ c (Proc.devRef .tc main_v10) :=
  calc W4 (F := Ideal) m ρ c (Proc.devRef .tc main_v10)
    _ = W3 m ρ c (Proc.devRef .tc main_v10) := (W4_of_ne m ρ c main_v10 (by decide))
    _ = W2 m ρ c (Proc.devRef .tc main_v10) := (by host_skip)
    _ = W1 m ρ c (Proc.devRef .tc main_v10) := (W2_of_ne m ρ c main_v10 (by decide))

theorem W1_arg0 : W1 (F := Ideal) m ρ c (Proc.devRef .tc main_arg0) = W0 m ρ c (Proc.devRef .tc main_arg0) :=
  calc W1 (F := Ideal) m ρ c (Proc.devRef .tc main_arg0)
    _ = W0 m ρ c (Proc.devRef .tc main_arg0) := (by host_skip)

theorem W1_arg1 : W1 (F := Ideal) m ρ c (Proc.devRef .tc main_arg1) = W0 m ρ c (Proc.devRef .tc main_arg1) :=
  calc W1 (F := Ideal) m ρ c (Proc.devRef .tc main_arg1)
    _ = W0 m ρ c (Proc.devRef .tc main_arg1) := (by host_skip)

theorem W2_arg2 : W2 (F := Ideal) m ρ c (Proc.devRef .tc main_arg2) = W0 m ρ c (Proc.devRef .tc main_arg2) :=
  calc W2 (F := Ideal) m ρ c (Proc.devRef .tc main_arg2)
    _ = W1 m ρ c (Proc.devRef .tc main_arg2) := (W2_of_ne m ρ c main_arg2 (by decide))
    _ = W0 m ρ c (Proc.devRef .tc main_arg2) := (by host_skip)

theorem W3_arg3 : W3 (F := Ideal) m ρ c (Proc.devRef .tc main_arg3) = W0 m ρ c (Proc.devRef .tc main_arg3) :=
  calc W3 (F := Ideal) m ρ c (Proc.devRef .tc main_arg3)
    _ = W2 m ρ c (Proc.devRef .tc main_arg3) := (by host_skip)
    _ = W1 m ρ c (Proc.devRef .tc main_arg3) := (W2_of_ne m ρ c main_arg3 (by decide))
    _ = W0 m ρ c (Proc.devRef .tc main_arg3) := (by host_skip)

theorem W4_arg4 : W4 (F := Ideal) m ρ c (Proc.devRef .tc main_arg4) = W0 m ρ c (Proc.devRef .tc main_arg4) :=
  calc W4 (F := Ideal) m ρ c (Proc.devRef .tc main_arg4)
    _ = W3 m ρ c (Proc.devRef .tc main_arg4) := (W4_of_ne m ρ c main_arg4 (by decide))
    _ = W2 m ρ c (Proc.devRef .tc main_arg4) := (by host_skip)
    _ = W1 m ρ c (Proc.devRef .tc main_arg4) := (W2_of_ne m ρ c main_arg4 (by decide))
    _ = W0 m ρ c (Proc.devRef .tc main_arg4) := (by host_skip)

theorem W7_arg5 : W7 (F := Ideal) m ρ c (Proc.devRef .tc main_arg5) = W0 m ρ c (Proc.devRef .tc main_arg5) :=
  calc W7 (F := Ideal) m ρ c (Proc.devRef .tc main_arg5)
    _ = W6 m ρ c (Proc.devRef .tc main_arg5) := (by host_skip)
    _ = W5 m ρ c (Proc.devRef .tc main_arg5) := (W6_of_ne m ρ c main_arg5 (by decide))
    _ = W4 m ρ c (Proc.devRef .tc main_arg5) := (by host_skip)
    _ = W3 m ρ c (Proc.devRef .tc main_arg5) := (W4_of_ne m ρ c main_arg5 (by decide))
    _ = W2 m ρ c (Proc.devRef .tc main_arg5) := (by host_skip)
    _ = W1 m ρ c (Proc.devRef .tc main_arg5) := (W2_of_ne m ρ c main_arg5 (by decide))
    _ = W0 m ρ c (Proc.devRef .tc main_arg5) := (by host_skip)

theorem W6_arg6 : W6 (F := Ideal) m ρ c (Proc.devRef .tc main_arg6) = W0 m ρ c (Proc.devRef .tc main_arg6) :=
  calc W6 (F := Ideal) m ρ c (Proc.devRef .tc main_arg6)
    _ = W5 m ρ c (Proc.devRef .tc main_arg6) := (W6_of_ne m ρ c main_arg6 (by decide))
    _ = W4 m ρ c (Proc.devRef .tc main_arg6) := (by host_skip)
    _ = W3 m ρ c (Proc.devRef .tc main_arg6) := (W4_of_ne m ρ c main_arg6 (by decide))
    _ = W2 m ρ c (Proc.devRef .tc main_arg6) := (by host_skip)
    _ = W1 m ρ c (Proc.devRef .tc main_arg6) := (W2_of_ne m ρ c main_arg6 (by decide))
    _ = W0 m ρ c (Proc.devRef .tc main_arg6) := (by host_skip)

theorem W6_arg8 : W6 (F := Ideal) m ρ c (Proc.devRef .tc main_arg8) = W0 m ρ c (Proc.devRef .tc main_arg8) :=
  calc W6 (F := Ideal) m ρ c (Proc.devRef .tc main_arg8)
    _ = W5 m ρ c (Proc.devRef .tc main_arg8) := (W6_of_ne m ρ c main_arg8 (by decide))
    _ = W4 m ρ c (Proc.devRef .tc main_arg8) := (by host_skip)
    _ = W3 m ρ c (Proc.devRef .tc main_arg8) := (W4_of_ne m ρ c main_arg8 (by decide))
    _ = W2 m ρ c (Proc.devRef .tc main_arg8) := (by host_skip)
    _ = W1 m ρ c (Proc.devRef .tc main_arg8) := (W2_of_ne m ρ c main_arg8 (by decide))
    _ = W0 m ρ c (Proc.devRef .tc main_arg8) := (by host_skip)

theorem W3_v12 : W3 (F := Ideal) m ρ c (Proc.devRef .tc main_v12) = W2 m ρ c (Proc.devRef .tc main_v12) :=
  calc W3 (F := Ideal) m ρ c (Proc.devRef .tc main_v12)
    _ = W2 m ρ c (Proc.devRef .tc main_v12) := (by host_skip)

theorem W5_v25 : W5 (F := Ideal) m ρ c (Proc.devRef .tc main_v25) = W4 m ρ c (Proc.devRef .tc main_v25) :=
  calc W5 (F := Ideal) m ρ c (Proc.devRef .tc main_v25)
    _ = W4 m ρ c (Proc.devRef .tc main_v25) := (by host_skip)

end Cert.KernelIdeal.Whole

end
-- ==== Proof.LibIsReal.lean ====
/-
  Extended reals that are real numbers.

  A float input that is finite denotes, at the ideal instance, an extended real that is neither infinity: a real
  number. Sums, differences, products and maxima of real numbers are real, and so is a quotient by a nonzero real;
  the laws of arithmetic that fail at the infinities (distributivity, cancellation) hold on such values.
-/
import Idealize.ShloMosaic.PureOps.Ideal

noncomputable section

namespace Cert.Reals

open Idealize.ShloMosaic

/-- `x` is a real number: not an infinity. -/
def IsReal (x : EReal) : Prop := ∃ a : ℝ, x = (a : EReal)

theorem isReal_coe (a : ℝ) : IsReal (a : EReal) := ⟨a, rfl⟩

theorem isReal_zero : IsReal 0 := ⟨0, rfl⟩

theorem isReal_one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  obtain ⟨a, rfl⟩ := hx; obtain ⟨b, rfl⟩ := hy
  rcases le_total a b with h | h
  · exact ⟨b, max_eq_right (by exact_mod_cast h)⟩
  · exact ⟨a, max_eq_left (by exact_mod_cast h)⟩

/-- A finite sum of real numbers is a real number. -/
theorem isReal_sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The quotient of a real number by a nonzero real number is a real number. -/
theorem IsReal.div_coe {x : EReal} (hx : IsReal x) {y : ℝ} (hy : y ≠ 0) : IsReal (Ideal.div x (y : EReal)) := by
  rw [Ideal.div_coe hy]; exact hx.mul (isReal_coe _)

/-- The quotient of a real number by an extended real that is at least one is a real number: the divisor is a
    nonzero real, or `+∞`, whose inverse is zero. -/
theorem IsReal.div_of_one_le {x y : EReal} (hx : IsReal x) (hy : 1 ≤ y) : IsReal (Ideal.div x y) := by
  obtain ⟨a, rfl⟩ := hx
  induction y using EReal.rec with
  | bot => exact absurd (le_bot_iff.mp hy) (by rw [← EReal.coe_one]; exact EReal.coe_ne_bot 1)
  | top => exact ⟨0, by simp [Ideal.div]⟩
  | coe b =>
    have hb : (1 : ℝ) ≤ b := by exact_mod_cast hy
    exact (isReal_coe a).div_coe (by linarith : b ≠ 0)

end Cert.Reals

end
-- ==== Proof.LibRowScatter.lean ====
/-
  Row gathers and row scatters read at coordinates.

  A table of `N` rows (each a vector of `D` entries, or a `C × D` block) is gathered at `E` row numbers, or has
  `E` update rows added into it at `E` row numbers. The row numbers are an array of shape `[E, 1]`: the index
  vector lies along axis 1 and has the single component that names axis 0 of the table; every other axis of the table is
  taken whole. For such dimension numbers the gather reads row `clamp(idx[j, 0])` of the table, and the accumulating
  scatter adds to entry `(n, e)` of the table the entries `(j, e)` of all update rows `j` whose row number
  `idx[j, 0]`, read as a signed integer, is exactly `n` (a row number outside `[0, N)` names no row: the update is dropped).
-/
import Idealize.ShloMosaic.Lib.ValueIdx
import Idealize.ShloMosaic.PureOps.Contract
import Mathlib.Algebra.BigOperators.Fin

noncomputable section

open scoped BigOperators

namespace Cert.Lib.RowScatter

open Idealize.ShloMosaic Idealize.ShloMosaic.ValueIdx

/-! ## Scatter into a table of vectors: operand `[N, D]`, row numbers `[E, 1]`, updates `[E, D]` -/

section S2
variable {N D E w : Nat}

/-- The row-number array is read at `[j₀, 0]`: the update's row coordinate, and the one component of the index vector. -/
theorem siIdx2 (d : ScatterDims ⟨2, ![N, D]⟩ ⟨2, ![E, 1]⟩ ⟨2, ![E, D]⟩)
    (hu : d.updateWindowDims = [1]) (hv : d.indexVectorDim = 1)
    (j : (⟨2, ![E, D]⟩ : Shape).Idx) (c : Fin d.scatterDimsToOperandDims.length) :
    d.siIdx j c = ix2 (j 0) 0 := by
  obtain ⟨uw, iw, sd, iv, wf⟩ := d
  obtain rfl : uw = [1] := hu
  obtain rfl : iv = 1 := hv
  funext b; refine Fin.ext ?_
  match b with
  | ⟨0, _⟩ => rfl
  | ⟨1, _⟩ =>
    have hl : sd.length = 1 := by
      have h := wf.2.2.2.2.1
      rw [dif_pos (show (1 : Nat) < 2 by omega)] at h
      exact h
    have h1 : c.val < sd.length := c.isLt
    show c.val = 0
    omega

/-- On axis 0 the window starts at the row number, read as a signed integer. -/
theorem start2_zero (d : ScatterDims ⟨2, ![N, D]⟩ ⟨2, ![E, 1]⟩ ⟨2, ![E, D]⟩)
    (hu : d.updateWindowDims = [1]) (hs : d.scatterDimsToOperandDims = [0]) (hv : d.indexVectorDim = 1)
    (j : (⟨2, ![E, D]⟩ : Shape).Idx) (idx : IVec ⟨2, ![E, 1]⟩ w) :
    d.start j idx 0 = (idx (ix2 (j 0) 0)).toInt := by
  have hm : (0 : Fin 2) ∈ d.scatterDimsToOperandDims := by rw [hs]; exact List.mem_singleton.mpr rfl
  unfold ScatterDims.start
  rw [dif_pos hm, siIdx2 d hu hv]
  rfl

/-- On axis 1, which the index vector does not name, the window starts at 0. -/
theorem start2_one (d : ScatterDims ⟨2, ![N, D]⟩ ⟨2, ![E, 1]⟩ ⟨2, ![E, D]⟩)
    (hs : d.scatterDimsToOperandDims = [0])
    (j : (⟨2, ![E, D]⟩ : Shape).Idx) (idx : IVec ⟨2, ![E, 1]⟩ w) :
    d.start j idx 1 = 0 := by
  have hm : (1 : Fin 2) ∉ d.scatterDimsToOperandDims := by
    rw [hs]; show (1 : Fin 2) ∉ ([0] : List (Fin 2)); decide
  unfold ScatterDims.start
  rw [dif_neg hm]

/-- Axis 0 of the table is an inserted axis: its window coordinate is 0. -/
theorem window2_zero (d : ScatterDims ⟨2, ![N, D]⟩ ⟨2, ![E, 1]⟩ ⟨2, ![E, D]⟩)
    (hi : d.insertedWindowDims = [0]) (j : (⟨2, ![E, D]⟩ : Shape).Idx) :
    d.window j 0 = 0 := by
  have hm : (0 : Fin 2) ∉ d.sKept := by
    show (0 : Fin 2) ∉ Shape.kept _ d.insertedWindowDims
    rw [hi]; show (0 : Fin 2) ∉ (List.finRange 2).filter (· ∉ ([0] : List (Fin 2))); decide
  unfold ScatterDims.window
  rw [dif_neg hm]

/-- Axis 1 of the table is the one window axis: its window coordinate is the update's coordinate on axis 1. -/
theorem window2_one (d : ScatterDims ⟨2, ![N, D]⟩ ⟨2, ![E, 1]⟩ ⟨2, ![E, D]⟩)
    (hu : d.updateWindowDims = [1]) (hi : d.insertedWindowDims = [0]) (j : (⟨2, ![E, D]⟩ : Shape).Idx) :
    d.window j 1 = (j 1).val := by
  obtain ⟨uw, iw, sd, iv, wf⟩ := d
  obtain rfl : uw = [1] := hu
  obtain rfl : iw = [0] := hi
  rfl

/-- WHERE AN UPDATE LANDS. Update entry `j = (j₀, j₁)` lands on table entry `i` exactly when its row number
    `idx[j₀, 0]`, read as a signed integer, is `i`'s row, and `j₁` is `i`'s position in the row. (A row number that is
    negative or at least `N` is no row of the table: the update lands nowhere.) -/
theorem resultIdx2_eq_some_iff (d : ScatterDims ⟨2, ![N, D]⟩ ⟨2, ![E, 1]⟩ ⟨2, ![E, D]⟩)
    (hu : d.updateWindowDims = [1]) (hi : d.insertedWindowDims = [0]) (hs : d.scatterDimsToOperandDims = [0])
    (hv : d.indexVectorDim = 1)
    (j : (⟨2, ![E, D]⟩ : Shape).Idx) (idx : IVec ⟨2, ![E, 1]⟩ w) (i : (⟨2, ![N, D]⟩ : Shape).Idx) :
    d.resultIdx? j idx = some i ↔ (idx (ix2 (j 0) 0)).toInt = ((i 0).val : Int) ∧ (j 1 : Fin D) = i 1 := by
  have s0 := start2_zero d hu hs hv j idx
  have s1 := start2_one d hs j idx
  have w0 := window2_zero d hi j
  have w1 := window2_one d hu hi j
  have hi0 : (i 0).val < N := idx2_lt0 i
  have hi1 : (i 1).val < D := idx2_lt1 i
  have hj1 : (j 1).val < D := idx2_lt1 j
  unfold ScatterDims.resultIdx?
  constructor
  · intro h
    split at h
    · rename_i hb
      have h' := Option.some.inj h
      have e0 : (d.start j idx 0 + (d.window j 0 : Int)).toNat = (i 0).val := congrArg (fun f => (f 0).val) h'
      have e1 : (d.start j idx 1 + (d.window j 1 : Int)).toNat = (i 1).val := congrArg (fun f => (f 1).val) h'
      have hb0 := (hb 0).1
      rw [s0, w0] at e0 hb0
      rw [s1, w1] at e1
      exact ⟨by omega, Fin.ext (by omega)⟩
    · exact absurd h (by simp)
  · rintro ⟨hz, hj⟩
    have hj' : (j 1).val = (i 1).val := congrArg Fin.val hj
    have hall : ∀ a, 0 ≤ d.start j idx a + (d.window j a : Int) ∧
        d.start j idx a + (d.window j a : Int) < ((⟨2, ![N, D]⟩ : Shape).size a : Int) := by
      intro a
      match a with
      | ⟨0, _⟩ =>
        show 0 ≤ d.start j idx 0 + (d.window j 0 : Int) ∧ d.start j idx 0 + (d.window j 0 : Int) < (N : Int)
        rw [s0, w0]; omega
      | ⟨1, _⟩ =>
        show 0 ≤ d.start j idx 1 + (d.window j 1 : Int) ∧ d.start j idx 1 + (d.window j 1 : Int) < (D : Int)
        rw [s1, w1]; omega
    rw [dif_pos hall]
    congr 1
    funext a
    refine Fin.ext ?_
    match a with
    | ⟨0, _⟩ =>
      show (d.start j idx 0 + (d.window j 0 : Int)).toNat = (i 0).val
      rw [s0, w0]; omega
    | ⟨1, _⟩ =>
      show (d.start j idx 1 + (d.window j 1 : Int)).toNat = (i 1).val
      rw [s1, w1]; omega

/-- THE ACCUMULATING SCATTER READ AT `(n, e)`: the table's entry plus the entries `(j, e)` of every update row `j` whose
    row number `idx[j, 0]`, read as a signed integer, is `n`. -/
theorem scatterAdd2_apply {φ : FTy} (d : ScatterDims ⟨2, ![N, D]⟩ ⟨2, ![E, 1]⟩ ⟨2, ![E, D]⟩)
    (hu : d.updateWindowDims = [1]) (hi : d.insertedWindowDims = [0]) (hs : d.scatterDimsToOperandDims = [0])
    (hv : d.indexVectorDim = 1)
    (x : FVec Ideal ⟨2, ![N, D]⟩ φ) (idx : IVec ⟨2, ![E, 1]⟩ w) (upd : FVec Ideal ⟨2, ![E, D]⟩ φ) (n : Fin N) (e : Fin D) :
    Host.scatterAdd (F := Ideal) d x idx upd (ix2 n e)
      = x (ix2 n e) + ∑ j ∈ Finset.univ.filter (fun j : Fin E => (idx (ix2 j 0)).toInt = (n.val : Int)), upd (ix2 j e) := by
  show x (ix2 n e) + _ = x (ix2 n e) + _
  congr 1
  refine Finset.sum_nbij' (fun j' : (⟨2, ![E, D]⟩ : Shape).Idx => (j' 0 : Fin E)) (fun j : Fin E => ix2 j e) ?_ ?_ ?_ ?_ ?_
  · intro j' hj'
    have hl := (resultIdx2_eq_some_iff d hu hi hs hv j' idx (ix2 n e)).mp (Finset.mem_filter.mp hj').2
    exact Finset.mem_filter.mpr ⟨Finset.mem_univ _, hl.1⟩
  · intro j hj
    have hr := (Finset.mem_filter.mp hj).2
    exact Finset.mem_filter.mpr ⟨Finset.mem_univ _,
      (resultIdx2_eq_some_iff d hu hi hs hv (ix2 j e) idx (ix2 n e)).mpr ⟨hr, rfl⟩⟩
  · intro j' hj'
    have h2 : (j' 1 : Fin D) = e :=
      ((resultIdx2_eq_some_iff d hu hi hs hv j' idx (ix2 n e)).mp (Finset.mem_filter.mp hj').2).2
    show ix2 (j' 0) e = j'
    rw [← h2]; exact (eq_ix2 j').symm
  · intro j _
    rfl
  · intro j' hj'
    have h2 : (j' 1 : Fin D) = e :=
      ((resultIdx2_eq_some_iff d hu hi hs hv j' idx (ix2 n e)).mp (Finset.mem_filter.mp hj').2).2
    show upd j' = upd (ix2 (j' 0) e)
    rw [← h2]; exact congrArg upd (eq_ix2 j')

end S2

/-! ## Scatter into a table of blocks: operand `[N, C, D]`, row numbers `[E, 1]`, updates `[E, C, D]` -/

section S3
variable {N C D E w : Nat}

/-- The row-number array is read at `[j₀, 0]`: the update's row coordinate, and the one component of the index vector. -/
theorem siIdx3 (d : ScatterDims ⟨3, ![N, C, D]⟩ ⟨2, ![E, 1]⟩ ⟨3, ![E, C, D]⟩)
    (hu : d.updateWindowDims = [1, 2]) (hv : d.indexVectorDim = 1)
    (j : (⟨3, ![E, C, D]⟩ : Shape).Idx) (c : Fin d.scatterDimsToOperandDims.length) :
    d.siIdx j c = ix2 (j 0) 0 := by
  obtain ⟨uw, iw, sd, iv, wf⟩ := d
  obtain rfl : uw = [1, 2] := hu
  obtain rfl : iv = 1 := hv
  funext b; refine Fin.ext ?_
  match b with
  | ⟨0, _⟩ => rfl
  | ⟨1, _⟩ =>
    have hl : sd.length = 1 := by
      have h := wf.2.2.2.2.1
      rw [dif_pos (show (1 : Nat) < 2 by omega)] at h
      exact h
    have h1 : c.val < sd.length := c.isLt
    show c.val = 0
    omega

/-- On axis 0 the window starts at the row number, read as a signed integer. -/
theorem start3_zero (d : ScatterDims ⟨3, ![N, C, D]⟩ ⟨2, ![E, 1]⟩ ⟨3, ![E, C, D]⟩)
    (hu : d.updateWindowDims = [1, 2]) (hs : d.scatterDimsToOperandDims = [0]) (hv : d.indexVectorDim = 1)
    (j : (⟨3, ![E, C, D]⟩ : Shape).Idx) (idx : IVec ⟨2, ![E, 1]⟩ w) :
    d.start j idx 0 = (idx (ix2 (j 0) 0)).toInt := by
  have hm : (0 : Fin 3) ∈ d.scatterDimsToOperandDims := by rw [hs]; exact List.mem_singleton.mpr rfl
  unfold ScatterDims.start
  rw [dif_pos hm, siIdx3 d hu hv]
  rfl

/-- On axis 1, which the index vector does not name, the window starts at 0. -/
theorem start3_one (d : ScatterDims ⟨3, ![N, C, D]⟩ ⟨2, ![E, 1]⟩ ⟨3, ![E, C, D]⟩)
    (hs : d.scatterDimsToOperandDims = [0])
    (j : (⟨3, ![E, C, D]⟩ : Shape).Idx) (idx : IVec ⟨2, ![E, 1]⟩ w) :
    d.start j idx 1 = 0 := by
  have hm : (1 : Fin 3) ∉ d.scatterDimsToOperandDims := by
    rw [hs]; show (1 : Fin 3) ∉ ([0] : List (Fin 3)); decide
  unfold ScatterDims.start
  rw [dif_neg hm]

/-- On axis 2, which the index vector does not name, the window starts at 0. -/
theorem start3_two (d : ScatterDims ⟨3, ![N, C, D]⟩ ⟨2, ![E, 1]⟩ ⟨3, ![E, C, D]⟩)
    (hs : d.scatterDimsToOperandDims = [0])
    (j : (⟨3, ![E, C, D]⟩ : Shape).Idx) (idx : IVec ⟨2, ![E, 1]⟩ w) :
    d.start j idx 2 = 0 := by
  have hm : (2 : Fin 3) ∉ d.scatterDimsToOperandDims := by
    rw [hs]; show (2 : Fin 3) ∉ ([0] : List (Fin 3)); decide
  unfold ScatterDims.start
  rw [dif_neg hm]

/-- Axis 0 of the table is an inserted axis: its window coordinate is 0. -/
theorem window3_zero (d : ScatterDims ⟨3, ![N, C, D]⟩ ⟨2, ![E, 1]⟩ ⟨3, ![E, C, D]⟩)
    (hi : d.insertedWindowDims = [0]) (j : (⟨3, ![E, C, D]⟩ : Shape).Idx) :
    d.window j 0 = 0 := by
  have hm : (0 : Fin 3) ∉ d.sKept := by
    show (0 : Fin 3) ∉ Shape.kept _ d.insertedWindowDims
    rw [hi]; show (0 : Fin 3) ∉ (List.finRange 3).filter (· ∉ ([0] : List (Fin 3))); decide
  unfold ScatterDims.window
  rw [dif_neg hm]

/-- Axis 1 of the table is the first window axis: its window coordinate is the update's coordinate on axis 1. -/
theorem window3_one (d : ScatterDims ⟨3, ![N, C, D]⟩ ⟨2, ![E, 1]⟩ ⟨3, ![E, C, D]⟩)
    (hu : d.updateWindowDims = [1, 2]) (hi : d.insertedWindowDims = [0]) (j : (⟨3, ![E, C, D]⟩ : Shape).Idx) :
    d.window j 1 = (j 1).val := by
  obtain ⟨uw, iw, sd, iv, wf⟩ := d
  obtain rfl : uw = [1, 2] := hu
  obtain rfl : iw = [0] := hi
  rfl

/-- Axis 2 of the table is the second window axis: its window coordinate is the update's coordinate on axis 2. -/
theorem window3_two (d : ScatterDims ⟨3, ![N, C, D]⟩ ⟨2, ![E, 1]⟩ ⟨3, ![E, C, D]⟩)
    (hu : d.updateWindowDims = [1, 2]) (hi : d.insertedWindowDims = [0]) (j : (⟨3, ![E, C, D]⟩ : Shape).Idx) :
    d.window j 2 = (j 2).val := by
  obtain ⟨uw, iw, sd, iv, wf⟩ := d
  obtain rfl : uw = [1, 2] := hu
  obtain rfl : iw = [0] := hi
  rfl

/-- WHERE AN UPDATE LANDS. Update entry `j = (j₀, j₁, j₂)` lands on table entry `i` exactly when its row number
    `idx[j₀, 0]`, read as a signed integer, is `i`'s row, and `(j₁, j₂)` is `i`'s position in the block. (A row number
    that is negative or at least `N` is no row of the table: the update lands nowhere.) -/
theorem resultIdx3_eq_some_iff (d : ScatterDims ⟨3, ![N, C, D]⟩ ⟨2, ![E, 1]⟩ ⟨3, ![E, C, D]⟩)
    (hu : d.updateWindowDims = [1, 2]) (hi : d.insertedWindowDims = [0]) (hs : d.scatterDimsToOperandDims = [0])
    (hv : d.indexVectorDim = 1)
    (j : (⟨3, ![E, C, D]⟩ : Shape).Idx) (idx : IVec ⟨2, ![E, 1]⟩ w) (i : (⟨3, ![N, C, D]⟩ : Shape).Idx) :
    d.resultIdx? j idx = some i ↔
      (idx (ix2 (j 0) 0)).toInt = ((i 0).val : Int) ∧ (j 1 : Fin C) = i 1 ∧ (j 2 : Fin D) = i 2 := by
  have s0 := start3_zero d hu hs hv j idx
  have s1 := start3_one d hs j idx
  have s2 := start3_two d hs j idx
  have w0 := window3_zero d hi j
  have w1 := window3_one d hu hi j
  have w2 := window3_two d hu hi j
  have hi0 : (i 0).val < N := (i 0).isLt
  have hi1 : (i 1).val < C := (i 1).isLt
  have hi2 : (i 2).val < D := (i 2).isLt
  have hj1 : (j 1).val < C := (j 1).isLt
  have hj2 : (j 2).val < D := (j 2).isLt
  unfold ScatterDims.resultIdx?
  constructor
  · intro h
    split at h
    · rename_i hb
      have h' := Option.some.inj h
      have e0 : (d.start j idx 0 + (d.window j 0 : Int)).toNat = (i 0).val := congrArg (fun f => (f 0).val) h'
      have e1 : (d.start j idx 1 + (d.window j 1 : Int)).toNat = (i 1).val := congrArg (fun f => (f 1).val) h'
      have e2 : (d.start j idx 2 + (d.window j 2 : Int)).toNat = (i 2).val := congrArg (fun f => (f 2).val) h'
      have hb0 := (hb 0).1
      rw [s0, w0] at e0 hb0
      rw [s1, w1] at e1
      rw [s2, w2] at e2
      exact ⟨by omega, Fin.ext (by omega), Fin.ext (by omega)⟩
    · exact absurd h (by simp)
  · rintro ⟨hz, hj1e, hj2e⟩
    have hj1' : (j 1).val = (i 1).val := congrArg Fin.val hj1e
    have hj2' : (j 2).val = (i 2).val := congrArg Fin.val hj2e
    have hall : ∀ a, 0 ≤ d.start j idx a + (d.window j a : Int) ∧
        d.start j idx a + (d.window j a : Int) < ((⟨3, ![N, C, D]⟩ : Shape).size a : Int) := by
      intro a
      match a with
      | ⟨0, _⟩ =>
        show 0 ≤ d.start j idx 0 + (d.window j 0 : Int) ∧ d.start j idx 0 + (d.window j 0 : Int) < (N : Int)
        rw [s0, w0]; omega
      | ⟨1, _⟩ =>
        show 0 ≤ d.start j idx 1 + (d.window j 1 : Int) ∧ d.start j idx 1 + (d.window j 1 : Int) < (C : Int)
        rw [s1, w1]; omega
      | ⟨2, _⟩ =>
        show 0 ≤ d.start j idx 2 + (d.window j 2 : Int) ∧ d.start j idx 2 + (d.window j 2 : Int) < (D : Int)
        rw [s2, w2]; omega
    rw [dif_pos hall]
    congr 1
    funext a
    refine Fin.ext ?_
    match a with
    | ⟨0, _⟩ =>
      show (d.start j idx 0 + (d.window j 0 : Int)).toNat = (i 0).val
      rw [s0, w0]; omega
    | ⟨1, _⟩ =>
      show (d.start j idx 1 + (d.window j 1 : Int)).toNat = (i 1).val
      rw [s1, w1]; omega
    | ⟨2, _⟩ =>
      show (d.start j idx 2 + (d.window j 2 : Int)).toNat = (i 2).val
      rw [s2, w2]; omega

/-- THE ACCUMULATING SCATTER READ AT `(n, c, e)`: the table's entry plus the entries `(j, c, e)` of every update block
    `j` whose row number `idx[j, 0]`, read as a signed integer, is `n`. -/
theorem scatterAdd3_apply {φ : FTy} (d : ScatterDims ⟨3, ![N, C, D]⟩ ⟨2, ![E, 1]⟩ ⟨3, ![E, C, D]⟩)
    (hu : d.updateWindowDims = [1, 2]) (hi : d.insertedWindowDims = [0]) (hs : d.scatterDimsToOperandDims = [0])
    (hv : d.indexVectorDim = 1)
    (x : FVec Ideal ⟨3, ![N, C, D]⟩ φ) (idx : IVec ⟨2, ![E, 1]⟩ w) (upd : FVec Ideal ⟨3, ![E, C, D]⟩ φ)
    (n : Fin N) (c : Fin C) (e : Fin D) :
    Host.scatterAdd (F := Ideal) d x idx upd (ix3 n c e)
      = x (ix3 n c e)
        + ∑ j ∈ Finset.univ.filter (fun j : Fin E => (idx (ix2 j 0)).toInt = (n.val : Int)), upd (ix3 j c e) := by
  show x (ix3 n c e) + _ = x (ix3 n c e) + _
  congr 1
  refine Finset.sum_nbij' (fun j' : (⟨3, ![E, C, D]⟩ : Shape).Idx => (j' 0 : Fin E)) (fun j : Fin E => ix3 j c e)
    ?_ ?_ ?_ ?_ ?_
  · intro j' hj'
    have hl := (resultIdx3_eq_some_iff d hu hi hs hv j' idx (ix3 n c e)).mp (Finset.mem_filter.mp hj').2
    exact Finset.mem_filter.mpr ⟨Finset.mem_univ _, hl.1⟩
  · intro j hj
    have hr := (Finset.mem_filter.mp hj).2
    exact Finset.mem_filter.mpr ⟨Finset.mem_univ _,
      (resultIdx3_eq_some_iff d hu hi hs hv (ix3 j c e) idx (ix3 n c e)).mpr ⟨hr, rfl, rfl⟩⟩
  · intro j' hj'
    have hl := (resultIdx3_eq_some_iff d hu hi hs hv j' idx (ix3 n c e)).mp (Finset.mem_filter.mp hj').2
    have h1 : (j' 1 : Fin C) = c := hl.2.1
    have h2 : (j' 2 : Fin D) = e := hl.2.2
    show ix3 (j' 0) c e = j'
    rw [← h1, ← h2]; exact (eq_ix3 j').symm
  · intro j _
    rfl
  · intro j' hj'
    have hl := (resultIdx3_eq_some_iff d hu hi hs hv j' idx (ix3 n c e)).mp (Finset.mem_filter.mp hj').2
    have h1 : (j' 1 : Fin C) = c := hl.2.1
    have h2 : (j' 2 : Fin D) = e := hl.2.2
    show upd j' = upd (ix3 (j' 0) c e)
    rw [← h1, ← h2]; exact congrArg upd (eq_ix3 j')

end S3

/-! ## Gather of rows -/

/-- Row number `z`, a signed integer, clamped into the rows `[0, N − 1]` of a table with at least one row. -/
def clampRow (N : Nat) (hN : 0 < N) (z : Int) : Fin N := ⟨min z.toNat (N - 1), by omega⟩

/-! ### From a table of vectors: operand `[N, D]`, row numbers `[E, 1]`, result `[E, D]` -/

section G2
variable {N D E w : Nat} {α : Type}

/-- The row-number array is read at `[j₀, 0]`: the result's row coordinate, and the one component of the index vector. -/
theorem gatherSiIdx2 (d : GatherDims ⟨2, ![N, D]⟩ ⟨2, ![E, 1]⟩ ⟨2, ![E, D]⟩)
    (ho : d.offsetDims = [1]) (hm : d.startIndexMap = [0]) (hv : d.indexVectorDim = 1)
    (j : (⟨2, ![E, D]⟩ : Shape).Idx) (c : Fin d.startIndexMap.length) :
    d.siIdx j c = ix2 (j 0) 0 := by
  obtain ⟨od, cd, ob, sb, sm, iv, ss, wf⟩ := d
  obtain rfl : od = [1] := ho
  obtain rfl : sm = [0] := hm
  obtain rfl : iv = 1 := hv
  funext b; refine Fin.ext ?_
  match b with
  | ⟨0, _⟩ => rfl
  | ⟨1, _⟩ =>
    have h1 : c.val < 1 := c.isLt
    show c.val = 0
    omega

/-- On axis 0 the slice (one row) starts at the row number, read as a signed integer and clamped into `[0, N − 1]`. -/
theorem gatherStart2_zero (d : GatherDims ⟨2, ![N, D]⟩ ⟨2, ![E, 1]⟩ ⟨2, ![E, D]⟩)
    (ho : d.offsetDims = [1]) (hm : d.startIndexMap = [0]) (hv : d.indexVectorDim = 1) (hss : d.sliceSizes = ![1, D])
    (j : (⟨2, ![E, D]⟩ : Shape).Idx) (idx : IVec ⟨2, ![E, 1]⟩ w) :
    d.start j idx 0 = min (idx (ix2 (j 0) 0)).toInt.toNat (N - 1) := by
  have hmem : (0 : Fin 2) ∈ d.startIndexMap := by rw [hm]; exact List.mem_singleton.mpr rfl
  unfold GatherDims.start
  rw [dif_pos hmem, gatherSiIdx2 d ho hm hv, hss]
  rfl

/-- On axis 1, which the index vector does not name, the slice (a whole row) starts at 0. -/
theorem gatherStart2_one (d : GatherDims ⟨2, ![N, D]⟩ ⟨2, ![E, 1]⟩ ⟨2, ![E, D]⟩)
    (hm : d.startIndexMap = [0]) (j : (⟨2, ![E, D]⟩ : Shape).Idx) (idx : IVec ⟨2, ![E, 1]⟩ w) :
    d.start j idx 1 = 0 := by
  have hmem : (1 : Fin 2) ∉ d.startIndexMap := by
    rw [hm]; show (1 : Fin 2) ∉ ([0] : List (Fin 2)); decide
  unfold GatherDims.start
  rw [dif_neg hmem]

/-- Axis 0 of the table is collapsed: it has no offset coordinate. -/
theorem gatherOff2_zero (d : GatherDims ⟨2, ![N, D]⟩ ⟨2, ![E, 1]⟩ ⟨2, ![E, D]⟩)
    (hc : d.collapsedSliceDims = [0]) (j : (⟨2, ![E, D]⟩ : Shape).Idx) :
    d.offCoord j 0 = 0 :=
  d.offCoord_eq_zero j 0 fun h => ((d.mem_sKept 0).1 h).1 (by rw [hc]; exact List.mem_singleton.mpr rfl)

/-- Axis 1 of the table is the one offset axis: its offset coordinate is the result's coordinate on axis 1. -/
theorem gatherOff2_one (d : GatherDims ⟨2, ![N, D]⟩ ⟨2, ![E, 1]⟩ ⟨2, ![E, D]⟩)
    (ho : d.offsetDims = [1]) (hc : d.collapsedSliceDims = [0]) (hb : d.operandBatchingDims = [])
    (j : (⟨2, ![E, D]⟩ : Shape).Idx) :
    d.offCoord j 1 = (j 1).val := by
  obtain ⟨od, cd, ob, sb, sm, iv, ss, wf⟩ := d
  obtain rfl : od = [1] := ho
  obtain rfl : cd = [0] := hc
  obtain rfl : ob = [] := hb
  rfl

/-- THE GATHER READ AT `(j, e)`: entry `e` of the table's row `idx[j, 0]`, the row number read as a signed integer and
    clamped into `[0, N − 1]`. -/
theorem gather2_apply (d : GatherDims ⟨2, ![N, D]⟩ ⟨2, ![E, 1]⟩ ⟨2, ![E, D]⟩)
    (ho : d.offsetDims = [1]) (hc : d.collapsedSliceDims = [0]) (hb : d.operandBatchingDims = [])
    (hm : d.startIndexMap = [0]) (hv : d.indexVectorDim = 1) (hss : d.sliceSizes = ![1, D]) (hN : 0 < N)
    (x : (⟨2, ![N, D]⟩ : Shape).Idx → α) (idx : IVec ⟨2, ![E, 1]⟩ w) (j : Fin E) (e : Fin D) :
    Host.gather d x idx (ix2 j e) = x (ix2 (clampRow N hN (idx (ix2 j 0)).toInt) e) := by
  have hnb : ∀ a, a ∉ d.operandBatchingDims := by intro a; rw [hb]; exact List.not_mem_nil
  unfold Host.gather
  congr 1
  funext a
  refine Fin.ext ?_
  match a with
  | ⟨0, _⟩ =>
    show d.start (ix2 j e) idx 0 + d.batchCoord (ix2 j e) 0 + d.offCoord (ix2 j e) 0
      = min (idx (ix2 j 0)).toInt.toNat (N - 1)
    rw [gatherStart2_zero d ho hm hv hss, d.batchCoord_eq_zero _ _ (hnb 0), gatherOff2_zero d hc]
    rfl
  | ⟨1, _⟩ =>
    show d.start (ix2 j e) idx 1 + d.batchCoord (ix2 j e) 1 + d.offCoord (ix2 j e) 1 = e.val
    rw [gatherStart2_one d hm, d.batchCoord_eq_zero _ _ (hnb 1), gatherOff2_one d ho hc hb]
    show 0 + 0 + e.val = e.val
    omega

end G2

/-! ### From a table of blocks: operand `[N, C, D]`, row numbers `[E, 1]`, result `[E, C, D]` -/

section G3
variable {N C D E w : Nat} {α : Type}

/-- The row-number array is read at `[j₀, 0]`: the result's row coordinate, and the one component of the index vector. -/
theorem gatherSiIdx3 (d : GatherDims ⟨3, ![N, C, D]⟩ ⟨2, ![E, 1]⟩ ⟨3, ![E, C, D]⟩)
    (ho : d.offsetDims = [1, 2]) (hm : d.startIndexMap = [0]) (hv : d.indexVectorDim = 1)
    (j : (⟨3, ![E, C, D]⟩ : Shape).Idx) (c : Fin d.startIndexMap.length) :
    d.siIdx j c = ix2 (j 0) 0 := by
  obtain ⟨od, cd, ob, sb, sm, iv, ss, wf⟩ := d
  obtain rfl : od = [1, 2] := ho
  obtain rfl : sm = [0] := hm
  obtain rfl : iv = 1 := hv
  funext b; refine Fin.ext ?_
  match b with
  | ⟨0, _⟩ => rfl
  | ⟨1, _⟩ =>
    have h1 : c.val < 1 := c.isLt
    show c.val = 0
    omega

/-- On axis 0 the slice (one block) starts at the row number, read as a signed integer and clamped into `[0, N − 1]`. -/
theorem gatherStart3_zero (d : GatherDims ⟨3, ![N, C, D]⟩ ⟨2, ![E, 1]⟩ ⟨3, ![E, C, D]⟩)
    (ho : d.offsetDims = [1, 2]) (hm : d.startIndexMap = [0]) (hv : d.indexVectorDim = 1)
    (hss : d.sliceSizes = ![1, C, D])
    (j : (⟨3, ![E, C, D]⟩ : Shape).Idx) (idx : IVec ⟨2, ![E, 1]⟩ w) :
    d.start j idx 0 = min (idx (ix2 (j 0) 0)).toInt.toNat (N - 1) := by
  have hmem : (0 : Fin 3) ∈ d.startIndexMap := by rw [hm]; exact List.mem_singleton.mpr rfl
  unfold GatherDims.start
  rw [dif_pos hmem, gatherSiIdx3 d ho hm hv, hss]
  rfl

/-- On an axis the index vector does not name (1 or 2) the slice, a whole block, starts at 0. -/
theorem gatherStart3_ne_zero (d : GatherDims ⟨3, ![N, C, D]⟩ ⟨2, ![E, 1]⟩ ⟨3, ![E, C, D]⟩)
    (hm : d.startIndexMap = [0]) (j : (⟨3, ![E, C, D]⟩ : Shape).Idx) (idx : IVec ⟨2, ![E, 1]⟩ w)
    (a : Fin 3) (ha : a ≠ 0) :
    d.start j idx a = 0 := by
  have hmem : a ∉ d.startIndexMap := by
    rw [hm]; exact fun h => ha (List.mem_singleton.mp h)
  unfold GatherDims.start
  rw [dif_neg hmem]

/-- Axis 0 of the table is collapsed: it has no offset coordinate. -/
theorem gatherOff3_zero (d : GatherDims ⟨3, ![N, C, D]⟩ ⟨2, ![E, 1]⟩ ⟨3, ![E, C, D]⟩)
    (hc : d.collapsedSliceDims = [0]) (j : (⟨3, ![E, C, D]⟩ : Shape).Idx) :
    d.offCoord j 0 = 0 :=
  d.offCoord_eq_zero j 0 fun h => ((d.mem_sKept 0).1 h).1 (by rw [hc]; exact List.mem_singleton.mpr rfl)

/-- Axis 1 of the table is the first offset axis: its offset coordinate is the result's coordinate on axis 1. -/
theorem gatherOff3_one (d : GatherDims ⟨3, ![N, C, D]⟩ ⟨2, ![E, 1]⟩ ⟨3, ![E, C, D]⟩)
    (ho : d.offsetDims = [1, 2]) (hc : d.collapsedSliceDims = [0]) (hb : d.operandBatchingDims = [])
    (j : (⟨3, ![E, C, D]⟩ : Shape).Idx) :
    d.offCoord j 1 = (j 1).val := by
  obtain ⟨od, cd, ob, sb, sm, iv, ss, wf⟩ := d
  obtain rfl : od = [1, 2] := ho
  obtain rfl : cd = [0] := hc
  obtain rfl : ob = [] := hb
  rfl

/-- Axis 2 of the table is the second offset axis: its offset coordinate is the result's coordinate on axis 2. -/
theorem gatherOff3_two (d : GatherDims ⟨3, ![N, C, D]⟩ ⟨2, ![E, 1]⟩ ⟨3, ![E, C, D]⟩)
    (ho : d.offsetDims = [1, 2]) (hc : d.collapsedSliceDims = [0]) (hb : d.operandBatchingDims = [])
    (j : (⟨3, ![E, C, D]⟩ : Shape).Idx) :
    d.offCoord j 2 = (j 2).val := by
  obtain ⟨od, cd, ob, sb, sm, iv, ss, wf⟩ := d
  obtain rfl : od = [1, 2] := ho
  obtain rfl : cd = [0] := hc
  obtain rfl : ob = [] := hb
  rfl

/-- THE GATHER READ AT `(j, c, e)`: entry `(c, e)` of the table's block `idx[j, 0]`, the row number read as a signed
    integer and clamped into `[0, N − 1]`. -/
theorem gather3_apply (d : GatherDims ⟨3, ![N, C, D]⟩ ⟨2, ![E, 1]⟩ ⟨3, ![E, C, D]⟩)
    (ho : d.offsetDims = [1, 2]) (hc : d.collapsedSliceDims = [0]) (hb : d.operandBatchingDims = [])
    (hm : d.startIndexMap = [0]) (hv : d.indexVectorDim = 1) (hss : d.sliceSizes = ![1, C, D]) (hN : 0 < N)
    (x : (⟨3, ![N, C, D]⟩ : Shape).Idx → α) (idx : IVec ⟨2, ![E, 1]⟩ w) (j : Fin E) (c : Fin C) (e : Fin D) :
    Host.gather d x idx (ix3 j c e) = x (ix3 (clampRow N hN (idx (ix2 j 0)).toInt) c e) := by
  have hnb : ∀ a, a ∉ d.operandBatchingDims := by intro a; rw [hb]; exact List.not_mem_nil
  unfold Host.gather
  congr 1
  funext a
  refine Fin.ext ?_
  match a with
  | ⟨0, _⟩ =>
    show d.start (ix3 j c e) idx 0 + d.batchCoord (ix3 j c e) 0 + d.offCoord (ix3 j c e) 0
      = min (idx (ix2 j 0)).toInt.toNat (N - 1)
    rw [gatherStart3_zero d ho hm hv hss, d.batchCoord_eq_zero _ _ (hnb 0), gatherOff3_zero d hc]
    rfl
  | ⟨1, _⟩ =>
    show d.start (ix3 j c e) idx 1 + d.batchCoord (ix3 j c e) 1 + d.offCoord (ix3 j c e) 1 = c.val
    rw [gatherStart3_ne_zero d hm _ _ 1 (by decide), d.batchCoord_eq_zero _ _ (hnb 1), gatherOff3_one d ho hc hb]
    show 0 + 0 + c.val = c.val
    omega
  | ⟨2, _⟩ =>
    show d.start (ix3 j c e) idx 2 + d.batchCoord (ix3 j c e) 2 + d.offCoord (ix3 j c e) 2 = e.val
    rw [gatherStart3_ne_zero d hm _ _ 2 (by decide), d.batchCoord_eq_zero _ _ (hnb 2), gatherOff3_two d ho hc hb]
    show 0 + 0 + e.val = e.val
    omega

end G3

end Cert.Lib.RowScatter

end
-- ==== Proof.LibScaleSum.lean ====
/- Normalising a weighted sum on the extended reals, for any number of terms: for real weights a_m whose total d = Σ a_m is
   not zero and real summands x_m, dividing the weighted sum by the total is the sum weighted by the normalised weights,
       (Σ_m a_m · x_m) / d  =  Σ_m (a_m / d) · x_m .
   Over the reals this is distributivity of the product with 1/d over a finite sum. Both hypotheses are needed on the
   extended reals: distributivity fails at an infinity, and a quotient by zero is a signed infinity or the junk value, not
   a product with an inverse. With it, the coercion of a finite sum of reals as the sum of the coercions. Nothing here
   depends on a particular program. -/
import Idealize.ShloMosaic.PureOps.Ideal
import proofs.«121145_j20194936226696_2_alg».proof.Proof.LibIsReal

noncomputable section

open scoped BigOperators

open Idealize.ShloMosaic Cert.Reals

namespace Cert.Lib.ScaleSum

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Dividing a weighted sum by the total weight is the sum weighted by the normalised weights, for real weights of
    nonzero total and real summands. -/
theorem scale_sum {K : ℕ} (a x : Fin K → EReal) (ha : ∀ m, IsReal (a m)) (hx : ∀ m, IsReal (x m)) (hd : ∑ m, a m ≠ 0) :
    Ideal.div (∑ m, a m * x m) (∑ m, a m) = ∑ m, Ideal.div (a m) (∑ m', a m') * x m := by
  choose a' ha' using ha
  choose x' hx' using hx
  obtain rfl : a = fun m => ((a' m : ℝ) : EReal) := funext ha'
  obtain rfl : x = fun m => ((x' m : ℝ) : EReal) := funext hx'
  have hs : ∑ m, ((a' m : ℝ) : EReal) = ((∑ m, a' m : ℝ) : EReal) := (coe_sum _ _).symm
  rw [hs] at hd
  have hd' : (∑ m, a' m) ≠ 0 := fun h => hd (by rw [h]; rfl)
  simp only [hs, Ideal.div_coe hd', ← EReal.coe_mul, ← coe_sum]
  rw [EReal.coe_eq_coe_iff, Finset.sum_mul]
  exact Finset.sum_congr rfl fun m _ => by ring

end Cert.Lib.ScaleSum

end
-- ==== Proof.LibGcnLaw.lean ====
/-
  One step of a graph convolution with self loops and symmetric normalisation, in two arrangements.

  A node `d` receives from the edges `j ∈ s` that end at it the rows `h j` of their sources. With `δ = deg^(-1/2)`
  (`ds j` at the source of edge `j`, `dd` at `d` itself) the step is
      Σ_j h j · (ds j · dd)  +  hd · dd²  +  b .
  One arrangement scales every row at its source first and the sum at the destination afterwards,
      dd · ((Σ_j h j · ds j) + hd · dd) + b ,
  the other multiplies each edge by the product `ds j · dd` and adds the self loop `hd · q` with `q = dd · dd`.
  On real numbers they agree by distributivity; on the extended reals distributivity needs the factors finite, which is
  what the hypotheses say.
-/
import Idealize.ShloMosaic.PureOps.Ideal
import proofs.«121145_j20194936226696_2_alg».proof.Proof.LibIsReal
import proofs.«121145_j20194936226696_2_alg».proof.Proof.LibScaleSum

noncomputable section

open scoped BigOperators

namespace Cert.Lib.GcnLaw

open Idealize.ShloMosaic Cert.Reals Cert.Lib.ScaleSum

/-- The two arrangements of the normalised sum over the incoming edges agree when the gathered rows and the scales
    are real numbers. The bias `b` is any extended real. -/
theorem step_eq {ι : Type*} (s : Finset ι) (h ds : ι → EReal) (hd dd q b : EReal)
    (hh : ∀ j, IsReal (h j)) (hds : ∀ j, IsReal (ds j)) (hhd : IsReal hd) (hdd : IsReal dd) (hq : dd * dd = q) :
    dd * ((0 + ∑ j ∈ s, h j * ds j) + hd * dd) + b = ((0 + ∑ j ∈ s, h j * (ds j * dd)) + hd * q) + b := by
  obtain ⟨d, rfl⟩ := hdd
  obtain ⟨a, rfl⟩ := hhd
  choose f hf using hh
  choose g hg using hds
  subst hq
  have e1 : ∑ j ∈ s, h j * ds j = ((∑ j ∈ s, f j * g j : ℝ) : EReal) := by
    rw [coe_sum]; exact Finset.sum_congr rfl fun j _ => by rw [hf, hg, EReal.coe_mul]
  have e2 : ∑ j ∈ s, h j * (ds j * (d : EReal)) = ((∑ j ∈ s, f j * (g j * d) : ℝ) : EReal) := by
    rw [coe_sum]; exact Finset.sum_congr rfl fun j _ => by rw [hf, hg, EReal.coe_mul, EReal.coe_mul]
  rw [e1, e2, zero_add, zero_add]
  congr 1
  have hr : d * ((∑ j ∈ s, f j * g j) + a * d) = (∑ j ∈ s, f j * (g j * d)) + a * (d * d) := by
    have : ∑ j ∈ s, f j * (g j * d) = d * ∑ j ∈ s, f j * g j := by
      rw [Finset.mul_sum]; exact Finset.sum_congr rfl fun j _ => by ring
    rw [this]; ring
  exact_mod_cast congrArg (fun r : ℝ => (r : EReal)) hr

/-- The step's result, rectified, is a real number when the bias is real too. -/
theorem step_isReal {ι : Type*} (s : Finset ι) (h ds : ι → EReal) (hd dd q b : EReal)
    (hh : ∀ j, IsReal (h j)) (hds : ∀ j, IsReal (ds j)) (hhd : IsReal hd) (hdd : IsReal dd) (hq : IsReal q)
    (hb : IsReal b) :
    IsReal (max (((0 + ∑ j ∈ s, h j * (ds j * dd)) + hd * q) + b) 0) :=
  ((((isReal_zero.add (isReal_sum s _ fun j _ => (hh j).mul ((hds j).mul hdd))).add (hhd.mul hq)).add hb).max isReal_zero)

/-- Inverse square root of a positive real, squared, is the reciprocal: `δ · δ = 1 / deg` for `deg > 0`. -/
theorem rsqrt_sq {r : ℝ} (hr : 0 < r) :
    Ideal.rsqrt (r : EReal) * Ideal.rsqrt (r : EReal) = Ideal.div 1 (r : EReal) := by
  rw [Ideal.div_coe (ne_of_gt hr), Ideal.rsqrt_coe, if_neg (not_lt.mpr hr.le), if_neg (ne_of_gt hr), one_mul,
    ← EReal.coe_mul]
  congr 1
  rw [← mul_inv, Real.mul_self_sqrt hr.le, one_div]

theorem rsqrt_isReal {r : ℝ} (hr : 0 < r) : IsReal (Ideal.rsqrt (r : EReal)) := by
  rw [Ideal.rsqrt_coe, if_neg (not_lt.mpr hr.le), if_neg (ne_of_gt hr)]; exact isReal_coe _

/-- A count of ones over a finite set, plus one, is a positive real number. -/
theorem count_succ {ι : Type*} (s : Finset ι) : (0 + ∑ _j ∈ s, (1 : EReal)) + 1 = (((s.card : ℝ) + 1 : ℝ) : EReal) := by
  rw [zero_add, EReal.coe_add, EReal.coe_one]
  congr 1
  have : ∑ _j ∈ s, (1 : EReal) = ∑ _j ∈ s, ((1 : ℝ) : EReal) := by simp
  rw [this, ← coe_sum]; simp

end Cert.Lib.GcnLaw

end
-- ==== Proof.LibGcnSpec.lean ====
/-
  Two graph-convolution layers, mean pooling and a linear map, entry by entry.

  Nodes `n < 100000`, edges `j < 1600000`, 128 features. An edge `j` LANDS on node `n` when its destination word,
  read as a signed integer, is exactly `n` (any other word names no node and the edge is dropped); its SOURCE ROW is
  its source word clamped into the node range. With `deg n = (number of edges landing on n) + 1`, `δ = deg^(-1/2)` and
  `q = 1/deg`, one layer maps the projected features `lin` to
      max( Σ_{j lands on n} lin(src j) · δ(src j) · δ(n)  +  lin(n) · q(n)  +  b , 0 ).
  `layerR` spells it edge by edge; `layerK` scales rows at their source, sums, and scales the sum at the destination.
  They agree on real data (`layer_eq`), because `δ(n)² = q(n)` and a landing edge's destination row is `n`.
-/
import Idealize.ShloMosaic.Lib.ValueIdx
import Idealize.ShloMosaic.PureOps.Ideal.Laws
import proofs.«121145_j20194936226696_2_alg».proof.Proof.LibIsReal
import proofs.«121145_j20194936226696_2_alg».proof.Proof.LibRowScatter
import proofs.«121145_j20194936226696_2_alg».proof.Proof.LibGcnLaw

noncomputable section

open scoped BigOperators

namespace Cert.Gcn

open Idealize.ShloMosaic Idealize.ShloMosaic.ValueIdx Cert.Reals Cert.Lib.RowScatter Cert.Lib.GcnLaw

/-- The edges whose row word, read as a signed integer, is exactly `n`. -/
def lands {E N : ℕ} (I : IVec ⟨2, ![E, 1]⟩ 32) (n : Fin N) : Finset (Fin E) :=
  Finset.univ.filter fun j : Fin E => (I (ix2 j 0)).toInt = (n.val : Int)

/-- The row an index word names for a gather: the word read as a signed integer and clamped into the node range. -/
def rowOf (I : IVec ⟨2, ![1600000, 1]⟩ 32) (j : Fin 1600000) : Fin 100000 :=
  clampRow 100000 (by norm_num) (I (ix2 j 0)).toInt

/-- The degree with the self loop: one plus the number of landing edges, as the program sums it. -/
def degAt (dI : IVec ⟨2, ![1600000, 1]⟩ 32) (n : Fin 100000) : EReal :=
  (0 + ∑ _j ∈ lands dI n, (1 : EReal)) + 1

def deltaAt (dI : IVec ⟨2, ![1600000, 1]⟩ 32) (n : Fin 100000) : EReal := Ideal.rsqrt (degAt dI n)

def recipAt (dI : IVec ⟨2, ![1600000, 1]⟩ 32) (n : Fin 100000) : EReal := Ideal.div 1 (degAt dI n)

theorem degAt_eq (dI : IVec ⟨2, ![1600000, 1]⟩ 32) (n : Fin 100000) :
    degAt dI n = ((((lands dI n).card : ℝ) + 1 : ℝ) : EReal) := count_succ _

theorem deltaAt_isReal (dI : IVec ⟨2, ![1600000, 1]⟩ 32) (n : Fin 100000) : IsReal (deltaAt dI n) := by
  unfold deltaAt; rw [degAt_eq]; exact rsqrt_isReal (by positivity)

theorem delta_sq (dI : IVec ⟨2, ![1600000, 1]⟩ 32) (n : Fin 100000) : deltaAt dI n * deltaAt dI n = recipAt dI n := by
  unfold deltaAt recipAt; rw [degAt_eq]; exact rsqrt_sq (by positivity)

theorem recipAt_isReal (dI : IVec ⟨2, ![1600000, 1]⟩ 32) (n : Fin 100000) : IsReal (recipAt dI n) := by
  rw [← delta_sq]; exact (deltaAt_isReal dI n).mul (deltaAt_isReal dI n)

/-- A matrix of 128 columns times a `128 × C` matrix, at an entry. -/
def linAt {A C : ℕ} (h : Fin A → Fin 128 → EReal) (W : Fin 128 → Fin C → EReal) (n : Fin A) (c : Fin C) : EReal :=
  ∑ k : Fin 128, h n k * W k c

theorem linAt_isReal {A C : ℕ} (h : Fin A → Fin 128 → EReal) (W : Fin 128 → Fin C → EReal)
    (hh : ∀ n k, IsReal (h n k)) (hW : ∀ k c, IsReal (W k c)) (n : Fin A) (c : Fin C) : IsReal (linAt h W n c) :=
  isReal_sum _ _ fun k _ => (hh n k).mul (hW k c)

section
variable (lin : Fin 100000 → Fin 128 → EReal) (b : Fin 128 → EReal) (sI dI dI' : IVec ⟨2, ![1600000, 1]⟩ 32)

/-- One layer, rows scaled at the source and the sum scaled at the destination. -/
def layerK (n : Fin 100000) (c : Fin 128) : EReal :=
  max (deltaAt dI n * ((0 + ∑ j ∈ lands dI n, lin (rowOf sI j) c * deltaAt dI (rowOf sI j)) + lin n c * deltaAt dI n) + b c) 0

/-- One layer, every edge weighted by the product of the two scales, the self loop by the reciprocal degree. -/
def layerR (n : Fin 100000) (c : Fin 128) : EReal :=
  max (((0 + ∑ j ∈ lands dI n, lin (rowOf sI j) c * (deltaAt dI (rowOf sI j) * deltaAt dI (rowOf dI' j)))
    + lin n c * recipAt dI n) + b c) 0

/-- The two arrangements of a layer agree on real data, when every landing edge's destination row is the node. -/
theorem layer_eq (hlin : ∀ n c, IsReal (lin n c))
    (hland : ∀ (n : Fin 100000), ∀ j ∈ lands dI n, rowOf dI' j = n) :
    layerK lin b sI dI = layerR lin b sI dI dI' := by
  funext n c
  unfold layerK layerR
  have hs : ∑ j ∈ lands dI n, lin (rowOf sI j) c * (deltaAt dI (rowOf sI j) * deltaAt dI (rowOf dI' j))
      = ∑ j ∈ lands dI n, lin (rowOf sI j) c * (deltaAt dI (rowOf sI j) * deltaAt dI n) :=
    Finset.sum_congr rfl fun j hj => by rw [hland n j hj]
  rw [hs]
  exact congrArg (fun z => max z 0) (step_eq (lands dI n) (fun j => lin (rowOf sI j) c) (fun j => deltaAt dI (rowOf sI j))
    (lin n c) (deltaAt dI n) (recipAt dI n) (b c) (fun j => hlin _ c) (fun j => deltaAt_isReal dI _) (hlin n c)
    (deltaAt_isReal dI n) (delta_sq dI n))

theorem layerR_isReal (hlin : ∀ n c, IsReal (lin n c)) (hb : ∀ c, IsReal (b c)) (n : Fin 100000) (c : Fin 128) :
    IsReal (layerR lin b sI dI dI' n c) := by
  unfold layerR
  exact ((((isReal_zero.add (isReal_sum _ _ fun j _ => (hlin _ c).mul ((deltaAt_isReal dI _).mul (deltaAt_isReal dI _)))).add
    ((hlin n c).mul (recipAt_isReal dI n))).add (hb c)).max isReal_zero)

end

/-- Mean pooling over the graphs, then the final linear map, at an entry: node `n` belongs to graph `g` when its
    graph word, read as a signed integer, is `g`. -/
def poolAt (h : Fin 100000 → Fin 128 → EReal) (bI : IVec ⟨2, ![100000, 1]⟩ 32) (W : Fin 128 → Fin 16 → EReal)
    (bias : Fin 16 → EReal) (g : Fin 64) (o : Fin 16) : EReal :=
  (∑ k : Fin 128, Ideal.div (0 + ∑ n ∈ lands bI g, h n k) (max (0 + ∑ _n ∈ lands bI g, (1 : EReal)) 1) * W k o) + bias o

end Cert.Gcn

end
-- ==== Proof.LibVecGather.lean ====
/-
  A gather from a vector at a list of positions, read at an entry.

  A vector of `N` entries is gathered at `E` positions given as an array of shape `[E, 1]`: the index vector lies
  along axis 1 and has the single component that names the vector's one axis, which is collapsed (slices of one entry).
  Entry `j` of the result is the vector's entry at position `idx[j, 0]`, read as a signed integer and clamped into
  `[0, N − 1]`.
-/
import Idealize.ShloMosaic.Lib.ValueIdx
import Idealize.ShloMosaic.PureOps.Contract
import proofs.«121145_j20194936226696_2_alg».proof.Proof.LibRowScatter

noncomputable section

namespace Cert.Lib.VecGather

open Idealize.ShloMosaic Idealize.ShloMosaic.ValueIdx Cert.Lib.RowScatter

variable {N E w : Nat} {α : Type}

/-- The position array is read at `[j, 0]`: the result's coordinate, and the one component of the index vector. -/
theorem gatherSiIdx1 (d : GatherDims ⟨1, ![N]⟩ ⟨2, ![E, 1]⟩ ⟨1, ![E]⟩)
    (ho : d.offsetDims = []) (hm : d.startIndexMap = [0]) (hv : d.indexVectorDim = 1)
    (j : (⟨1, ![E]⟩ : Shape).Idx) (c : Fin d.startIndexMap.length) :
    d.siIdx j c = ix2 (j 0) 0 := by
  obtain ⟨od, cd, ob, sb, sm, iv, ss, wf⟩ := d
  obtain rfl : od = [] := ho
  obtain rfl : sm = [0] := hm
  obtain rfl : iv = 1 := hv
  funext b; refine Fin.ext ?_
  match b with
  | ⟨0, _⟩ => rfl
  | ⟨1, _⟩ =>
    have h1 : c.val < 1 := c.isLt
    show c.val = 0
    omega

/-- The one-entry slice starts at the position, read as a signed integer and clamped into `[0, N − 1]`. -/
theorem gatherStart1_zero (d : GatherDims ⟨1, ![N]⟩ ⟨2, ![E, 1]⟩ ⟨1, ![E]⟩)
    (ho : d.offsetDims = []) (hm : d.startIndexMap = [0]) (hv : d.indexVectorDim = 1) (hss : d.sliceSizes = ![1])
    (j : (⟨1, ![E]⟩ : Shape).Idx) (idx : IVec ⟨2, ![E, 1]⟩ w) :
    d.start j idx 0 = min (idx (ix2 (j 0) 0)).toInt.toNat (N - 1) := by
  have hmem : (0 : Fin 1) ∈ d.startIndexMap := by rw [hm]; exact List.mem_singleton.mpr rfl
  unfold GatherDims.start
  rw [dif_pos hmem, gatherSiIdx1 d ho hm hv, hss]
  rfl

/-- The vector's one axis is collapsed: it has no offset coordinate. -/
theorem gatherOff1_zero (d : GatherDims ⟨1, ![N]⟩ ⟨2, ![E, 1]⟩ ⟨1, ![E]⟩)
    (hc : d.collapsedSliceDims = [0]) (j : (⟨1, ![E]⟩ : Shape).Idx) :
    d.offCoord j 0 = 0 :=
  d.offCoord_eq_zero j 0 fun h => ((d.mem_sKept 0).1 h).1 (by rw [hc]; exact List.mem_singleton.mpr rfl)

/-- THE GATHER READ AT `j`: the vector's entry at position `idx[j, 0]`, clamped into `[0, N − 1]`. -/
theorem gather1_apply (d : GatherDims ⟨1, ![N]⟩ ⟨2, ![E, 1]⟩ ⟨1, ![E]⟩)
    (ho : d.offsetDims = []) (hc : d.collapsedSliceDims = [0]) (hb : d.operandBatchingDims = [])
    (hm : d.startIndexMap = [0]) (hv : d.indexVectorDim = 1) (hss : d.sliceSizes = ![1]) (hN : 0 < N)
    (x : (⟨1, ![N]⟩ : Shape).Idx → α) (idx : IVec ⟨2, ![E, 1]⟩ w) (j : Fin E) :
    Host.gather d x idx (ix1 j) = x (ix1 (clampRow N hN (idx (ix2 j 0)).toInt)) := by
  have hnb : ∀ a, a ∉ d.operandBatchingDims := by intro a; rw [hb]; exact List.not_mem_nil
  unfold Host.gather
  congr 1
  funext a
  refine Fin.ext ?_
  match a with
  | ⟨0, _⟩ =>
    show d.start (ix1 j) idx 0 + d.batchCoord (ix1 j) 0 + d.offCoord (ix1 j) 0
      = min (idx (ix2 j 0)).toInt.toNat (N - 1)
    rw [gatherStart1_zero d ho hm hv hss, d.batchCoord_eq_zero _ _ (hnb 0), gatherOff1_zero d hc]
    rfl

end Cert.Lib.VecGather

end
-- ==== Proof.LibGcnReads.lean ====
/-
  The host's gather / scatter-add spelling of a graph-convolution layer, read at an entry.

  For a table `[100000, 128]`, index words `[1600000, 1]` and update rows `[1600000, 128]`: the accumulating scatter of
  gathered rows (optionally weighted per edge by a product of two gathered scales) into a table at entry `(n, c)` is the
  table's entry plus the sum over the edges landing on `n` of the gathered entries; and the whole reference layer — that
  sum, the self loop `lin ⊙ q`, the bias row, the rectifier — at `(n, c)`.
-/
import proofs.«121145_j20194936226696_2_alg».proof.Proof.LibGcnSpec
import proofs.«121145_j20194936226696_2_alg».proof.Proof.LibVecGather
import proofs.«121145_j20194936226696_2_alg».proof.Proof.LibBroadcastReads

noncomputable section

open scoped BigOperators

namespace Cert.Gcn

open Idealize.ShloMosaic Idealize.ShloMosaic.ValueIdx Cert.Reals Cert.Lib.RowScatter Cert.Lib.VecGather Cert.Lib.BroadcastReads

section
variable (dS : ScatterDims ⟨2, ![100000, 128]⟩ ⟨2, ![1600000, 1]⟩ ⟨2, ![1600000, 128]⟩)
  (hSu : dS.updateWindowDims = [1]) (hSi : dS.insertedWindowDims = [0]) (hSs : dS.scatterDimsToOperandDims = [0])
  (hSv : dS.indexVectorDim = 1)
  (dG : GatherDims ⟨2, ![100000, 128]⟩ ⟨2, ![1600000, 1]⟩ ⟨2, ![1600000, 128]⟩)
  (hGo : dG.offsetDims = [1]) (hGc : dG.collapsedSliceDims = [0]) (hGb : dG.operandBatchingDims = [])
  (hGm : dG.startIndexMap = [0]) (hGv : dG.indexVectorDim = 1) (hGss : dG.sliceSizes = ![1, 128])

include hSu hSi hSs hSv hGo hGc hGb hGm hGv hGss

/-- Gathered rows scattered back: entry `(n, c)` is the table's plus the sum over the landing edges of the source rows. -/
theorem edgeSum_apply (Z hp : FVec Ideal ⟨2, ![100000, 128]⟩ .f32) (sI dI : IVec ⟨2, ![1600000, 1]⟩ 32)
    (n : Fin 100000) (c : Fin 128) :
    Host.scatterAdd (F := Ideal) dS Z dI (Host.gather dG hp sI) (ix2 n c)
      = Z (ix2 n c) + ∑ j ∈ lands dI n, hp (ix2 (rowOf sI j) c) := by
  rw [scatterAdd2_apply dS hSu hSi hSs hSv]
  refine congrArg (Z (ix2 n c) + ·) (Finset.sum_congr rfl fun j _ => ?_)
  exact gather2_apply dG hGo hGc hGb hGm hGv hGss (by norm_num) hp sI j c

variable (dGv : GatherDims ⟨1, ![100000]⟩ ⟨2, ![1600000, 1]⟩ ⟨1, ![1600000]⟩)
  (hvo : dGv.offsetDims = []) (hvc : dGv.collapsedSliceDims = [0]) (hvb : dGv.operandBatchingDims = [])
  (hvm : dGv.startIndexMap = [0]) (hvv : dGv.indexVectorDim = 1) (hvss : dGv.sliceSizes = ![1])

include hvo hvc hvb hvm hvv hvss

/-- The same with each gathered row weighted by the product of two scales gathered at the edge's two index words. -/
theorem edgeSumNorm_apply
    (w1 : (⟨1, ![1600000]⟩ : Shape).BroadcastsInDim ⟨2, ![1600000, 1]⟩ ![0])
    (w2 : (⟨2, ![1600000, 1]⟩ : Shape).BroadcastsInDim ⟨2, ![1600000, 128]⟩ ![0, 1])
    (Z lin : FVec Ideal ⟨2, ![100000, 128]⟩ .f32) (dis : FVec Ideal ⟨1, ![100000]⟩ .f32)
    (sI sI2 dI dI' : IVec ⟨2, ![1600000, 1]⟩ 32) (n : Fin 100000) (c : Fin 128) :
    Host.scatterAdd (F := Ideal) dS Z dI (mulf (Host.gather dG lin sI)
        (broadcastInDim ⟨2, ![1600000, 128]⟩ ![0, 1] w2 (broadcastInDim ⟨2, ![1600000, 1]⟩ ![0] w1
          (mulf (Host.gather dGv dis sI2) (Host.gather dGv dis dI'))))) (ix2 n c)
      = Z (ix2 n c) + ∑ j ∈ lands dI n, lin (ix2 (rowOf sI j) c) * (dis (ix1 (rowOf sI2 j)) * dis (ix1 (rowOf dI' j))) := by
  rw [scatterAdd2_apply dS hSu hSi hSs hSv]
  refine congrArg (Z (ix2 n c) + ·) (Finset.sum_congr rfl fun j _ => ?_)
  rw [mulf_apply, gather2_apply dG hGo hGc hGb hGm hGv hGss (by norm_num) lin sI j c,
    broadcastInDim_a1_ab_apply (a := 1600000) (b := 128), broadcastInDim_a_a1_apply (a := 1600000), mulf_apply,
    gather1_apply dGv hvo hvc hvb hvm hvv hvss (by norm_num) dis sI2 j,
    gather1_apply dGv hvo hvc hvb hvm hvv hvss (by norm_num) dis dI' j]
  rfl

/-- THE REFERENCE LAYER at `(n, c)`: weighted edge sum, self loop by the reciprocal degree, bias, rectifier. -/
theorem refLayer_apply
    (w1 : (⟨1, ![1600000]⟩ : Shape).BroadcastsInDim ⟨2, ![1600000, 1]⟩ ![0])
    (w2 : (⟨2, ![1600000, 1]⟩ : Shape).BroadcastsInDim ⟨2, ![1600000, 128]⟩ ![0, 1])
    (wq1 : (⟨1, ![100000]⟩ : Shape).BroadcastsInDim ⟨2, ![100000, 1]⟩ ![0])
    (wq2 : (⟨2, ![100000, 1]⟩ : Shape).BroadcastsInDim ⟨2, ![100000, 128]⟩ ![0, 1])
    (wb1 : (⟨1, ![128]⟩ : Shape).BroadcastsInDim ⟨2, ![1, 128]⟩ ![1])
    (wb2 : (⟨2, ![1, 128]⟩ : Shape).BroadcastsInDim ⟨2, ![100000, 128]⟩ ![0, 1])
    (Z Zr lin : FVec Ideal ⟨2, ![100000, 128]⟩ .f32) (dis q : FVec Ideal ⟨1, ![100000]⟩ .f32)
    (bias : FVec Ideal ⟨1, ![128]⟩ .f32)
    (sI sI2 dI dI' : IVec ⟨2, ![1600000, 1]⟩ 32) (n : Fin 100000) (c : Fin 128) :
    maximumf (addf (addf
        (Host.scatterAdd (F := Ideal) dS Z dI (mulf (Host.gather dG lin sI)
          (broadcastInDim ⟨2, ![1600000, 128]⟩ ![0, 1] w2 (broadcastInDim ⟨2, ![1600000, 1]⟩ ![0] w1
            (mulf (Host.gather dGv dis sI2) (Host.gather dGv dis dI'))))))
        (mulf lin (broadcastInDim ⟨2, ![100000, 128]⟩ ![0, 1] wq2 (broadcastInDim ⟨2, ![100000, 1]⟩ ![0] wq1 q))))
        (broadcastInDim ⟨2, ![100000, 128]⟩ ![0, 1] wb2 (broadcastInDim ⟨2, ![1, 128]⟩ ![1] wb1 bias))) Zr (ix2 n c)
      = max (((Z (ix2 n c) + ∑ j ∈ lands dI n, lin (ix2 (rowOf sI j) c) * (dis (ix1 (rowOf sI2 j)) * dis (ix1 (rowOf dI' j))))
          + lin (ix2 n c) * q (ix1 n)) + bias (ix1 c)) (Zr (ix2 n c)) := by
  rw [maximumf_apply, addf_apply, addf_apply,
    edgeSumNorm_apply dS hSu hSi hSs hSv dG hGo hGc hGb hGm hGv hGss dGv hvo hvc hvb hvm hvv hvss w1 w2,
    mulf_apply, broadcastInDim_a1_ab_apply (a := 100000) (b := 128), broadcastInDim_a_a1_apply (a := 100000),
    broadcastInDim_1b_ab_apply (a := 100000) (b := 128), broadcastInDim_b_1b_apply (b := 128)]

end

end Cert.Gcn

end
-- ==== Proof.LibColumnReads.lean ====
/- Column layouts read at coordinates, for any extents and any element type: a vector `[a]` cast to a column `[a, 1]`
   and back, one column of an `[a, b]` array taken as a unit-stride slice `[a, 1]`, and `N` columns `[a, 1]` laid side by
   side along axis 1 into `[a, N]`.  Each reads the operand at the coordinates that survive, the unit axis at 0.
   Nothing here depends on a particular program. -/
import Idealize.ShloMosaic.Lib.Pipeline.Value
import Idealize.ShloMosaic.Lib.ValueIdx

noncomputable section

open Idealize.ShloMosaic Idealize.ShloMosaic.ValueIdx

namespace Cert.Lib.ColumnReads

variable {α : Type}

/-- A vector `[a]` cast to a column `[a, 1]` reads, at `(p, z)`, the vector at `p`: both sit at row-major position `p`. -/
theorem shapeCast_a_a1_apply {a : ℕ} (v : (⟨1, ![a]⟩ : Shape).Idx → α) (h : (⟨1, ![a]⟩ : Shape).ShapeCasts ⟨2, ![a, 1]⟩)
    (p : Fin a) (z : Fin 1) : shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt; omega

/-- A column `[a, 1]` cast to a vector `[a]` reads, at `p`, the column at `(p, 0)`. -/
theorem shapeCast_a1_a_apply {a : ℕ} (v : (⟨2, ![a, 1]⟩ : Shape).Idx → α) (h : (⟨2, ![a, 1]⟩ : Shape).ShapeCasts ⟨1, ![a]⟩)
    (p : Fin a) : shapeCast ⟨1, ![a]⟩ v h (ix1 p) = v (ix2 p (0 : Fin 1)) := by
  refine shapeCast_apply v h (ix1 p) (ix2 p (0 : Fin 1)) ?_
  rw [Shape.rowMajor_val_one, Shape.rowMajor_val_two]
  show p.val * 1 + 0 = p.val
  omega

/-- Column `o` of an `[a, b]` array, taken as the unit-stride slice `[a, 1]` at offsets `(0, o)`, reads at `(p, z)` the
    array at `(p, o)`. -/
theorem slice_column_apply {a b : ℕ} (o : ℕ) (ho : o < b) (x : (⟨2, ![a, b]⟩ : Shape).Idx → α)
    (h : (⟨2, ![a, b]⟩ : Shape).Slices ![0, o] ⟨2, ![a, 1]⟩) (p : Fin a) (z : Fin 1) :
    extractStridedSlice ⟨2, ![a, 1]⟩ ![0, o] x h (ix2 p z) = x (ix2 p (⟨o, ho⟩ : Fin b)) := by
  refine extractStridedSlice_apply _ x h (ix2 p z) (ix2 p (⟨o, ho⟩ : Fin b)) fun ax => ?_
  match ax with
  | ⟨0, _⟩ => show p.val = 0 + p.val; omega
  | ⟨1, _⟩ => show o = o + z.val; have := z.isLt; omega

/-- `N` columns `[a, 1]` laid side by side along axis 1 read, at `(p, n)`, column `n` at `(p, 0)`. -/
theorem concat_columns_apply {a N : ℕ} (f : Fin N → ((⟨2, ![a, 1]⟩ : Shape).Idx → α))
    (h : Shape.Concatenates ((List.ofFn fun n : Fin N => (⟨⟨2, ![a, 1]⟩, f n⟩ : (s : Shape) × (s.Idx → α))).map (·.1))
      ⟨2, ![a, N]⟩ (1 : Fin 2))
    (p : Fin a) (n : Fin N) :
    concatenate ⟨2, ![a, N]⟩ (1 : Fin 2) (List.ofFn fun n : Fin N => (⟨⟨2, ![a, 1]⟩, f n⟩ : (s : Shape) × (s.Idx → α))) h (ix2 p n)
      = f n (ix2 p (0 : Fin 1)) := by
  refine concatenate_ofFn_unit_apply (t := ⟨2, ![a, N]⟩) (s₁ := ⟨2, ![a, 1]⟩) (1 : Fin 2) f h rfl rfl (ix2 p n) n rfl
    (ix2 p (0 : Fin 1)) fun b hb => ?_
  match b with
  | ⟨0, _⟩ => rfl
  | ⟨1, _⟩ => exact absurd rfl hb

end Cert.Lib.ColumnReads

end
-- ==== Proof.LibRowCast.lean ====
/- A vector laid out as a one-row matrix, read at coordinates, for any extent and any element type: a vector `[b]` cast to
   `[1, b]` reads, at `(z, c)`, the vector's entry `c` — both sit at row-major position `c`. Nothing here depends on a
   particular program; it is the companion of the `[1, b] → [b]` cast read. -/
import Idealize.ShloMosaic.Lib.Pipeline.Value
import Idealize.ShloMosaic.Lib.ValueIdx

noncomputable section

open Idealize.ShloMosaic Idealize.ShloMosaic.ValueIdx

namespace Cert.Lib.RowCast

/-- A vector `[b]` cast to a row `[1, b]` reads, at `(z, c)`, the vector at `c`. -/
theorem shapeCast_b_1b_apply {α : Type} {b : ℕ} (v : (⟨1, ![b]⟩ : Shape).Idx → α) (h : (⟨1, ![b]⟩ : Shape).ShapeCasts ⟨2, ![1, b]⟩)
    (z : Fin 1) (c : Fin b) : shapeCast ⟨2, ![1, b]⟩ v h (ix2 z c) = v (ix1 c) := by
  refine shapeCast_apply v h (ix2 z c) (ix1 c) ?_
  rw [Shape.rowMajor_val_one, Shape.rowMajor_val_two]
  show c.val = z.val * b + c.val
  have := z.isLt
  have hz : z.val = 0 := by omega
  rw [hz, Nat.zero_mul, Nat.zero_add]

end Cert.Lib.RowCast

end
-- ==== Proof.LibVecScatter.lean ====
/-
  An accumulating scatter into a vector, read at an entry.

  A vector of `N` entries has `E` update values added into it at `E` positions. The positions are an array of shape
  `[E, 1]`: the index vector lies along axis 1 and has the single component that names axis 0 of the vector; there is no
  window axis. For such dimension numbers the scatter adds to entry `n` the update values `j` whose position
  `idx[j, 0]`, read as a signed integer, is exactly `n` (a position outside `[0, N)` names no entry: the update is
  dropped).
-/
import Idealize.ShloMosaic.Lib.ValueIdx
import Idealize.ShloMosaic.PureOps.Contract
import Mathlib.Algebra.BigOperators.Fin

noncomputable section

open scoped BigOperators

namespace Cert.Lib.VecScatter

open Idealize.ShloMosaic Idealize.ShloMosaic.ValueIdx

variable {N E w : Nat}

/-- The position array is read at `[j, 0]`: the update's coordinate, and the one component of the index vector. -/
theorem siIdx1 (d : ScatterDims ⟨1, ![N]⟩ ⟨2, ![E, 1]⟩ ⟨1, ![E]⟩)
    (hu : d.updateWindowDims = []) (hv : d.indexVectorDim = 1)
    (j : (⟨1, ![E]⟩ : Shape).Idx) (c : Fin d.scatterDimsToOperandDims.length) :
    d.siIdx j c = ix2 (j 0) 0 := by
  obtain ⟨uw, iw, sd, iv, wf⟩ := d
  obtain rfl : uw = [] := hu
  obtain rfl : iv = 1 := hv
  funext b; refine Fin.ext ?_
  match b with
  | ⟨0, _⟩ => rfl
  | ⟨1, _⟩ =>
    have hl : sd.length = 1 := by
      have h := wf.2.2.2.2.1
      rw [dif_pos (show (1 : Nat) < 2 by omega)] at h
      exact h
    have h1 : c.val < sd.length := c.isLt
    show c.val = 0
    omega

/-- On the vector's one axis the window starts at the position, read as a signed integer. -/
theorem start1_zero (d : ScatterDims ⟨1, ![N]⟩ ⟨2, ![E, 1]⟩ ⟨1, ![E]⟩)
    (hu : d.updateWindowDims = []) (hs : d.scatterDimsToOperandDims = [0]) (hv : d.indexVectorDim = 1)
    (j : (⟨1, ![E]⟩ : Shape).Idx) (idx : IVec ⟨2, ![E, 1]⟩ w) :
    d.start j idx 0 = (idx (ix2 (j 0) 0)).toInt := by
  have hm : (0 : Fin 1) ∈ d.scatterDimsToOperandDims := by rw [hs]; exact List.mem_singleton.mpr rfl
  unfold ScatterDims.start
  rw [dif_pos hm, siIdx1 d hu hv]
  rfl

/-- The vector's one axis is an inserted axis: its window coordinate is 0. -/
theorem window1_zero (d : ScatterDims ⟨1, ![N]⟩ ⟨2, ![E, 1]⟩ ⟨1, ![E]⟩)
    (hi : d.insertedWindowDims = [0]) (j : (⟨1, ![E]⟩ : Shape).Idx) :
    d.window j 0 = 0 := by
  have hm : (0 : Fin 1) ∉ d.sKept := by
    show (0 : Fin 1) ∉ Shape.kept _ d.insertedWindowDims
    rw [hi]; show (0 : Fin 1) ∉ (List.finRange 1).filter (· ∉ ([0] : List (Fin 1))); decide
  unfold ScatterDims.window
  rw [dif_neg hm]

/-- WHERE AN UPDATE LANDS. Update `j` lands on entry `i` exactly when its position `idx[j, 0]`, read as a signed
    integer, is `i`. (A position that is negative or at least `N` is no entry of the vector: the update lands nowhere.) -/
theorem resultIdx1_eq_some_iff (d : ScatterDims ⟨1, ![N]⟩ ⟨2, ![E, 1]⟩ ⟨1, ![E]⟩)
    (hu : d.updateWindowDims = []) (hi : d.insertedWindowDims = [0]) (hs : d.scatterDimsToOperandDims = [0])
    (hv : d.indexVectorDim = 1)
    (j : (⟨1, ![E]⟩ : Shape).Idx) (idx : IVec ⟨2, ![E, 1]⟩ w) (i : (⟨1, ![N]⟩ : Shape).Idx) :
    d.resultIdx? j idx = some i ↔ (idx (ix2 (j 0) 0)).toInt = ((i 0).val : Int) := by
  have s0 := start1_zero d hu hs hv j idx
  have w0 := window1_zero d hi j
  have hi0 : (i 0).val < N := (i 0).isLt
  unfold ScatterDims.resultIdx?
  constructor
  · intro h
    split at h
    · rename_i hb
      have h' := Option.some.inj h
      have e0 : (d.start j idx 0 + (d.window j 0 : Int)).toNat = (i 0).val := congrArg (fun f => (f 0).val) h'
      have hb0 := (hb 0).1
      rw [s0, w0] at e0 hb0
      omega
    · exact absurd h (by simp)
  · intro hz
    have hall : ∀ a, 0 ≤ d.start j idx a + (d.window j a : Int) ∧
        d.start j idx a + (d.window j a : Int) < ((⟨1, ![N]⟩ : Shape).size a : Int) := by
      intro a
      match a with
      | ⟨0, _⟩ =>
        show 0 ≤ d.start j idx 0 + (d.window j 0 : Int) ∧ d.start j idx 0 + (d.window j 0 : Int) < (N : Int)
        rw [s0, w0]; omega
    rw [dif_pos hall]
    congr 1
    funext a
    refine Fin.ext ?_
    match a with
    | ⟨0, _⟩ =>
      show (d.start j idx 0 + (d.window j 0 : Int)).toNat = (i 0).val
      rw [s0, w0]; omega

/-- THE ACCUMULATING SCATTER READ AT `n`: the vector's entry plus every update value `j` whose position `idx[j, 0]`,
    read as a signed integer, is `n`. -/
theorem scatterAdd1_apply {φ : FTy} (d : ScatterDims ⟨1, ![N]⟩ ⟨2, ![E, 1]⟩ ⟨1, ![E]⟩)
    (hu : d.updateWindowDims = []) (hi : d.insertedWindowDims = [0]) (hs : d.scatterDimsToOperandDims = [0])
    (hv : d.indexVectorDim = 1)
    (x : FVec Ideal ⟨1, ![N]⟩ φ) (idx : IVec ⟨2, ![E, 1]⟩ w) (upd : FVec Ideal ⟨1, ![E]⟩ φ) (n : Fin N) :
    Host.scatterAdd (F := Ideal) d x idx upd (ix1 n)
      = x (ix1 n) + ∑ j ∈ Finset.univ.filter (fun j : Fin E => (idx (ix2 j 0)).toInt = (n.val : Int)), upd (ix1 j) := by
  show x (ix1 n) + _ = x (ix1 n) + _
  congr 1
  refine Finset.sum_nbij' (fun j' : (⟨1, ![E]⟩ : Shape).Idx => (j' 0 : Fin E)) (fun j : Fin E => ix1 j) ?_ ?_ ?_ ?_ ?_
  · intro j' hj'
    have hl := (resultIdx1_eq_some_iff d hu hi hs hv j' idx (ix1 n)).mp (Finset.mem_filter.mp hj').2
    exact Finset.mem_filter.mpr ⟨Finset.mem_univ _, hl⟩
  · intro j hj
    have hr := (Finset.mem_filter.mp hj).2
    exact Finset.mem_filter.mpr ⟨Finset.mem_univ _,
      (resultIdx1_eq_some_iff d hu hi hs hv (ix1 j) idx (ix1 n)).mpr hr⟩
  · intro j' _
    exact (eq_ix1 j').symm
  · intro j _
    rfl
  · intro j' _
    exact congrArg upd (eq_ix1 j')

end Cert.Lib.VecScatter

end
-- ==== Proof.LibMeanScale.lean ====
/- Averaging over a neighbourhood in two spellings, on the extended reals, for any extents. A row of sums a(p, ·) is
   divided by the row's clamped count d(p) = max(s(p), 1): one program multiplies by the reciprocal 1 / d(p) computed
   once, the other divides by d(p). Division by a nonzero extended real y is the product with its inverse, and 1 / y is
   that inverse, so a · (1 / y) = a / y whenever y ≠ 0 — at the infinities too, with no finiteness asked of a; and
   max(s, 1) ≥ 1 > 0 is never zero, whatever s is. The array form carries the count vector [A] through the column
   layout [A, 1] and the broadcast along the lanes to [A, B]. Nothing here depends on a particular program. -/
import Idealize.ShloMosaic.PureOps.Ideal
import Idealize.ShloMosaic.PureOps.Ideal.Laws
import Idealize.ShloMosaic.Lib.ValueIdx
import Idealize.ShloMosaic.Lib.Pipeline.Value
import proofs.«121145_j20194936226696_2_alg».proof.Proof.LibBroadcastReads

noncomputable section

open Idealize.ShloMosaic Idealize.ShloMosaic.ValueIdx

namespace Cert.Lib.MeanScale

/-- The product with the reciprocal of a nonzero extended real is the quotient by it. -/
theorem mul_one_div (a d : EReal) (hd : d ≠ 0) : a * Ideal.div 1 d = Ideal.div a d := by
  unfold Ideal.div
  rw [if_neg hd, if_neg hd, one_mul]

/-- The f32 pattern of 1.0 denotes the extended real 1. -/
theorem ofBits_one : Ideal.ofBits .f32 0x3F800000#32 = 1 := by
  have h : Ideal.ofBits .f32 0x3F800000#32 = ((1 : ℝ) : EReal) := by
    simp [Ideal.ofBits, Ideal.ieee, -EReal.coe_mul]; norm_num
  rw [h]; norm_cast

/-- A count clamped below by 1 is never zero. -/
theorem max_one_ne_zero (s : EReal) : max s (Ideal.ofBits .f32 0x3F800000#32) ≠ 0 := by
  rw [ofBits_one]
  exact ne_of_gt (lt_of_lt_of_le zero_lt_one (le_max_right s 1))

/-- A rank-0 value broadcast to any shape reads its one element everywhere. -/
theorem broadcastInDim_scalar_apply {α : Type} {t : Shape} (v : (⟨0, ![]⟩ : Shape).Idx → α)
    (h : (⟨0, ![]⟩ : Shape).BroadcastsInDim t ![]) (i : t.Idx) : broadcastInDim t ![] h v i = v ix0 :=
  broadcastInDim_apply _ h v i ix0 (fun a => a.elim0)

/-- THE TWO SPELLINGS OF THE AVERAGE AGREE: sums times the broadcast reciprocal of the clamped counts are the sums
    divided by the broadcast clamped counts. -/
theorem scale_eq_div {A B : ℕ} (a : FVec Ideal ⟨2, ![A, B]⟩ .f32) (s : FVec Ideal ⟨1, ![A]⟩ .f32)
    (h0 : (⟨0, ![]⟩ : Shape).BroadcastsInDim ⟨1, ![A]⟩ ![])
    (h1 : (⟨1, ![A]⟩ : Shape).BroadcastsInDim ⟨2, ![A, 1]⟩ ![0])
    (h2 : (⟨2, ![A, 1]⟩ : Shape).BroadcastsInDim ⟨2, ![A, B]⟩ ![0, 1]) :
    mulf a (broadcastInDim ⟨2, ![A, B]⟩ ![0, 1] h2 (broadcastInDim ⟨2, ![A, 1]⟩ ![0] h1
        (Host.divf (broadcastInDim ⟨1, ![A]⟩ ![] h0 (constant (F := Ideal) ⟨0, ![]⟩ .f32 0x3F800000#32))
          (maximumf s (broadcastInDim ⟨1, ![A]⟩ ![] h0 (constant (F := Ideal) ⟨0, ![]⟩ .f32 0x3F800000#32))))))
      = Host.divf a (broadcastInDim ⟨2, ![A, B]⟩ ![0, 1] h2 (broadcastInDim ⟨2, ![A, 1]⟩ ![0] h1
          (maximumf s (broadcastInDim ⟨1, ![A]⟩ ![] h0 (constant (F := Ideal) ⟨0, ![]⟩ .f32 0x3F800000#32))))) := by
  funext i
  obtain ⟨p, q, rfl⟩ : ∃ (p : Fin A) (q : Fin B), i = ix2 p q := ⟨i 0, i 1, eq_ix2 i⟩
  rw [mulf_apply]
  show _ = Ideal.div (a (ix2 p q)) _
  rw [Cert.Lib.BroadcastReads.broadcastInDim_a1_ab_apply, Cert.Lib.BroadcastReads.broadcastInDim_a_a1_apply,
    Cert.Lib.BroadcastReads.broadcastInDim_a1_ab_apply, Cert.Lib.BroadcastReads.broadcastInDim_a_a1_apply]
  show a (ix2 p q) * Ideal.div (broadcastInDim ⟨1, ![A]⟩ ![] h0 (constant (F := Ideal) ⟨0, ![]⟩ .f32 0x3F800000#32) (ix1 p))
      (maximumf s (broadcastInDim ⟨1, ![A]⟩ ![] h0 (constant (F := Ideal) ⟨0, ![]⟩ .f32 0x3F800000#32)) (ix1 p)) = _
  rw [maximumf_apply, broadcastInDim_scalar_apply, constant_apply]
  have hd := max_one_ne_zero (s (ix1 p))
  generalize max (s (ix1 p)) (Ideal.ofBits .f32 0x3F800000#32) = d at hd ⊢
  rw [ofBits_one]
  exact mul_one_div _ _ hd

end Cert.Lib.MeanScale

end
-- ==== Proof.KernelValue.lean ====
/-
  The idealized kernel's result, as one function of the argument arrays.

  Walking the run boundary by boundary: the host computes the degree scale `δ` (a vector, reshaped to a column), the
  first region the scaled projection `hp₁ = (x · W1) ⊙ δ`; the host sums `hp₁` over the incoming edges; the second region
  combines, rectifies and projects again, `hp₂ = (h₁ · W2) ⊙ δ`; the host sums `hp₂` over the edges; the third region
  combines and rectifies, `h₂`; the host pools `h₂` and the node counts per graph; the fourth region divides and applies
  the final linear map. Entry by entry this is `poolAt` of two `layerK` layers.
-/
import proofs.«121145_j20194936226696_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«121145_j20194936226696_2_alg».proof.Proof.Region0
import proofs.«121145_j20194936226696_2_alg».proof.Proof.Region1
import proofs.«121145_j20194936226696_2_alg».proof.Proof.Region2
import proofs.«121145_j20194936226696_2_alg».proof.Proof.Region3
import proofs.«121145_j20194936226696_2_alg».proof.Proof.Carry
import proofs.«121145_j20194936226696_2_alg».proof.Proof.LibGcnReads
import proofs.«121145_j20194936226696_2_alg».proof.Proof.LibColumnReads
import proofs.«121145_j20194936226696_2_alg».proof.Proof.LibRowCast
import proofs.«121145_j20194936226696_2_alg».proof.Proof.LibVecScatter
import proofs.«121145_j20194936226696_2_alg».proof.Proof.LibMeanScale

set_option maxRecDepth 16384

noncomputable section

open scoped BigOperators

namespace Cert.KernelIdeal.Whole

open Cert.KernelIdeal Cert.KernelIdeal.Gen Cert.Gcn
open Idealize.ShloMosaic Idealize.ShloMosaic.TcCoe Idealize.ShloMosaic.ValueIdx Idealize.SL.Sem Idealize.ShloMosaic.StableHlo
open Cert.Lib.RowScatter Cert.Lib.VecScatter Cert.Lib.ColumnReads Cert.Lib.RowCast Cert.Lib.MeanScale

/-! ## The host's arrays as functions of the arguments -/

/-- Row 0 of the edge list: the source words. -/
def srcWords (a7 : (⟨S2x1600000, .i32⟩ : BufTy).Contents (Elt Ideal)) : (⟨S1600000, .i32⟩ : BufTy).Contents (Elt Ideal) :=
  shapeCast S1600000 (extractStridedSlice S1x1600000 ![0, 0] a7 slices_S2x1600000_S1x1600000_0_0) shapeCasts_S1x1600000_S1600000

/-- Row 1 of the edge list: the destination words. -/
def dstWords (a7 : (⟨S2x1600000, .i32⟩ : BufTy).Contents (Elt Ideal)) : (⟨S1600000, .i32⟩ : BufTy).Contents (Elt Ideal) :=
  shapeCast S1600000 (extractStridedSlice S1x1600000 ![1, 0] a7 slices_S2x1600000_S1x1600000_1_0) shapeCasts_S1x1600000_S1600000

/-- The destination words as the scatter's index array. -/
def dIK (a7 : (⟨S2x1600000, .i32⟩ : BufTy).Contents (Elt Ideal)) : (⟨S1600000x1, .i32⟩ : BufTy).Contents (Elt Ideal) :=
  broadcastInDim S1600000x1 ![0] bcast_S1600000_S1600000x1_0 (dstWords a7)

/-- The source words, a negative one shifted by the node count, as the gather's index array. -/
def sIK (a7 : (⟨S2x1600000, .i32⟩ : BufTy).Contents (Elt Ideal)) : (⟨S1600000x1, .i32⟩ : BufTy).Contents (Elt Ideal) :=
  broadcastInDim S1600000x1 ![0] bcast_S1600000_S1600000x1_0
    (select (cmpi .slt (srcWords a7) (broadcastInDim S1600000 ![] bcast_S_S1600000 (constantI S_ 32 0#32)))
      (addi (srcWords a7) (broadcastInDim S1600000 ![] bcast_S_S1600000 (constantI S_ 32 100000#32))) (srcWords a7))

/-- The graph words as the pooling scatter's index array. -/
def bIK (a8 : (⟨S100000, .i32⟩ : BufTy).Contents (Elt Ideal)) : (⟨S100000x1, .i32⟩ : BufTy).Contents (Elt Ideal) :=
  broadcastInDim S100000x1 ![0] bcast_S100000_S100000x1_0 a8

/-- `δ = (1 + number of landing edges)^(-1/2)`, as the host computes it. -/
def disArr (a7 : (⟨S2x1600000, .i32⟩ : BufTy).Contents (Elt Ideal)) : (⟨S100000, .f32⟩ : BufTy).Contents (Elt Ideal) :=
  Host.rsqrt (F := Ideal) (addf (Host.scatterAdd (F := Ideal) scatter_S100000_S1600000x1_S1600000_n_0_0_1
      (broadcastInDim S100000 ![] bcast_S_S100000 (constant (F := Ideal) S_ .f32 0x00000000#32)) (dIK a7)
      (broadcastInDim S1600000 ![] bcast_S_S1600000 (constant (F := Ideal) S_ .f32 0x3F800000#32)))
    (broadcastInDim S100000 ![] bcast_S_S100000 (constant (F := Ideal) S_ .f32 0x3F800000#32)))

/-- `δ` as a column. -/
def disCol (a7 : (⟨S2x1600000, .i32⟩ : BufTy).Contents (Elt Ideal)) : (⟨S100000x1, .f32⟩ : BufTy).Contents (Elt Ideal) :=
  shapeCast S100000x1 (disArr a7) shapeCasts_S100000_S100000x1

/-- The sum over the incoming edges of the source rows of `hp`. -/
def edgeSum (a7 : (⟨S2x1600000, .i32⟩ : BufTy).Contents (Elt Ideal)) (hp : (⟨S100000x128, .f32⟩ : BufTy).Contents (Elt Ideal)) :
    (⟨S100000x128, .f32⟩ : BufTy).Contents (Elt Ideal) :=
  Host.scatterAdd (F := Ideal) scatter_S100000x128_S1600000x1_S1600000x128_1_0_0_1
    (broadcastInDim S100000x128 ![] bcast_S_S100000x128 (constant (F := Ideal) S_ .f32 0x00000000#32)) (dIK a7)
    (Host.gather gather_S100000x128_S1600000x1_S1600000x128_1_0_n_n_0_1_1128 hp (sIK a7))

/-- A bias vector as a row. -/
def biasRow (b : (⟨S128, .f32⟩ : BufTy).Contents (Elt Ideal)) : (⟨S1x128, .f32⟩ : BufTy).Contents (Elt Ideal) :=
  shapeCast S1x128 b shapeCasts_S128_S1x128

variable (m : (ℓ : Loc nD τ sig) → Buf (Elt Ideal) ℓ) (ρ : Dev nD → PrngReg) (c : Dev nD)

/-- The first region's output. -/
def hp1 : (⟨S100000x128, .f32⟩ : BufTy).Contents (Elt Ideal) := scaledProd (m ((c : Thread nD τ).loc main_arg0)) (m ((c : Thread nD τ).loc main_arg1)) (disCol (m ((c : Thread nD τ).loc main_arg7)))

/-- The second region's output. -/
def hp2 : (⟨S100000x128, .f32⟩ : BufTy).Contents (Elt Ideal) :=
  scaledProd (combine (edgeSum (m ((c : Thread nD τ).loc main_arg7)) (hp1 m c)) (hp1 m c) (disCol (m ((c : Thread nD τ).loc main_arg7))) (biasRow (m ((c : Thread nD τ).loc main_arg2)))) (m ((c : Thread nD τ).loc main_arg3)) (disCol (m ((c : Thread nD τ).loc main_arg7)))

/-- The third region's output. -/
def act2 : (⟨S100000x128, .f32⟩ : BufTy).Contents (Elt Ideal) :=
  combine (edgeSum (m ((c : Thread nD τ).loc main_arg7)) (hp2 m c)) (hp2 m c) (disCol (m ((c : Thread nD τ).loc main_arg7))) (biasRow (m ((c : Thread nD τ).loc main_arg4)))

/-- The per-graph sums of the activations. -/
def poolSums : (⟨S64x128, .f32⟩ : BufTy).Contents (Elt Ideal) :=
  Host.scatterAdd (F := Ideal) scatter_S64x128_S100000x1_S100000x128_1_0_0_1
    (broadcastInDim S64x128 ![] bcast_S_S64x128 (constant (F := Ideal) S_ .f32 0x00000000#32)) (bIK (m ((c : Thread nD τ).loc main_arg8))) (act2 m c)

/-- The per-graph node counts, as a column. -/
def poolCounts : (⟨S64x1, .f32⟩ : BufTy).Contents (Elt Ideal) :=
  shapeCast S64x1 (Host.scatterAdd (F := Ideal) scatter_S64_S100000x1_S100000_n_0_0_1
    (broadcastInDim S64 ![] bcast_S_S64 (constant (F := Ideal) S_ .f32 0x00000000#32)) (bIK (m ((c : Thread nD τ).loc main_arg8)))
    (broadcastInDim S100000 ![] bcast_S_S100000 (constant (F := Ideal) S_ .f32 0x3F800000#32))) shapeCasts_S64_S64x1

/-! ## The run, boundary by boundary -/

theorem W1_v1e : W1 (F := Ideal) m ρ c (Proc.devRef .tc main_v1) = srcWords (m ((c : Thread nD τ).loc main_arg7)) := by
  show StableHlo.after hostOps0 (W0 m ρ c) (Proc.devRef .tc main_v1) = _
  after_results; rfl

theorem W1_v3e : W1 (F := Ideal) m ρ c (Proc.devRef .tc main_v3) = dstWords (m ((c : Thread nD τ).loc main_arg7)) := by
  show StableHlo.after hostOps0 (W0 m ρ c) (Proc.devRef .tc main_v3) = _
  after_results; rfl

theorem W1_v10e : W1 (F := Ideal) m ρ c (Proc.devRef .tc main_v10) = disArr (m ((c : Thread nD τ).loc main_arg7)) := by
  show StableHlo.after hostOps0 (W0 m ρ c) (Proc.devRef .tc main_v10) = _
  after_results; rfl

theorem V1_v11e : (V1 (F := Ideal) m ρ c main_v11 : S100000x1.Idx → EReal) = disCol (m ((c : Thread nD τ).loc main_arg7)) := by
  show StableHlo.after hostOps0 (W0 m ρ c) (Proc.devRef .tc main_v11) = _
  after_results; rfl

theorem hp1e : W2 (F := Ideal) m ρ c (Proc.devRef .tc main_v12) = hp1 m c := by
  refine (W2_arr m ρ c 3).trans ((final0 (V1 m ρ) c).trans ?_)
  unfold hp1
  rw [V1_v11e]
  exact congrArg₂ (fun a b => scaledProd a b (disCol (m ((c : Thread nD τ).loc main_arg7)))) (W1_arg0 m ρ c) (W1_arg1 m ρ c)

theorem V3_v22e : (V3 (F := Ideal) m ρ c main_v22 : S100000x128.Idx → EReal) = edgeSum (m ((c : Thread nD τ).loc main_arg7)) (hp1 m c) := by
  show StableHlo.after hostOps1 (W2 m ρ c) (Proc.devRef .tc main_v22) = _
  after_results
  rw [W2_v3, W1_v3e, W2_v1, W1_v1e, hp1e]
  rfl

theorem V3_v23e : (V3 (F := Ideal) m ρ c main_v23 : S100000x1.Idx → EReal) = disCol (m ((c : Thread nD τ).loc main_arg7)) := by
  show StableHlo.after hostOps1 (W2 m ρ c) (Proc.devRef .tc main_v23) = _
  after_results
  rw [W2_v10, W1_v10e]
  rfl

theorem V3_v24e : (V3 (F := Ideal) m ρ c main_v24 : S1x128.Idx → EReal) = biasRow (m ((c : Thread nD τ).loc main_arg2)) := by
  show StableHlo.after hostOps1 (W2 m ρ c) (Proc.devRef .tc main_v24) = _
  after_results
  rw [W2_arg2]
  rfl

theorem hp2e : W4 (F := Ideal) m ρ c (Proc.devRef .tc main_v25) = hp2 m c := by
  refine (W4_arr m ρ c 5).trans ((final1 (V3 m ρ) c).trans ?_)
  unfold hp2
  rw [V3_v22e, V3_v23e, V3_v24e]
  exact congrArg₂ (fun a b => scaledProd (combine (edgeSum (m ((c : Thread nD τ).loc main_arg7)) (hp1 m c)) a (disCol (m ((c : Thread nD τ).loc main_arg7))) (biasRow (m ((c : Thread nD τ).loc main_arg2)))) b (disCol (m ((c : Thread nD τ).loc main_arg7))))
    ((W3_v12 m ρ c).trans (hp1e m ρ c)) (W3_arg3 m ρ c)

theorem V5_v35e : (V5 (F := Ideal) m ρ c main_v35 : S100000x128.Idx → EReal) = edgeSum (m ((c : Thread nD τ).loc main_arg7)) (hp2 m c) := by
  show StableHlo.after hostOps2 (W4 m ρ c) (Proc.devRef .tc main_v35) = _
  after_results
  rw [W4_v3, W1_v3e, W4_v1, W1_v1e, hp2e]
  rfl

theorem V5_v36e : (V5 (F := Ideal) m ρ c main_v36 : S100000x1.Idx → EReal) = disCol (m ((c : Thread nD τ).loc main_arg7)) := by
  show StableHlo.after hostOps2 (W4 m ρ c) (Proc.devRef .tc main_v36) = _
  after_results
  rw [W4_v10, W1_v10e]
  rfl

theorem V5_v37e : (V5 (F := Ideal) m ρ c main_v37 : S1x128.Idx → EReal) = biasRow (m ((c : Thread nD τ).loc main_arg4)) := by
  show StableHlo.after hostOps2 (W4 m ρ c) (Proc.devRef .tc main_v37) = _
  after_results
  rw [W4_arg4]
  rfl

theorem act2e : W6 (F := Ideal) m ρ c (Proc.devRef .tc main_v38) = act2 m c := by
  refine (W6_arr m ρ c 4).trans ((final2 (V5 m ρ) c).trans ?_)
  unfold act2
  rw [V5_v35e, V5_v36e, V5_v37e]
  exact congrArg (fun a => combine (edgeSum (m ((c : Thread nD τ).loc main_arg7)) (hp2 m c)) a (disCol (m ((c : Thread nD τ).loc main_arg7))) (biasRow (m ((c : Thread nD τ).loc main_arg4))))
    ((W5_v25 m ρ c).trans (hp2e m ρ c))

theorem V7_v41e : (V7 (F := Ideal) m ρ c main_v41 : S64x128.Idx → EReal) = poolSums m c := by
  show StableHlo.after hostOps3 (W6 m ρ c) (Proc.devRef .tc main_v41) = _
  after_results
  rw [W6_arg8, act2e]
  rfl

theorem V7_v46e : (V7 (F := Ideal) m ρ c main_v46 : S64x1.Idx → EReal) = poolCounts m c := by
  show StableHlo.after hostOps3 (W6 m ρ c) (Proc.devRef .tc main_v46) = _
  after_results
  rw [W6_arg8]
  rfl

theorem V7_v47e : (V7 (F := Ideal) m ρ c main_v47 : S1x16.Idx → EReal) = shapeCast S1x16 (m ((c : Thread nD τ).loc main_arg6)) shapeCasts_S16_S1x16 := by
  show StableHlo.after hostOps3 (W6 m ρ c) (Proc.devRef .tc main_v47) = _
  after_results
  rw [W6_arg6]
  rfl

/-- THE RESULT ARRAY after the run. -/
theorem result_array : W8 (F := Ideal) m ρ c (Proc.devRef .tc main_v48)
    = poolLinear (poolSums m c) (poolCounts m c) (m ((c : Thread nD τ).loc main_arg5)) (shapeCast S1x16 (m ((c : Thread nD τ).loc main_arg6)) shapeCasts_S16_S1x16) := by
  refine (W8_arr m ρ c 4).trans ((final3 (V7 m ρ) c).trans ?_)
  rw [V7_v41e, V7_v46e, V7_v47e]
  exact congrArg (fun a => poolLinear (poolSums m c) (poolCounts m c) a (shapeCast S1x16 (m ((c : Thread nD τ).loc main_arg6)) shapeCasts_S16_S1x16))
    (W7_arg5 m ρ c)

end Cert.KernelIdeal.Whole

end
-- ==== Proof.KernelEntry.lean ====
/-
  The idealized kernel's result, entry by entry: `poolAt` of two `layerK` layers over the argument arrays.
-/
import proofs.«121145_j20194936226696_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«121145_j20194936226696_2_alg».proof.Proof.KernelValue

set_option maxRecDepth 16384

noncomputable section

open scoped BigOperators

namespace Cert.KernelIdeal.Whole

open Cert.KernelIdeal Cert.KernelIdeal.Gen Cert.Gcn
open Idealize.ShloMosaic Idealize.ShloMosaic.TcCoe Idealize.ShloMosaic.ValueIdx Idealize.SL.Sem
open Cert.Lib.RowScatter Cert.Lib.VecScatter Cert.Lib.ColumnReads Cert.Lib.RowCast Cert.Lib.MeanScale

theorem hostRsqrt_apply {s : Shape} {φ : FTy} (x : FVec Ideal s φ) (i : s.Idx) : Host.rsqrt x i = Ideal.rsqrt (x i) := rfl

/-- `δ` at a node. -/
theorem disArr_apply (a7 : (⟨S2x1600000, .i32⟩ : BufTy).Contents (Elt Ideal)) (n : Fin 100000) :
    disArr a7 (ix1 n) = deltaAt (dIK a7) n := by
  unfold disArr
  rw [hostRsqrt_apply, addf_apply, scatterAdd1_apply _ rfl rfl rfl rfl]
  unfold deltaAt degAt lands
  have h0 : (broadcastInDim S100000 ![] bcast_S_S100000 (constant (F := Ideal) S_ .f32 0x00000000#32)) (ix1 n) = 0 :=
    Ideal.ofBits_zero_f32
  have h1 : (broadcastInDim S100000 ![] bcast_S_S100000 (constant (F := Ideal) S_ .f32 0x3F800000#32)) (ix1 n) = 1 := ofBits_one
  have h2 : ∀ j : Fin 1600000,
      (broadcastInDim S1600000 ![] bcast_S_S1600000 (constant (F := Ideal) S_ .f32 0x3F800000#32)) (ix1 j) = 1 := fun j => ofBits_one
  rw [h0, h1]
  simp only [h2]

theorem disCol_apply (a7 : (⟨S2x1600000, .i32⟩ : BufTy).Contents (Elt Ideal)) (n : Fin 100000) :
    disCol a7 (ix2 n 0) = deltaAt (dIK a7) n := by
  unfold disCol
  rw [shapeCast_a_a1_apply (a := 100000)]
  exact disArr_apply a7 n

theorem biasRow_apply (b : (⟨S128, .f32⟩ : BufTy).Contents (Elt Ideal)) (k : Fin 128) : biasRow b (ix2 0 k) = b (ix1 k) := by
  unfold biasRow
  exact shapeCast_b_1b_apply (b := 128) _ _ 0 k

/-- A scaled product whose column is `δ`, at an entry. -/
theorem scaledProd_entry (a : (⟨S100000x128, .f32⟩ : BufTy).Contents (Elt Ideal)) (w : (⟨S128x128, .f32⟩ : BufTy).Contents (Elt Ideal))
    (a7 : (⟨S2x1600000, .i32⟩ : BufTy).Contents (Elt Ideal)) (L : Fin 100000 → Fin 128 → EReal) (hL : ∀ n k, a (ix2 n k) = L n k)
    (n : Fin 100000) (q : Fin 128) :
    scaledProd a w (disCol a7) (ix2 n q) = linAt L (fun k c => w (ix2 k c)) n q * deltaAt (dIK a7) n := by
  unfold scaledProd linAt
  show (∑ k : Fin 128, a (ix2 n k) * w (ix2 k q)) * disCol a7 (ix2 n 0) = _
  rw [disCol_apply]
  simp only [hL]

/-- The edge sum at an entry. -/
theorem edgeSum_entry (a7 : (⟨S2x1600000, .i32⟩ : BufTy).Contents (Elt Ideal)) (hp : (⟨S100000x128, .f32⟩ : BufTy).Contents (Elt Ideal))
    (n : Fin 100000) (q : Fin 128) :
    edgeSum a7 hp (ix2 n q) = 0 + ∑ j ∈ lands (dIK a7) n, hp (ix2 (rowOf (sIK a7) j) q) := by
  unfold edgeSum
  rw [edgeSum_apply _ rfl rfl rfl rfl _ rfl rfl rfl rfl rfl rfl]
  exact congrArg (· + _) Ideal.ofBits_zero_f32

/-- The rectified combine of an edge sum, at an entry, is the layer in the kernel's arrangement. -/
theorem combine_entry (a7 : (⟨S2x1600000, .i32⟩ : BufTy).Contents (Elt Ideal)) (hp : (⟨S100000x128, .f32⟩ : BufTy).Contents (Elt Ideal))
    (L : Fin 100000 → Fin 128 → EReal) (hhp : ∀ n q, hp (ix2 n q) = L n q * deltaAt (dIK a7) n)
    (b : (⟨S128, .f32⟩ : BufTy).Contents (Elt Ideal)) (n : Fin 100000) (q : Fin 128) :
    combine (edgeSum a7 hp) hp (disCol a7) (biasRow b) (ix2 n q) = layerK L (fun c => b (ix1 c)) (sIK a7) (dIK a7) n q := by
  unfold combine layerK
  show max (disCol a7 (ix2 n 0) * (edgeSum a7 hp (ix2 n q) + hp (ix2 n q)) + biasRow b (ix2 0 q)) (Ideal.ofBits .f32 0x00000000#32) = _
  rw [Ideal.ofBits_zero_f32, disCol_apply, edgeSum_entry, biasRow_apply]
  simp only [hhp]

variable (m : (ℓ : Loc nD τ sig) → Buf (Elt Ideal) ℓ) (ρ : Dev nD → PrngReg) (c : Dev nD)

theorem hp1_entry (n : Fin 100000) (q : Fin 128) :
    hp1 m c (ix2 n q) = linAt (fun n k => (m ((c : Thread nD τ).loc main_arg0)) (ix2 n k)) (fun k q => (m ((c : Thread nD τ).loc main_arg1)) (ix2 k q)) n q * deltaAt (dIK (m ((c : Thread nD τ).loc main_arg7))) n := by
  unfold hp1
  exact scaledProd_entry _ _ _ _ (fun _ _ => rfl) n q

theorem hp2_entry (n : Fin 100000) (q : Fin 128) :
    hp2 m c (ix2 n q) = (linAt (layerK (linAt (fun n k => (m ((c : Thread nD τ).loc main_arg0)) (ix2 n k)) (fun k q => (m ((c : Thread nD τ).loc main_arg1)) (ix2 k q))) (fun q => (m ((c : Thread nD τ).loc main_arg2)) (ix1 q)) (sIK (m ((c : Thread nD τ).loc main_arg7))) (dIK (m ((c : Thread nD τ).loc main_arg7)))) (fun k q => (m ((c : Thread nD τ).loc main_arg3)) (ix2 k q))) n q * deltaAt (dIK (m ((c : Thread nD τ).loc main_arg7))) n := by
  unfold hp2
  exact scaledProd_entry _ _ _ _ (fun n k => combine_entry _ _ _ (hp1_entry m c) _ n k) n q

theorem act2_entry (n : Fin 100000) (q : Fin 128) : act2 m c (ix2 n q) = (layerK (linAt (layerK (linAt (fun n k => (m ((c : Thread nD τ).loc main_arg0)) (ix2 n k)) (fun k q => (m ((c : Thread nD τ).loc main_arg1)) (ix2 k q))) (fun q => (m ((c : Thread nD τ).loc main_arg2)) (ix1 q)) (sIK (m ((c : Thread nD τ).loc main_arg7))) (dIK (m ((c : Thread nD τ).loc main_arg7)))) (fun k q => (m ((c : Thread nD τ).loc main_arg3)) (ix2 k q))) (fun q => (m ((c : Thread nD τ).loc main_arg4)) (ix1 q)) (sIK (m ((c : Thread nD τ).loc main_arg7))) (dIK (m ((c : Thread nD τ).loc main_arg7)))) n q := by
  unfold act2
  exact combine_entry _ _ _ (hp2_entry m c) _ n q

/-- THE RESULT at an entry. -/
theorem result_entry (g : Fin 64) (o : Fin 16) :
    (W8 (F := Ideal) m ρ c (Proc.devRef .tc main_v48) : S64x16.Idx → EReal) (ix2 g o)
      = poolAt (layerK (linAt (layerK (linAt (fun n k => (m ((c : Thread nD τ).loc main_arg0)) (ix2 n k)) (fun k q => (m ((c : Thread nD τ).loc main_arg1)) (ix2 k q))) (fun q => (m ((c : Thread nD τ).loc main_arg2)) (ix1 q)) (sIK (m ((c : Thread nD τ).loc main_arg7))) (dIK (m ((c : Thread nD τ).loc main_arg7)))) (fun k q => (m ((c : Thread nD τ).loc main_arg3)) (ix2 k q))) (fun q => (m ((c : Thread nD τ).loc main_arg4)) (ix1 q)) (sIK (m ((c : Thread nD τ).loc main_arg7))) (dIK (m ((c : Thread nD τ).loc main_arg7)))) (bIK (m ((c : Thread nD τ).loc main_arg8))) (fun k o => (m ((c : Thread nD τ).loc main_arg5)) (ix2 k o)) (fun o => (m ((c : Thread nD τ).loc main_arg6)) (ix1 o)) g o := by
  rw [result_array]
  unfold poolLinear poolAt
  show (∑ k : Fin 128, Ideal.div (poolSums m c (ix2 g k)) (max (poolCounts m c (ix2 g 0)) (Ideal.ofBits .f32 0x3F800000#32))
      * (m ((c : Thread nD τ).loc main_arg5)) (ix2 k o)) + shapeCast S1x16 (m ((c : Thread nD τ).loc main_arg6)) shapeCasts_S16_S1x16 (ix2 0 o) = _
  have hc : poolCounts m c (ix2 g 0) = 0 + ∑ _n ∈ lands (bIK (m ((c : Thread nD τ).loc main_arg8))) g, (1 : EReal) := by
    unfold poolCounts
    rw [shapeCast_a_a1_apply (a := 64), scatterAdd1_apply _ rfl rfl rfl rfl]
    unfold lands
    have h0 : (broadcastInDim S64 ![] bcast_S_S64 (constant (F := Ideal) S_ .f32 0x00000000#32)) (ix1 g) = 0 := Ideal.ofBits_zero_f32
    have h1 : ∀ n : Fin 100000,
        (broadcastInDim S100000 ![] bcast_S_S100000 (constant (F := Ideal) S_ .f32 0x3F800000#32)) (ix1 n) = 1 := fun n => ofBits_one
    rw [h0]
    simp only [h1]
  have hs : ∀ k : Fin 128, poolSums m c (ix2 g k) = 0 + ∑ n ∈ lands (bIK (m ((c : Thread nD τ).loc main_arg8))) g, (layerK (linAt (layerK (linAt (fun n k => (m ((c : Thread nD τ).loc main_arg0)) (ix2 n k)) (fun k q => (m ((c : Thread nD τ).loc main_arg1)) (ix2 k q))) (fun q => (m ((c : Thread nD τ).loc main_arg2)) (ix1 q)) (sIK (m ((c : Thread nD τ).loc main_arg7))) (dIK (m ((c : Thread nD τ).loc main_arg7)))) (fun k q => (m ((c : Thread nD τ).loc main_arg3)) (ix2 k q))) (fun q => (m ((c : Thread nD τ).loc main_arg4)) (ix1 q)) (sIK (m ((c : Thread nD τ).loc main_arg7))) (dIK (m ((c : Thread nD τ).loc main_arg7)))) n k := by
    intro k
    unfold poolSums
    rw [scatterAdd2_apply _ rfl rfl rfl rfl]
    unfold lands
    have h0 : (broadcastInDim S64x128 ![] bcast_S_S64x128 (constant (F := Ideal) S_ .f32 0x00000000#32)) (ix2 g k) = 0 :=
      Ideal.ofBits_zero_f32
    rw [h0]
    exact congrArg (0 + ·) (Finset.sum_congr rfl fun n _ => act2_entry m c n k)
  rw [hc, ofBits_one, shapeCast_b_1b_apply (b := 16)]
  simp only [hs]

end Cert.KernelIdeal.Whole

end
-- ==== Proof.LibPlainDot.lean ====
/- The host's contraction read at coordinates, on the extended reals, for any extents: a `stablehlo.dot_general` with the
   plain dimension numbers (rows × contraction by contraction × columns), at (p, c), is the sum over the contraction
   coordinate k of left(p, k) · right(k, c) — whatever the precision annotation and the summation schedule, which the
   exact sum does not see. And a sum over an index range that is two ranges laid end to end is the sum over the first
   plus the sum over the second, in any commutative additive monoid (no finiteness): what splits a contraction over a
   concatenated operand into the contractions over its pieces. Nothing here depends on a particular program: a printed
   record with the plain lists is `DotDims.plain` by `rfl`. -/
import Idealize.ShloMosaic.PureOps.Ideal
import Idealize.ShloMosaic.PureOps.Ideal.Laws
import Idealize.ShloMosaic.Lib.ValueIdx

noncomputable section

open scoped BigOperators

open Idealize.ShloMosaic Idealize.ShloMosaic.ValueIdx

namespace Cert.Lib.PlainDot

/-- A host contraction with the plain dimension numbers, read at (p, c): the sum over the one contraction coordinate
    of the left operand's row p against the right operand's column c. -/
theorem plain_dotGeneral_apply {M K N : ℕ} {φ₁ φ₂ : FTy} (prec : Option ContractPrecision) (sched : HostSchedule)
    (l : FVec Ideal ⟨2, ![M, K]⟩ φ₁) (r : FVec Ideal ⟨2, ![K, N]⟩ φ₂) (p : Fin M) (c : Fin N) :
    FloatOps.dotGeneral (DotDims.plain M K N) prec sched l r (ix2 p c) = ∑ k : Fin K, l (ix2 p k) * r (ix2 k c) := by
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- A sum over `Fin (a + b)` is the sum over the first `a` indices plus the sum over the last `b`, the latter
    numbered from `a`. -/
theorem sum_two_ranges {β : Type*} [AddCommMonoid β] (a b : ℕ) (f : Fin (a + b) → β) :
    ∑ k : Fin (a + b), f k = ∑ k : Fin a, f (Fin.castAdd b k) + ∑ k : Fin b, f (Fin.natAdd a k) :=
  Fin.sum_univ_add f

end Cert.Lib.PlainDot

end
-- ==== Proof.RefValue.lean ====
/-
  The reference, read entry by entry.

  Its run ends at `(sums / max(counts, 1)) · Wfc + bfc` of the second layer's activations; each layer is the edge-by-edge
  form `layerR` of the projected features, the first of `x · W1`, the second of the first layer's activations times `W2`.
-/
import proofs.«121145_j20194936226696_2_alg».proof.Proof.Gen.ReferenceIdeal.Read
import proofs.«121145_j20194936226696_2_alg».proof.Proof.LibGcnReads
import proofs.«121145_j20194936226696_2_alg».proof.Proof.LibPlainDot
import proofs.«121145_j20194936226696_2_alg».proof.Proof.LibVecScatter
import proofs.«121145_j20194936226696_2_alg».proof.Proof.LibMeanScale

set_option maxRecDepth 16384

noncomputable section

open scoped BigOperators

namespace Cert.ReferenceIdeal.RefValue

open Cert.ReferenceIdeal Cert.ReferenceIdeal.Gen Cert.ReferenceIdeal.Read Cert.Gcn
open Idealize.ShloMosaic Idealize.ShloMosaic.ValueIdx
open Cert.Lib.RowScatter Cert.Lib.VecScatter Cert.Lib.PlainDot Cert.Lib.BroadcastReads Cert.Lib.MeanScale

variable (x0 : (⟨S100000x128, .f32⟩ : BufTy).Contents (Elt Ideal)) (x1 : (⟨S128x128, .f32⟩ : BufTy).Contents (Elt Ideal))
  (x2 : (⟨S128, .f32⟩ : BufTy).Contents (Elt Ideal)) (x3 : (⟨S128x128, .f32⟩ : BufTy).Contents (Elt Ideal))
  (x4 : (⟨S128, .f32⟩ : BufTy).Contents (Elt Ideal)) (x5 : (⟨S128x16, .f32⟩ : BufTy).Contents (Elt Ideal))
  (x6 : (⟨S16, .f32⟩ : BufTy).Contents (Elt Ideal)) (x7 : (⟨S2x1600000, .i32⟩ : BufTy).Contents (Elt Ideal))
  (x8 : (⟨S100000, .i32⟩ : BufTy).Contents (Elt Ideal))

/-- The degree array, at a node. -/
theorem deg_ref (n : Fin 100000) : val_main_v9 (F := Ideal) x7 (ix1 n) = degAt (val_main_v6 (F := Ideal) x7) n := by
  rw [val_main_v9_apply]
  unfold val_main_v7
  rw [Ideal.addf_def, scatterAdd1_apply _ rfl rfl rfl rfl]
  unfold degAt lands
  have h5 : val_main_v5 (F := Ideal) (ix1 n) = 0 := Ideal.ofBits_zero_f32
  have h8 : val_main_v8 (F := Ideal) (ix1 n) = 1 := ofBits_one
  have h4 : ∀ j : Fin 1600000, val_main_v4 (F := Ideal) (ix1 j) = 1 := fun j => ofBits_one
  rw [h5, h8]
  simp only [h4]

/-- `δ = deg^(-1/2)` at a node. -/
theorem delta_ref (n : Fin 100000) : val_main_v10 (F := Ideal) x7 (ix1 n) = deltaAt (val_main_v6 (F := Ideal) x7) n := by
  rw [val_main_v10_apply, Ideal.hostUnary_rsqrt_def, deg_ref]; rfl

/-- `q = 1 / deg` at a node. -/
theorem recip_ref (n : Fin 100000) : val_main_v12 (F := Ideal) x7 (ix1 n) = recipAt (val_main_v6 (F := Ideal) x7) n := by
  rw [val_main_v12_apply, Ideal.hostDivf_def, deg_ref]
  have h11 : val_main_v11 (F := Ideal) (ix1 n) = 1 := ofBits_one
  rw [h11]; rfl

/-- The first projection `x · W1` at an entry. -/
theorem lin1_ref (n : Fin 100000) (c : Fin 128) :
    val_main_v13 (F := Ideal) x0 x1 (ix2 n c) = linAt (fun n k => x0 (ix2 n k)) (fun k c => x1 (ix2 k c)) n c := by
  unfold val_main_v13 linAt
  exact plain_dotGeneral_apply (M := 100000) (K := 128) (N := 128) _ _ x0 x1 n c

/-- The reference layer's entry, over any projected features `L` read off an array `lin`, is `layerR L`. -/
theorem layerR_of (Z Zr lin : (⟨S100000x128, .f32⟩ : BufTy).Contents (Elt Ideal)) (bias : (⟨S128, .f32⟩ : BufTy).Contents (Elt Ideal))
    (L : Fin 100000 → Fin 128 → EReal) (hL : ∀ n c, lin (ix2 n c) = L n c) (hZ : ∀ i, Z i = 0) (hZr : ∀ i, Zr i = 0)
    (n : Fin 100000) (c : Fin 128) :
    max (((Z (ix2 n c) + ∑ j ∈ lands (val_main_v6 (F := Ideal) x7) n, lin (ix2 (rowOf (val_main_v19 (F := Ideal) x7) j) c)
          * (val_main_v10 (F := Ideal) x7 (ix1 (rowOf (val_main_v19 (F := Ideal) x7) j)) * val_main_v10 (F := Ideal) x7 (ix1 (rowOf (val_main_v26 (F := Ideal) x7) j))))
        + lin (ix2 n c) * val_main_v12 (F := Ideal) x7 (ix1 n)) + bias (ix1 c)) (Zr (ix2 n c))
      = layerR L (fun c => bias (ix1 c)) (val_main_v19 (F := Ideal) x7) (val_main_v6 (F := Ideal) x7) (val_main_v26 (F := Ideal) x7) n c := by
  unfold layerR
  rw [hZ, hZr]
  simp only [hL, delta_ref, recip_ref]

/-- THE FIRST LAYER's activations at an entry. -/
theorem layer1_ref (n : Fin 100000) (c : Fin 128) :
    val_main_v49 (F := Ideal) x0 x1 x2 x7 (ix2 n c)
      = layerR (linAt (fun n k => x0 (ix2 n k)) (fun k c => x1 (ix2 k c))) (fun c => x2 (ix1 c))
          (val_main_v19 (F := Ideal) x7) (val_main_v6 (F := Ideal) x7) (val_main_v26 (F := Ideal) x7) n c := by
  refine (refLayer_apply scatter_S100000x128_S1600000x1_S1600000x128_1_0_0_1 rfl rfl rfl rfl
    gather_S100000x128_S1600000x1_S1600000x128_1_0_n_n_0_1_1128 rfl rfl rfl rfl rfl rfl
    gather_S100000_S1600000x1_S1600000_n_0_n_n_0_1_1 rfl rfl rfl rfl rfl rfl
    bcast_S1600000_S1600000x1_0 bcast_S1600000x1_S1600000x128_0_1 bcast_S100000_S100000x1_0 bcast_S100000x1_S100000x128_0_1
    bcast_S128_S1x128_1 bcast_S1x128_S100000x128_0_1
    (val_main_v39 (F := Ideal)) (val_main_call0_v0 (F := Ideal)) (val_main_v13 (F := Ideal) x0 x1) (val_main_v10 (F := Ideal) x7) (val_main_v12 (F := Ideal) x7) x2
    (val_main_v19 (F := Ideal) x7) (val_main_v19 (F := Ideal) x7) (val_main_v6 (F := Ideal) x7) (val_main_v26 (F := Ideal) x7) n c).trans ?_
  exact layerR_of x7 _ _ _ x2 _ (lin1_ref x0 x1) (fun _ => Ideal.ofBits_zero_f32) (fun _ => Ideal.ofBits_zero_f32) n c

/-- The second projection: the first layer's activations times `W2`, at an entry. -/
theorem lin2_ref (n : Fin 100000) (c : Fin 128) :
    val_main_v50 (F := Ideal) x0 x1 x2 x3 x7 (ix2 n c)
      = linAt (layerR (linAt (fun n k => x0 (ix2 n k)) (fun k c => x1 (ix2 k c))) (fun c => x2 (ix1 c))
          (val_main_v19 (F := Ideal) x7) (val_main_v6 (F := Ideal) x7) (val_main_v26 (F := Ideal) x7)) (fun k c => x3 (ix2 k c)) n c := by
  unfold val_main_v50
  refine (plain_dotGeneral_apply (M := 100000) (K := 128) (N := 128) _ _ (val_main_v49 (F := Ideal) x0 x1 x2 x7) x3 n c).trans ?_
  exact Finset.sum_congr rfl fun k _ => congrArg (· * x3 (ix2 k c)) (layer1_ref x0 x1 x2 x7 n k)

/-- THE SECOND LAYER's activations at an entry. -/
theorem layer2_ref (n : Fin 100000) (c : Fin 128) :
    val_main_v86 (F := Ideal) x0 x1 x2 x3 x4 x7 (ix2 n c)
      = layerR (linAt (layerR (linAt (fun n k => x0 (ix2 n k)) (fun k c => x1 (ix2 k c))) (fun c => x2 (ix1 c))
          (val_main_v19 (F := Ideal) x7) (val_main_v6 (F := Ideal) x7) (val_main_v26 (F := Ideal) x7)) (fun k c => x3 (ix2 k c))) (fun c => x4 (ix1 c))
          (val_main_v19 (F := Ideal) x7) (val_main_v6 (F := Ideal) x7) (val_main_v26 (F := Ideal) x7) n c := by
  refine (refLayer_apply scatter_S100000x128_S1600000x1_S1600000x128_1_0_0_1 rfl rfl rfl rfl
    gather_S100000x128_S1600000x1_S1600000x128_1_0_n_n_0_1_1128 rfl rfl rfl rfl rfl rfl
    gather_S100000_S1600000x1_S1600000_n_0_n_n_0_1_1 rfl rfl rfl rfl rfl rfl
    bcast_S1600000_S1600000x1_0 bcast_S1600000x1_S1600000x128_0_1 bcast_S100000_S100000x1_0 bcast_S100000x1_S100000x128_0_1
    bcast_S128_S1x128_1 bcast_S1x128_S100000x128_0_1
    (val_main_v76 (F := Ideal)) (val_main_call1_v0 (F := Ideal)) (val_main_v50 (F := Ideal) x0 x1 x2 x3 x7) (val_main_v10 (F := Ideal) x7) (val_main_v12 (F := Ideal) x7) x4
    (val_main_v19 (F := Ideal) x7) (val_main_v19 (F := Ideal) x7) (val_main_v6 (F := Ideal) x7) (val_main_v26 (F := Ideal) x7) n c).trans ?_
  exact layerR_of x7 _ _ _ x4 _ (lin2_ref x0 x1 x2 x3 x7) (fun _ => Ideal.ofBits_zero_f32) (fun _ => Ideal.ofBits_zero_f32) n c

/-- THE RESULT at an entry: mean pooling of the second layer's activations, then the linear map. -/
theorem result_ref (g : Fin 64) (o : Fin 16) :
    val_main_v102 (F := Ideal) x0 x1 x2 x3 x4 x5 x6 x7 x8 (ix2 g o)
      = poolAt (layerR (linAt (layerR (linAt (fun n k => x0 (ix2 n k)) (fun k c => x1 (ix2 k c))) (fun c => x2 (ix1 c))
          (val_main_v19 (F := Ideal) x7) (val_main_v6 (F := Ideal) x7) (val_main_v26 (F := Ideal) x7)) (fun k c => x3 (ix2 k c))) (fun c => x4 (ix1 c))
          (val_main_v19 (F := Ideal) x7) (val_main_v6 (F := Ideal) x7) (val_main_v26 (F := Ideal) x7))
        (val_main_v88 (F := Ideal) x8) (fun k o => x5 (ix2 k o)) (fun o => x6 (ix1 o)) g o := by
  rw [val_main_v102_apply, Ideal.addf_def]
  unfold poolAt
  refine congrArg₂ (· + ·) ?_ ?_
  · unfold val_main_v99
    refine (plain_dotGeneral_apply (M := 64) (K := 128) (N := 16) _ _ (val_main_v98 (F := Ideal) x0 x1 x2 x3 x4 x7 x8) x5 g o).trans ?_
    refine Finset.sum_congr rfl fun k _ => ?_
    refine congrArg (· * x5 (ix2 k o)) ?_
    rw [val_main_v98_apply, Ideal.hostDivf_def]
    refine congrArg₂ Ideal.div ?_ ?_
    · unfold val_main_v89
      rw [scatterAdd2_apply _ rfl rfl rfl rfl]
      have hz : val_main_v87 (F := Ideal) (ix2 g k) = 0 := Ideal.ofBits_zero_f32
      rw [hz]
      unfold lands
      exact congrArg (0 + ·) (Finset.sum_congr rfl fun n _ => layer2_ref x0 x1 x2 x3 x4 x7 n k)
    · unfold val_main_v97 val_main_v96
      rw [broadcastInDim_a1_ab_apply (a := 64) (b := 128), broadcastInDim_a_a1_apply (a := 64), val_main_v95_apply,
        Ideal.maximumf_def]
      unfold val_main_v93
      rw [scatterAdd1_apply _ rfl rfl rfl rfl]
      have hz : val_main_v91 (F := Ideal) (ix1 g) = 0 := Ideal.ofBits_zero_f32
      have h1 : val_main_v94 (F := Ideal) (ix1 g) = 1 := ofBits_one
      have h90 : ∀ n : Fin 100000, val_main_v90 (F := Ideal) (ix1 n) = 1 := fun n => ofBits_one
      rw [hz, h1]
      simp only [h90]
      rfl
  · unfold val_main_v101 val_main_v100
    rw [broadcastInDim_1b_ab_apply (a := 64) (b := 16), broadcastInDim_b_1b_apply (b := 16)]

end Cert.ReferenceIdeal.RefValue

end
-- ==== Proof.RefLanding.lean ====
/-
  An edge that lands on node `n` has destination row `n`.

  The scatter reads the destination word as it is: the edge lands on `n` when the word, as a signed integer, is `n`. The
  gathers of `δ` at the destination first add the node count to a negative word and then clamp. A word equal to
  `n ≥ 0` is not negative, so it is left alone, and `n < 100000` is already in range: the gathered row is `n`.
-/
import proofs.«121145_j20194936226696_2_alg».proof.Proof.Gen.ReferenceIdeal.Read
import proofs.«121145_j20194936226696_2_alg».proof.Proof.LibGcnSpec
import proofs.«121145_j20194936226696_2_alg».proof.Proof.LibBroadcastReads
import Idealize.ShloMosaic.Lib.Affine

set_option maxRecDepth 16384

noncomputable section

namespace Cert.ReferenceIdeal.RefValue

open Cert.ReferenceIdeal Cert.ReferenceIdeal.Gen Cert.ReferenceIdeal.Read Cert.Gcn
open Idealize.ShloMosaic Idealize.ShloMosaic.ValueIdx Cert.Lib.RowScatter Cert.Lib.BroadcastReads

theorem lands_row (x7 : (⟨S2x1600000, .i32⟩ : BufTy).Contents (Elt Ideal)) (n : Fin 100000) (j : Fin 1600000)
    (hj : j ∈ lands (val_main_v6 (F := Ideal) x7) n) : rowOf (val_main_v26 (F := Ideal) x7) j = n := by
  unfold lands at hj
  rw [Finset.mem_filter] at hj
  have h6 : val_main_v6 (F := Ideal) x7 (ix2 j 0) = val_main_v3 (F := Ideal) x7 (ix1 j) := by
    unfold val_main_v6
    exact broadcastInDim_a_a1_apply (a := 1600000) _ _ j 0
  have hd : (val_main_v3 (F := Ideal) x7 (ix1 j)).toInt = (n.val : Int) := by rw [← h6]; exact hj.2
  have h26 : val_main_v26 (F := Ideal) x7 (ix2 j 0) = val_main_v3 (F := Ideal) x7 (ix1 j) := by
    unfold val_main_v26
    rw [broadcastInDim_a_a1_apply (a := 1600000)]
    unfold val_main_v25
    rw [select_apply]
    have hc : val_main_v22 (F := Ideal) x7 (ix1 j) = 0#1 := by
      apply eq_zero_of_ne_one
      intro h1
      have hlt : (val_main_v3 (F := Ideal) x7 (ix1 j)).toInt < (val_main_v21 (F := Ideal) (ix1 j)).toInt := IntOp.cmpi_slt.1 h1
      have e21 : (val_main_v21 (F := Ideal) (ix1 j)).toInt = 0 := rfl
      rw [hd, e21] at hlt
      omega
    rw [hc, select_zero]
  unfold rowOf
  rw [h26, hd]
  refine Fin.ext ?_
  show min ((n.val : Int).toNat) (100000 - 1) = n.val
  have := n.isLt
  rw [Int.toNat_natCast]
  omega

end Cert.ReferenceIdeal.RefValue

end
-- ==== Proof.Join.lean ====
/-
  The two results are one function of the arguments.

  Entry by entry the idealized kernel's result is mean pooling and the linear map of two layers in the arrangement
  "scale the rows, sum, scale the sum" (`layerK`), the reference's the same of two layers summed edge by edge with the
  product of the two scales (`layerR`), over the same index arrays. The layers agree on real data: the first layer's
  input `x · W1` is real because `x` and `W1` are; its output is then real, and so is the second layer's input.
-/
import proofs.«121145_j20194936226696_2_alg».proof.Proof.KernelEntry
import proofs.«121145_j20194936226696_2_alg».proof.Proof.RefValue
import proofs.«121145_j20194936226696_2_alg».proof.Proof.RefLanding

set_option maxRecDepth 16384

noncomputable section

namespace Cert.Join

open Idealize.ShloMosaic Idealize.ShloMosaic.TcCoe Idealize.ShloMosaic.ValueIdx Idealize.SL.Sem
open Cert.Gcn Cert.Reals Cert.KernelIdeal.Whole Cert.ReferenceIdeal.RefValue

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

theorem result_eq
    (h0 : ∀ i, IsReal ((m ((c.tc : Thread Cert.KernelIdeal.nD Cert.KernelIdeal.τ).loc Cert.KernelIdeal.main_arg0)) i)) (h1 : ∀ i, IsReal ((m ((c.tc : Thread Cert.KernelIdeal.nD Cert.KernelIdeal.τ).loc Cert.KernelIdeal.main_arg1)) i))
    (h2 : ∀ i, IsReal ((m ((c.tc : Thread Cert.KernelIdeal.nD Cert.KernelIdeal.τ).loc Cert.KernelIdeal.main_arg2)) i)) (h3 : ∀ i, IsReal ((m ((c.tc : Thread Cert.KernelIdeal.nD Cert.KernelIdeal.τ).loc Cert.KernelIdeal.main_arg3)) i)) :
    Cert.ReferenceIdeal.Read.val_main_v102 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
      = (Cert.KernelIdeal.Gen.W8 (F := Ideal) m ρ c (Proc.devRef .tc Cert.KernelIdeal.main_v48) : Cert.KernelIdeal.S64x16.Idx → EReal) := by
  funext i
  obtain ⟨g, o, rfl⟩ : ∃ (g : Fin 64) (o : Fin 16), i = ix2 g o := ⟨i 0, i 1, eq_ix2 i⟩
  rw [result_ref, result_entry]
  have hs : sIK (m ((c.tc : Thread Cert.KernelIdeal.nD Cert.KernelIdeal.τ).loc Cert.KernelIdeal.main_arg7)) = Cert.ReferenceIdeal.Read.val_main_v19 (F := Ideal) (m ((c.tc : Thread Cert.KernelIdeal.nD Cert.KernelIdeal.τ).loc Cert.KernelIdeal.main_arg7)) := rfl
  have hd : dIK (m ((c.tc : Thread Cert.KernelIdeal.nD Cert.KernelIdeal.τ).loc Cert.KernelIdeal.main_arg7)) = Cert.ReferenceIdeal.Read.val_main_v6 (F := Ideal) (m ((c.tc : Thread Cert.KernelIdeal.nD Cert.KernelIdeal.τ).loc Cert.KernelIdeal.main_arg7)) := rfl
  have hb : bIK (m ((c.tc : Thread Cert.KernelIdeal.nD Cert.KernelIdeal.τ).loc Cert.KernelIdeal.main_arg8)) = Cert.ReferenceIdeal.Read.val_main_v88 (F := Ideal) (m ((c.tc : Thread Cert.KernelIdeal.nD Cert.KernelIdeal.τ).loc Cert.KernelIdeal.main_arg8)) := rfl
  rw [hs, hd, hb]
  have hlin1 : ∀ n q, IsReal (linAt (fun n k => (m ((c.tc : Thread Cert.KernelIdeal.nD Cert.KernelIdeal.τ).loc Cert.KernelIdeal.main_arg0)) (ix2 n k)) (fun k q => (m ((c.tc : Thread Cert.KernelIdeal.nD Cert.KernelIdeal.τ).loc Cert.KernelIdeal.main_arg1)) (ix2 k q)) n q) :=
    linAt_isReal _ _ (fun n k => h0 _) (fun k q => h1 _)
  have e1 := layer_eq (linAt (fun n k => (m ((c.tc : Thread Cert.KernelIdeal.nD Cert.KernelIdeal.τ).loc Cert.KernelIdeal.main_arg0)) (ix2 n k)) (fun k q => (m ((c.tc : Thread Cert.KernelIdeal.nD Cert.KernelIdeal.τ).loc Cert.KernelIdeal.main_arg1)) (ix2 k q))) (fun q => (m ((c.tc : Thread Cert.KernelIdeal.nD Cert.KernelIdeal.τ).loc Cert.KernelIdeal.main_arg2)) (ix1 q))
    (Cert.ReferenceIdeal.Read.val_main_v19 (F := Ideal) (m ((c.tc : Thread Cert.KernelIdeal.nD Cert.KernelIdeal.τ).loc Cert.KernelIdeal.main_arg7))) (Cert.ReferenceIdeal.Read.val_main_v6 (F := Ideal) (m ((c.tc : Thread Cert.KernelIdeal.nD Cert.KernelIdeal.τ).loc Cert.KernelIdeal.main_arg7)))
    (Cert.ReferenceIdeal.Read.val_main_v26 (F := Ideal) (m ((c.tc : Thread Cert.KernelIdeal.nD Cert.KernelIdeal.τ).loc Cert.KernelIdeal.main_arg7))) hlin1 (lands_row (m ((c.tc : Thread Cert.KernelIdeal.nD Cert.KernelIdeal.τ).loc Cert.KernelIdeal.main_arg7)))
  rw [e1]
  have hlin2 := linAt_isReal _ (fun k q => (m ((c.tc : Thread Cert.KernelIdeal.nD Cert.KernelIdeal.τ).loc Cert.KernelIdeal.main_arg3)) (ix2 k q))
    (layerR_isReal (linAt (fun n k => (m ((c.tc : Thread Cert.KernelIdeal.nD Cert.KernelIdeal.τ).loc Cert.KernelIdeal.main_arg0)) (ix2 n k)) (fun k q => (m ((c.tc : Thread Cert.KernelIdeal.nD Cert.KernelIdeal.τ).loc Cert.KernelIdeal.main_arg1)) (ix2 k q))) (fun q => (m ((c.tc : Thread Cert.KernelIdeal.nD Cert.KernelIdeal.τ).loc Cert.KernelIdeal.main_arg2)) (ix1 q))
      (Cert.ReferenceIdeal.Read.val_main_v19 (F := Ideal) (m ((c.tc : Thread Cert.KernelIdeal.nD Cert.KernelIdeal.τ).loc Cert.KernelIdeal.main_arg7))) (Cert.ReferenceIdeal.Read.val_main_v6 (F := Ideal) (m ((c.tc : Thread Cert.KernelIdeal.nD Cert.KernelIdeal.τ).loc Cert.KernelIdeal.main_arg7)))
      (Cert.ReferenceIdeal.Read.val_main_v26 (F := Ideal) (m ((c.tc : Thread Cert.KernelIdeal.nD Cert.KernelIdeal.τ).loc Cert.KernelIdeal.main_arg7))) hlin1 (fun q => h2 _)) (fun k q => h3 _)
  rw [layer_eq _ (fun q => (m ((c.tc : Thread Cert.KernelIdeal.nD Cert.KernelIdeal.τ).loc Cert.KernelIdeal.main_arg4)) (ix1 q)) _ _ (Cert.ReferenceIdeal.Read.val_main_v26 (F := Ideal) (m ((c.tc : Thread Cert.KernelIdeal.nD Cert.KernelIdeal.τ).loc Cert.KernelIdeal.main_arg7))) hlin2 (lands_row (m ((c.tc : Thread Cert.KernelIdeal.nD Cert.KernelIdeal.τ).loc Cert.KernelIdeal.main_arg7)))]

end Cert.Join

end
-- ==== Proof.LibAbsFinite.lean ====
/- A finiteness test read on the extended reals: the f32 word 0x7F800000 denotes +∞, and an extended real whose absolute
   value (max y (-y)) compares strictly below that word is a real number — it is neither infinity. This is the element
   fact behind a precondition of the form |y| < +∞ at every entry. Nothing here depends on a particular program. -/
import Idealize.ShloMosaic.PureOps.Ideal
import Idealize.ShloMosaic.PureOps.Ideal.Laws
import proofs.«121145_j20194936226696_2_alg».proof.Proof.LibIsReal

noncomputable section

namespace Cert.Lib.AbsFinite

open Idealize.ShloMosaic Cert.Reals

/-- The float word 0x7F800000 denotes +∞. -/
theorem inf_word : Ideal.ofBits .f32 0x7F800000#32 = ⊤ := by simp [Ideal.ofBits, Ideal.ieee]

/-- An extended real whose absolute value compares below the word of +∞ is a real number. -/
theorem isReal_of_abs_lt {y : EReal} (e : Ideal.cmp .olt (max y (-y)) (Ideal.ofBits .f32 0x7F800000#32) = 1#1) : IsReal y := by
  rw [inf_word] at e
  induction y using EReal.rec with
  | bot => simp [Ideal.cmp] at e
  | top => simp [Ideal.cmp] at e
  | coe a => exact ⟨a, rfl⟩

end Cert.Lib.AbsFinite

end
-- ==== Proof.Finite.lean ====
/-
  What the precondition gives: every entry of `x`, `W1`, `b1` and `W2` is a real number.

  The precondition is a conjunction of seven tests `all(|a| < +∞)`, one per float argument, nested to the left. The
  tests of the first four arguments are the ones the algebra needs: distributing a scale over a sum of features is
  sound on real numbers only.
-/
import proofs.«121145_j20194936226696_2_alg».proof.Pre_finite_inputs
import proofs.«121145_j20194936226696_2_alg».proof.Proof.Gen.Pre_finite_inputs
import Idealize.ShloMosaic.Lib.ReduceAll
import Idealize.ShloMosaic.Lib.ValueIdx
import proofs.«121145_j20194936226696_2_alg».proof.Proof.LibAbsFinite

set_option maxRecDepth 16384

noncomputable section

namespace Cert.Pre_finite_inputs.Finite

open Cert.Pre_finite_inputs Cert.Pre_finite_inputs.Gen Idealize.ShloMosaic Idealize.ShloMosaic.ValueIdx Cert.Reals Cert.Lib.AbsFinite

instance : Subsingleton S_.Idx := ⟨fun a b => funext fun d => d.elim0⟩

/-- The first four tests of the precondition, entry by entry. -/
theorem reals_of_pre (a0 : FVec Ideal S100000x128 .f32) (a1 : FVec Ideal S128x128 .f32) (a2 : FVec Ideal S128 .f32)
    (a3 : FVec Ideal S128x128 .f32) (a4 : FVec Ideal S128 .f32) (a5 : FVec Ideal S128x16 .f32) (a6 : FVec Ideal S16 .f32)
    (a7 : IVec S2x1600000 32) (a8 : IVec S100000 32)
    (h : fn (F := Ideal) a0 a1 a2 a3 a4 a5 a6 a7 a8 = fun _ => 1#1) :
    (∀ i, IsReal (a0 i)) ∧ (∀ i, IsReal (a1 i)) ∧ (∀ i, IsReal (a2 i)) ∧ (∀ i, IsReal (a3 i)) := by
  have h0 := congrFun h ix0
  dsimp only [fn, fn_part1] at h0
  obtain ⟨h5, -⟩ := IntOp.andi_eq_one.1 h0
  obtain ⟨h4, -⟩ := IntOp.andi_eq_one.1 h5
  obtain ⟨h3, -⟩ := IntOp.andi_eq_one.1 h4
  obtain ⟨h2, hW2⟩ := IntOp.andi_eq_one.1 h3
  obtain ⟨h1, hb1⟩ := IntOp.andi_eq_one.1 h2
  obtain ⟨hx, hW1⟩ := IntOp.andi_eq_one.1 h1
  exact ⟨fun i => isReal_of_abs_lt (Host.reduce_andi_all _ _ _ _ _ hx i),
    fun i => isReal_of_abs_lt (Host.reduce_andi_all _ _ _ _ _ hW1 i),
    fun i => isReal_of_abs_lt (Host.reduce_andi_all _ _ _ _ _ hb1 i),
    fun i => isReal_of_abs_lt (Host.reduce_andi_all _ _ _ _ _ hW2 i)⟩

end Cert.Pre_finite_inputs.Finite

end
-- ==== Proof.lean ====
/-
  A two-layer graph convolution with mean pooling and a linear head, computed by four pipelined kernels around the
  host's gathers and scatters, against the plain edge-by-edge reference.

  With `deg` one plus a node's in-degree and `δ = deg^(-1/2)`, the reference weights edge `s → d` by `δ(s)·δ(d)` and the
  self loop by `1/deg(d)`. The kernels scale the projected rows by `δ` once per node, sum the scaled rows over the
  incoming edges, add the node's own scaled row, and scale the sum by `δ(d)` again. On real numbers these agree by
  distributivity and `δ² = 1/deg`; the precondition makes `x`, `W1`, `b1`, `W2` real, and every stage keeps reals real.
  The kernels' rounding of matrix operands to a shorter format is the identity on the extended reals, so the idealized
  kernel is the kernel's own text and nothing is owed for the idealization.
-/
import proofs.«121145_j20194936226696_2_alg».proof.Defs
import proofs.«121145_j20194936226696_2_alg».proof.Proof.Gen.Kernel
import proofs.«121145_j20194936226696_2_alg».proof.Proof.Gen.Kernel.Skeleton
import proofs.«121145_j20194936226696_2_alg».proof.Proof.Gen.Kernel.Launch
import proofs.«121145_j20194936226696_2_alg».proof.Proof.Gen.Kernel.Points
import proofs.«121145_j20194936226696_2_alg».proof.Proof.Gen.Kernel.Frame
import proofs.«121145_j20194936226696_2_alg».proof.Proof.Gen.KernelIdeal
import proofs.«121145_j20194936226696_2_alg».proof.Proof.Gen.KernelIdeal.Skeleton
import proofs.«121145_j20194936226696_2_alg».proof.Proof.Gen.KernelIdeal.Launch
import proofs.«121145_j20194936226696_2_alg».proof.Proof.Gen.KernelIdeal.Points
import proofs.«121145_j20194936226696_2_alg».proof.Proof.Gen.KernelIdeal.Frame
import proofs.«121145_j20194936226696_2_alg».proof.Proof.Gen.ReferenceIdeal
import proofs.«121145_j20194936226696_2_alg».proof.Proof.Gen.Pre_finite_inputs
import proofs.«121145_j20194936226696_2_alg».proof.Proof.Gen.ReferenceIdeal.Run
import proofs.«121145_j20194936226696_2_alg».proof.Proof.Gen.ReferenceIdeal.Read
import proofs.«121145_j20194936226696_2_alg».proof.Proof.KernelRun
import proofs.«121145_j20194936226696_2_alg».proof.Proof.Join
import proofs.«121145_j20194936226696_2_alg».proof.Proof.Finite
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs run and end at one result: the kernel's at what the fourth region leaves, the reference's at its
    composed term, and the two are one function of arguments that agree. -/
theorem algebraic : Cert.algebraic_KernelIdeal_ReferenceIdeal := by
  intro m ρ m' ρ' hpre hagree
  refine ⟨fun c => Cert.KernelIdeal.Gen.W8 (F := Ideal) m ρ c (Proc.devRef .tc Cert.KernelIdeal.main_v48),
    Cert.KernelIdeal.Whole.run m ρ, ?_⟩
  refine (θ_run Cert.ReferenceIdeal.defs _ _).mono (fun r h c => ⟨(h c).1.trans ?_, (h c).2⟩)
    (Cert.ReferenceIdeal.Value.run (F := Ideal) m' ρ')
  obtain ⟨e0, e1, e2, e3, e4, e5, e6, e7, e8⟩ := hagree c
  rw [Cert.ReferenceIdeal.Read.val_main_v102_eq, e0, e1, e2, e3, e4, e5, e6, e7, e8]
  obtain ⟨h0, h1, h2, h3⟩ := Cert.Pre_finite_inputs.Finite.reals_of_pre _ _ _ _ _ _ _ _ _ (hpre c)
  exact Cert.Join.result_eq m ρ c h0 h1 h2 h3

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
